-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x4096x6 : Shape := ⟨3, ![256, 4096, 6]⟩
abbrev S8x6 : Shape := ⟨2, ![8, 6]⟩
abbrev S8 : Shape := ⟨1, ![8]⟩
abbrev S8x8 : Shape := ⟨2, ![8, 8]⟩
abbrev S15x8 : Shape := ⟨2, ![15, 8]⟩
abbrev S15 : Shape := ⟨1, ![15]⟩
abbrev S_ : Shape := ⟨0, ![]⟩

class Facts : Prop where
  bcast_S_S256x4096x6 : S_.BroadcastsInDim S256x4096x6 (![] : Fin 0 → Fin S256x4096x6.rank)
  reducesTo_S256x4096x6_S_d0_1_2 : S256x4096x6.ReducesTo [0, 1, 2] S_
  h_S_ : 0 < S_.numel
  bcast_S_S8x6 : S_.BroadcastsInDim S8x6 (![] : Fin 0 → Fin S8x6.rank)
  reducesTo_S8x6_S_d0_1 : S8x6.ReducesTo [0, 1] S_
  bcast_S_S8 : S_.BroadcastsInDim S8 (![] : Fin 0 → Fin S8.rank)
  reducesTo_S8_S_d0 : S8.ReducesTo [0] S_
  bcast_S_S8x8 : S_.BroadcastsInDim S8x8 (![] : Fin 0 → Fin S8x8.rank)
  reducesTo_S8x8_S_d0_1 : S8x8.ReducesTo [0, 1] S_
  bcast_S_S15x8 : S_.BroadcastsInDim S15x8 (![] : Fin 0 → Fin S15x8.rank)
  reducesTo_S15x8_S_d0_1 : S15x8.ReducesTo [0, 1] S_
  bcast_S_S15 : S_.BroadcastsInDim S15 (![] : Fin 0 → Fin S15.rank)
  reducesTo_S15_S_d0 : S15.ReducesTo [0] S_

variable [Facts]

def fn_part3 {F : FTy → Type} [FloatOps F] (main_arg11 : FVec F S15x8 .f32) (main_arg12 : FVec F S15 .f32) (main_v48 : IVec S_ 1) (main_v49 : FVec F S8 .f32) (main_v50 : FVec F S8 .f32) : IVec S_ 1 :=
  let main_v51 : IVec S8 1 := cmpf .olt main_v49 main_v50
  let main_c_19 : IVec S_ 1 := constantI S_ 1 1#1
  let main_v52 : IVec S_ 1 := (fun x v => Host.reduce IntOp.andi x v reducesTo_S8_S_d0 h_S_) main_v51 main_c_19
  let main_v53 : IVec S_ 1 := andi main_v48 main_v52
  let main_v54 : FVec F S15x8 .f32 := Host.absf main_arg11
  let main_cst_20 : FVec F S_ .f32 := constant S_ .f32 0x7F800000#32
  let main_v55 : FVec F S15x8 .f32 := broadcastInDim S15x8 ![] bcast_S_S15x8 main_cst_20
  let main_v56 : IVec S15x8 1 := cmpf .olt main_v54 main_v55
  let main_c_21 : IVec S_ 1 := constantI S_ 1 1#1
  let main_v57 : IVec S_ 1 := (fun x v => Host.reduce IntOp.andi x v reducesTo_S15x8_S_d0_1 h_S_) main_v56 main_c_21
  let main_v58 : IVec S_ 1 := andi main_v53 main_v57
  let main_v59 : FVec F S15 .f32 := Host.absf main_arg12
  let main_cst_22 : FVec F S_ .f32 := constant S_ .f32 0x7F800000#32
  let main_v60 : FVec F S15 .f32 := broadcastInDim S15 ![] bcast_S_S15 main_cst_22
  let main_v61 : IVec S15 1 := cmpf .olt main_v59 main_v60
  let main_c_23 : IVec S_ 1 := constantI S_ 1 1#1
  let main_v62 : IVec S_ 1 := (fun x v => Host.reduce IntOp.andi x v reducesTo_S15_S_d0 h_S_) main_v61 main_c_23
  let main_v63 : IVec S_ 1 := andi main_v58 main_v62
  main_v63

def fn_part2 {F : FTy → Type} [FloatOps F] (main_arg7 : FVec F S8x8 .f32) (main_arg8 : FVec F S8 .f32) (main_arg9 : FVec F S8x8 .f32) (main_arg10 : FVec F S8 .f32) (main_arg11 : FVec F S15x8 .f32) (main_arg12 : FVec F S15 .f32) (main_v33 : IVec S_ 1) : IVec S_ 1 :=
  let main_v34 : FVec F S8x8 .f32 := Host.absf main_arg7
  let main_cst_12 : FVec F S_ .f32 := constant S_ .f32 0x7F800000#32
  let main_v35 : FVec F S8x8 .f32 := broadcastInDim S8x8 ![] bcast_S_S8x8 main_cst_12
  let main_v36 : IVec S8x8 1 := cmpf .olt main_v34 main_v35
  let main_c_13 : IVec S_ 1 := constantI S_ 1 1#1
  let main_v37 : IVec S_ 1 := (fun x v => Host.reduce IntOp.andi x v reducesTo_S8x8_S_d0_1 h_S_) main_v36 main_c_13
  let main_v38 : IVec S_ 1 := andi main_v33 main_v37
  let main_v39 : FVec F S8 .f32 := Host.absf main_arg8
  let main_cst_14 : FVec F S_ .f32 := constant S_ .f32 0x7F800000#32
  let main_v40 : FVec F S8 .f32 := broadcastInDim S8 ![] bcast_S_S8 main_cst_14
  let main_v41 : IVec S8 1 := cmpf .olt main_v39 main_v40
  let main_c_15 : IVec S_ 1 := constantI S_ 1 1#1
  let main_v42 : IVec S_ 1 := (fun x v => Host.reduce IntOp.andi x v reducesTo_S8_S_d0 h_S_) main_v41 main_c_15
  let main_v43 : IVec S_ 1 := andi main_v38 main_v42
  let main_v44 : FVec F S8x8 .f32 := Host.absf main_arg9
  let main_cst_16 : FVec F S_ .f32 := constant S_ .f32 0x7F800000#32
  let main_v45 : FVec F S8x8 .f32 := broadcastInDim S8x8 ![] bcast_S_S8x8 main_cst_16
  let main_v46 : IVec S8x8 1 := cmpf .olt main_v44 main_v45
  let main_c_17 : IVec S_ 1 := constantI S_ 1 1#1
  let main_v47 : IVec S_ 1 := (fun x v => Host.reduce IntOp.andi x v reducesTo_S8x8_S_d0_1 h_S_) main_v46 main_c_17
  let main_v48 : IVec S_ 1 := andi main_v43 main_v47
  let main_v49 : FVec F S8 .f32 := Host.absf main_arg10
  let main_cst_18 : FVec F S_ .f32 := constant S_ .f32 0x7F800000#32
  let main_v50 : FVec F S8 .f32 := broadcastInDim S8 ![] bcast_S_S8 main_cst_18
  fn_part3 (F := F) main_arg11 main_arg12 main_v48 main_v49 main_v50

def fn_part1 {F : FTy → Type} [FloatOps F] (main_arg4 : FVec F S8 .f32) (main_arg5 : FVec F S8x8 .f32) (main_arg6 : FVec F S8 .f32) (main_arg7 : FVec F S8x8 .f32) (main_arg8 : FVec F S8 .f32) (main_arg9 : FVec F S8x8 .f32) (main_arg10 : FVec F S8 .f32) (main_arg11 : FVec F S15x8 .f32) (main_arg12 : FVec F S15 .f32) (main_v13 : IVec S_ 1) (main_v16 : IVec S8x8 1) : IVec S_ 1 :=
  let main_c_5 : IVec S_ 1 := constantI S_ 1 1#1
  let main_v17 : IVec S_ 1 := (fun x v => Host.reduce IntOp.andi x v reducesTo_S8x8_S_d0_1 h_S_) main_v16 main_c_5
  let main_v18 : IVec S_ 1 := andi main_v13 main_v17
  let main_v19 : FVec F S8 .f32 := Host.absf main_arg4
  let main_cst_6 : FVec F S_ .f32 := constant S_ .f32 0x7F800000#32
  let main_v20 : FVec F S8 .f32 := broadcastInDim S8 ![] bcast_S_S8 main_cst_6
  let main_v21 : IVec S8 1 := cmpf .olt main_v19 main_v20
  let main_c_7 : IVec S_ 1 := constantI S_ 1 1#1
  let main_v22 : IVec S_ 1 := (fun x v => Host.reduce IntOp.andi x v reducesTo_S8_S_d0 h_S_) main_v21 main_c_7
  let main_v23 : IVec S_ 1 := andi main_v18 main_v22
  let main_v24 : FVec F S8x8 .f32 := Host.absf main_arg5
  let main_cst_8 : FVec F S_ .f32 := constant S_ .f32 0x7F800000#32
  let main_v25 : FVec F S8x8 .f32 := broadcastInDim S8x8 ![] bcast_S_S8x8 main_cst_8
  let main_v26 : IVec S8x8 1 := cmpf .olt main_v24 main_v25
  let main_c_9 : IVec S_ 1 := constantI S_ 1 1#1
  let main_v27 : IVec S_ 1 := (fun x v => Host.reduce IntOp.andi x v reducesTo_S8x8_S_d0_1 h_S_) main_v26 main_c_9
  let main_v28 : IVec S_ 1 := andi main_v23 main_v27
  let main_v29 : FVec F S8 .f32 := Host.absf main_arg6
  let main_cst_10 : FVec F S_ .f32 := constant S_ .f32 0x7F800000#32
  let main_v30 : FVec F S8 .f32 := broadcastInDim S8 ![] bcast_S_S8 main_cst_10
  let main_v31 : IVec S8 1 := cmpf .olt main_v29 main_v30
  let main_c_11 : IVec S_ 1 := constantI S_ 1 1#1
  let main_v32 : IVec S_ 1 := (fun x v => Host.reduce IntOp.andi x v reducesTo_S8_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S256x4096x6 .f32) (main_arg1 : FVec F S8x6 .f32) (main_arg2 : FVec F S8 .f32) (main_arg3 : FVec F S8x8 .f32) (main_arg4 : FVec F S8 .f32) (main_arg5 : FVec F S8x8 .f32) (main_arg6 : FVec F S8 .f32) (main_arg7 : FVec F S8x8 .f32) (main_arg8 : FVec F S8 .f32) (main_arg9 : FVec F S8x8 .f32) (main_arg10 : FVec F S8 .f32) (main_arg11 : FVec F S15x8 .f32) (main_arg12 : FVec F S15 .f32) : IVec S_ 1 :=
  let main_v0 : FVec F S256x4096x6 .f32 := Host.absf main_arg0
  let main_cst : FVec F S_ .f32 := constant S_ .f32 0x7F800000#32
  let main_v1 : FVec F S256x4096x6 .f32 := broadcastInDim S256x4096x6 ![] bcast_S_S256x4096x6 main_cst
  let main_v2 : IVec S256x4096x6 1 := cmpf .olt main_v0 main_v1
  let main_c : IVec S_ 1 := constantI S_ 1 1#1
  let main_v3 : IVec S_ 1 := (fun x v => Host.reduce IntOp.andi x v reducesTo_S256x4096x6_S_d0_1_2 h_S_) main_v2 main_c
  let main_v4 : FVec F S8x6 .f32 := Host.absf main_arg1
  let main_cst_0 : FVec F S_ .f32 := constant S_ .f32 0x7F800000#32
  let main_v5 : FVec F S8x6 .f32 := broadcastInDim S8x6 ![] bcast_S_S8x6 main_cst_0
  let main_v6 : IVec S8x6 1 := cmpf .olt main_v4 main_v5
  let main_c_1 : IVec S_ 1 := constantI S_ 1 1#1
  let main_v7 : IVec S_ 1 := (fun x v => Host.reduce IntOp.andi x v reducesTo_S8x6_S_d0_1 h_S_) main_v6 main_c_1
  let main_v8 : IVec S_ 1 := andi main_v3 main_v7
  let main_v9 : FVec F S8 .f32 := Host.absf main_arg2
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  let main_c_3 : IVec S_ 1 := constantI S_ 1 1#1
  let main_v12 : IVec S_ 1 := (fun x v => Host.reduce IntOp.andi x v reducesTo_S8_S_d0 h_S_) main_v11 main_c_3
  let main_v13 : IVec S_ 1 := andi main_v8 main_v12
  let main_v14 : FVec F S8x8 .f32 := Host.absf main_arg3
  let main_cst_4 : FVec F S_ .f32 := constant S_ .f32 0x7F800000#32
  let main_v15 : FVec F S8x8 .f32 := broadcastInDim S8x8 ![] bcast_S_S8x8 main_cst_4
  let main_v16 : IVec S8x8 1 := cmpf .olt main_v14 main_v15
  fn_part1 (F := F) main_arg4 main_arg5 main_arg6 main_arg7 main_arg8 main_arg9 main_arg10 main_arg11 main_arg12 main_v13 main_v16
-- ==== Kernel.lean ====
abbrev S256x4096x6 : Shape := ⟨3, ![256, 4096, 6]⟩
abbrev S8x6 : Shape := ⟨2, ![8, 6]⟩
abbrev S8 : Shape := ⟨1, ![8]⟩
abbrev S8x8 : Shape := ⟨2, ![8, 8]⟩
abbrev S15x8 : Shape := ⟨2, ![15, 8]⟩
abbrev S15 : Shape := ⟨1, ![15]⟩
abbrev S15x36 : Shape := ⟨2, ![15, 36]⟩
abbrev S1048576x6 : Shape := ⟨2, ![1048576, 6]⟩
abbrev S6x8 : Shape := ⟨2, ![6, 8]⟩
abbrev S8x15 : Shape := ⟨2, ![8, 15]⟩
abbrev S1048576x36 : Shape := ⟨2, ![1048576, 36]⟩
abbrev S8192x6 : Shape := ⟨2, ![8192, 6]⟩
abbrev S8192x36 : Shape := ⟨2, ![8192, 36]⟩
abbrev S8192x8 : Shape := ⟨2, ![8192, 8]⟩
abbrev S1x8 : Shape := ⟨2, ![1, 8]⟩
abbrev S8192x15 : Shape := ⟨2, ![8192, 15]⟩
abbrev S1x15 : Shape := ⟨2, ![1, 15]⟩
abbrev S256x4096x6x6 : Shape := ⟨4, ![256, 4096, 6, 6]⟩

abbrev nBuf : Space → Nat
  | .hbm => 23
  | .vmem => 17
  | .smem => 0
  | _ => 0

abbrev bufTy : (tb : Table) → Fin (tcTables nBuf tb) → BufTy
  | .hbm, ⟨0, _⟩ => ⟨S256x4096x6, .f32⟩
  | .hbm, ⟨1, _⟩ => ⟨S8x6, .f32⟩
  | .hbm, ⟨2, _⟩ => ⟨S8, .f32⟩
  | .hbm, ⟨3, _⟩ => ⟨S8x8, .f32⟩
  | .hbm, ⟨4, _⟩ => ⟨S8, .f32⟩
  | .hbm, ⟨5, _⟩ => ⟨S8x8, .f32⟩
  | .hbm, ⟨6, _⟩ => ⟨S8, .f32⟩
  | .hbm, ⟨7, _⟩ => ⟨S8x8, .f32⟩
  | .hbm, ⟨8, _⟩ => ⟨S8, .f32⟩
  | .hbm, ⟨9, _⟩ => ⟨S8x8, .f32⟩
  | .hbm, ⟨10, _⟩ => ⟨S8, .f32⟩
  | .hbm, ⟨11, _⟩ => ⟨S15x8, .f32⟩
  | .hbm, ⟨12, _⟩ => ⟨S15, .f32⟩
  | .hbm, ⟨13, _⟩ => ⟨S15x36, .f32⟩
  | .hbm, ⟨14, _⟩ => ⟨S1048576x6, .f32⟩
  | .hbm, ⟨15, _⟩ => ⟨S6x8, .f32⟩
  | .hbm, ⟨16, _⟩ => ⟨S8x8, .f32⟩
  | .hbm, ⟨17, _⟩ => ⟨S8x8, .f32⟩
  | .hbm, ⟨18, _⟩ => ⟨S8x8, .f32⟩
  | .hbm, ⟨19, _⟩ => ⟨S8x8, .f32⟩
  | .hbm, ⟨20, _⟩ => ⟨S8x15, .f32⟩
  | .hbm, ⟨21, _⟩ => ⟨S1048576x36, .f32⟩
  | .hbm, ⟨22, _⟩ => ⟨S256x4096x6x6, .f32⟩
  | .local _ .vmem, ⟨0, _⟩ => ⟨S8192x6, .f32⟩
  | .local _ .vmem, ⟨1, _⟩ => ⟨S8192x6, .f32⟩
  | .local _ .vmem, ⟨2, _⟩ => ⟨S6x8, .f32⟩
  | .local _ .vmem, ⟨3, _⟩ => ⟨S8, .f32⟩
  | .local _ .vmem, ⟨4, _⟩ => ⟨S8x8, .f32⟩
  | .local _ .vmem, ⟨5, _⟩ => ⟨S8, .f32⟩
  | .local _ .vmem, ⟨6, _⟩ => ⟨S8x8, .f32⟩
  | .local _ .vmem, ⟨7, _⟩ => ⟨S8, .f32⟩
  | .local _ .vmem, ⟨8, _⟩ => ⟨S8x8, .f32⟩
  | .local _ .vmem, ⟨9, _⟩ => ⟨S8, .f32⟩
  | .local _ .vmem, ⟨10, _⟩ => ⟨S8x8, .f32⟩
  | .local _ .vmem, ⟨11, _⟩ => ⟨S8, .f32⟩
  | .local _ .vmem, ⟨12, _⟩ => ⟨S8x15, .f32⟩
  | .local _ .vmem, ⟨13, _⟩ => ⟨S15, .f32⟩
  | .local _ .vmem, ⟨14, _⟩ => ⟨S15x36, .f32⟩
  | .local _ .vmem, ⟨15, _⟩ => ⟨S8192x36, .f32⟩
  | .local _ .vmem, ⟨16, _⟩ => ⟨S8192x36, .f32⟩
  | _, _ => ⟨S256x4096x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg14_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem14_1 : DmaSem sig := 16

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x6 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S6x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x8 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x15 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S15 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S15x36 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S8192x36 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

class Facts₀ : Prop where
  shapeCasts_S256x4096x6_S1048576x6 : S256x4096x6.ShapeCasts S1048576x6
  transposes_S8x6_S6x8_1_0 : S8x6.Transposes [1, 0] S6x8
  transposes_S8x8_S8x8_1_0 : S8x8.Transposes [1, 0] S8x8
  transposes_S15x8_S8x15_1_0 : S15x8.Transposes [1, 0] S8x15
  inb_S8192x6_S8192x6_0_0 : ∀ a, (![0, 0] : Fin 2 → Nat) a + S8192x6.size a ≤ S8192x6.size a
  h_S8192x6 : 0 < S8192x6.numel
  shapeCasts_S8192x6_S8192x6 : S8192x6.ShapeCasts S8192x6
  inb_S6x8_S6x8_0_0 : ∀ a, (![0, 0] : Fin 2 → Nat) a + S6x8.size a ≤ S6x8.size a
  h_S6x8 : 0 < S6x8.numel
  shapeCasts_S6x8_S6x8 : S6x8.ShapeCasts S6x8
  inb_S8_S8_0 : ∀ a, (![0] : Fin 1 → Nat) a + S8.size a ≤ S8.size a
  h_S8 : 0 < S8.numel
  shapeCasts_S8_S1x8 : S8.ShapeCasts S1x8
  broadcasts_S1x8_S8192x8 : S1x8.Broadcasts S8192x8
  inb_S8x8_S8x8_0_0 : ∀ a, (![0, 0] : Fin 2 → Nat) a + S8x8.size a ≤ S8x8.size a
  h_S8x8 : 0 < S8x8.numel
  shapeCasts_S8x8_S8x8 : S8x8.ShapeCasts S8x8
  inb_S8x15_S8x15_0_0 : ∀ a, (![0, 0] : Fin 2 → Nat) a + S8x15.size a ≤ S8x15.size a
  h_S8x15 : 0 < S8x15.numel
  shapeCasts_S8x15_S8x15 : S8x15.ShapeCasts S8x15
  inb_S15_S15_0 : ∀ a, (![0] : Fin 1 → Nat) a + S15.size a ≤ S15.size a
  h_S15 : 0 < S15.numel
  shapeCasts_S15_S1x15 : S15.ShapeCasts S1x15
  broadcasts_S1x15_S8192x15 : S1x15.Broadcasts S8192x15
  inb_S15x36_S15x36_0_0 : ∀ a, (![0, 0] : Fin 2 → Nat) a + S15x36.size a ≤ S15x36.size a
  h_S15x36 : 0 < S15x36.numel
  inb_S8192x36_S8192x36_0_0 : ∀ a, (![0, 0] : Fin 2 → Nat) a + S8192x36.size a ≤ S8192x36.size a
  h_S8192x36 : 0 < S8192x36.numel
  shapeCasts_S1048576x36_S256x4096x6x6 : S1048576x36.ShapeCasts S256x4096x6x6
  dot_S8192x6_S6x8_S8192x8_1_0_0_1_n_n_wf : DotDims.WF S8192x6 S6x8 S8192x8 [1] [0] [0] [1] [] []
  dot_S8192x8_S8x8_S8192x8_1_0_0_1_n_n_wf : DotDims.WF S8192x8 S8x8 S8192x8 [1] [0] [0] [1] [] []
  dot_S8192x8_S8x15_S8192x15_1_0_0_1_n_n_wf : DotDims.WF S8192x8 S8x15 S8192x15 [1] [0] [0] [1] [] []
  dot_S8192x15_S15x36_S8192x36_1_0_0_1_n_n_wf : DotDims.WF S8192x15 S15x36 S8192x36 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x6.size a ≤ S1048576x6.size a
  hwx0_0 : ∀ i : grid0.Coords, EltTy.bits .f32 = 32 ∨ (Rect.block (s := S1048576x6) S8192x6.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S6x8.size a ≤ S6x8.size a
  hwx0_1 : ∀ i : grid0.Coords, EltTy.bits .f32 = 32 ∨ (Rect.block (s := S6x8) S6x8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8.size a ≤ S8.size a
  hwx0_2 : ∀ i : grid0.Coords, EltTy.bits .f32 = 32 ∨ (Rect.block (s := S8) S8.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x8.size a ≤ S8x8.size a
  hwx0_3 : ∀ i : grid0.Coords, EltTy.bits .f32 = 32 ∨ (Rect.block (s := S8x8) S8x8.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8.size a ≤ S8.size a
  hwx0_4 : ∀ i : grid0.Coords, EltTy.bits .f32 = 32 ∨ (Rect.block (s := S8) S8.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S8x8.size a ≤ S8x8.size a
  hwx0_5 : ∀ i : grid0.Coords, EltTy.bits .f32 = 32 ∨ (Rect.block (s := S8x8) S8x8.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S8.size a ≤ S8.size a
  hwx0_6 : ∀ i : grid0.Coords, EltTy.bits .f32 = 32 ∨ (Rect.block (s := S8) S8.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S8x8.size a ≤ S8x8.size a
  hwx0_7 : ∀ i : grid0.Coords, EltTy.bits .f32 = 32 ∨ (Rect.block (s := S8x8) S8x8.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S8.size a ≤ S8.size a
  hwx0_8 : ∀ i : grid0.Coords, EltTy.bits .f32 = 32 ∨ (Rect.block (s := S8) S8.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S8x8.size a ≤ S8x8.size a
  hwx0_9 : ∀ i : grid0.Coords, EltTy.bits .f32 = 32 ∨ (Rect.block (s := S8x8) S8x8.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S8.size a ≤ S8.size a
  hwx0_10 : ∀ i : grid0.Coords, EltTy.bits .f32 = 32 ∨ (Rect.block (s := S8) S8.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S8x15.size a ≤ S8x15.size a
  hwx0_11 : ∀ i : grid0.Coords, EltTy.bits .f32 = 32 ∨ (Rect.block (s := S8x15) S8x15.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S15.size a ≤ S15.size a
  hwx0_12 : ∀ i : grid0.Coords, EltTy.bits .f32 = 32 ∨ (Rect.block (s := S15) S15.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S15x36.size a ≤ S15x36.size a
  hwx0_13 : ∀ i : grid0.Coords, EltTy.bits .f32 = 32 ∨ (Rect.block (s := S15x36) S15x36.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S8192x36.size a ≤ S1048576x36.size a
  hwx0_14 : ∀ i : grid0.Coords, EltTy.bits .f32 = 32 ∨ (Rect.block (s := S1048576x36) S8192x36.size (cc0_transform_14 i) (hinb0_14 i)).WholeWords (EltTy.packing .f32)

variable [Facts₀]

def dot_S8192x6_S6x8_S8192x8_1_0_0_1_n_n : DotDims S8192x6 S6x8 S8192x8 where
  lhsContracting := [1]
  rhsContracting := [0]
  lhsNonContracting := [0]
  rhsNonContracting := [1]
  lhsBatch := []
  rhsBatch := []
  wf := dot_S8192x6_S6x8_S8192x8_1_0_0_1_n_n_wf
def dot_S8192x8_S8x8_S8192x8_1_0_0_1_n_n : DotDims S8192x8 S8x8 S8192x8 where
  lhsContracting := [1]
  rhsContracting := [0]
  lhsNonContracting := [0]
  rhsNonContracting := [1]
  lhsBatch := []
  rhsBatch := []
  wf := dot_S8192x8_S8x8_S8192x8_1_0_0_1_n_n_wf
def dot_S8192x8_S8x15_S8192x15_1_0_0_1_n_n : DotDims S8192x8 S8x15 S8192x15 where
  lhsContracting := [1]
  rhsContracting := [0]
  lhsNonContracting := [0]
  rhsNonContracting := [1]
  lhsBatch := []
  rhsBatch := []
  wf := dot_S8192x8_S8x15_S8192x15_1_0_0_1_n_n_wf
def dot_S8192x15_S15x36_S8192x36_1_0_0_1_n_n : DotDims S8192x15 S15x36 S8192x36 where
  lhsContracting := [1]
  rhsContracting := [0]
  lhsNonContracting := [0]
  rhsNonContracting := [1]
  lhsBatch := []
  rhsBatch := []
  wf := dot_S8192x15_S15x36_S8192x36_1_0_0_1_n_n_wf

abbrev win0_0 : Pipeline.Window sig grid0 :=
  Pipeline.Window.ofSpec (Memref.whole main_v0) S8192x6.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S6x8.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S8x8.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S8.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S8x8.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S8.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S8x8.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S8.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v5) S8x8.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S8.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v6) S8x15.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S15.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_cst) S15x36.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v7) S8192x36.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

class Facts : Prop extends Facts₀ where

variable [Facts]
-- ==== ReferenceIdeal.lean ====
abbrev S256x4096x6 : Shape := ⟨3, ![256, 4096, 6]⟩
abbrev S8x6 : Shape := ⟨2, ![8, 6]⟩
abbrev S8 : Shape := ⟨1, ![8]⟩
abbrev S8x8 : Shape := ⟨2, ![8, 8]⟩
abbrev S15x8 : Shape := ⟨2, ![15, 8]⟩
abbrev S15 : Shape := ⟨1, ![15]⟩
abbrev S1048576x6 : Shape := ⟨2, ![1048576, 6]⟩
abbrev S6x8 : Shape := ⟨2, ![6, 8]⟩
abbrev S1048576x8 : Shape := ⟨2, ![1048576, 8]⟩
abbrev S1x8 : Shape := ⟨2, ![1, 8]⟩
abbrev S_ : Shape := ⟨0, ![]⟩
abbrev S8x15 : Shape := ⟨2, ![8, 15]⟩
abbrev S1048576x15 : Shape := ⟨2, ![1048576, 15]⟩
abbrev S1x15 : Shape := ⟨2, ![1, 15]⟩
abbrev S6x6 : Shape := ⟨2, ![6, 6]⟩
abbrev S36 : Shape := ⟨1, ![36]⟩
abbrev S36x1 : Shape := ⟨2, ![36, 1]⟩
abbrev S1048576x6x6 : Shape := ⟨3, ![1048576, 6, 6]⟩
abbrev S15x1 : Shape := ⟨2, ![15, 1]⟩
abbrev S15x2 : Shape := ⟨2, ![15, 2]⟩
abbrev S256x4096x6x6 : Shape := ⟨4, ![256, 4096, 6, 6]⟩

abbrev nBuf : Space → Nat
  | .hbm => 271
  | .vmem => 0
  | .smem => 0
  | _ => 0

abbrev hbmTy0_0 (i : Nat) : BufTy := match i % 128 with
  | 0 => ⟨S256x4096x6, .f32⟩
  | 1 => ⟨S8x6, .f32⟩
  | 2 => ⟨S8, .f32⟩
  | 3 => ⟨S8x8, .f32⟩
  | 4 => ⟨S8, .f32⟩
  | 5 => ⟨S8x8, .f32⟩
  | 6 => ⟨S8, .f32⟩
  | 7 => ⟨S8x8, .f32⟩
  | 8 => ⟨S8, .f32⟩
  | 9 => ⟨S8x8, .f32⟩
  | 10 => ⟨S8, .f32⟩
  | 11 => ⟨S15x8, .f32⟩
  | 12 => ⟨S15, .f32⟩
  | 13 => ⟨S1048576x6, .f32⟩
  | 14 => ⟨S6x8, .f32⟩
  | 15 => ⟨S1048576x8, .f32⟩
  | 16 => ⟨S1x8, .f32⟩
  | 17 => ⟨S1048576x8, .f32⟩
  | 18 => ⟨S1048576x8, .f32⟩
  | 19 => ⟨S_, .f32⟩
  | 20 => ⟨S1048576x8, .f32⟩
  | 21 => ⟨S1048576x8, .f32⟩
  | 22 => ⟨S1048576x8, .f32⟩
  | 23 => ⟨S1048576x8, .f32⟩
  | 24 => ⟨S1048576x8, .i1⟩
  | 25 => ⟨S1048576x8, .f32⟩
  | 26 => ⟨S1048576x8, .f32⟩
  | 27 => ⟨S1048576x8, .f32⟩
  | 28 => ⟨S1048576x8, .f32⟩
  | 29 => ⟨S1048576x8, .f32⟩
  | 30 => ⟨S1048576x8, .f32⟩
  | 31 => ⟨S1048576x8, .f32⟩
  | 32 => ⟨S1048576x8, .f32⟩
  | 33 => ⟨S8x8, .f32⟩
  | 34 => ⟨S1048576x8, .f32⟩
  | 35 => ⟨S1x8, .f32⟩
  | 36 => ⟨S1048576x8, .f32⟩
  | 37 => ⟨S1048576x8, .f32⟩
  | 38 => ⟨S_, .f32⟩
  | 39 => ⟨S1048576x8, .f32⟩
  | 40 => ⟨S1048576x8, .f32⟩
  | 41 => ⟨S1048576x8, .f32⟩
  | 42 => ⟨S1048576x8, .f32⟩
  | 43 => ⟨S1048576x8, .i1⟩
  | 44 => ⟨S1048576x8, .f32⟩
  | 45 => ⟨S1048576x8, .f32⟩
  | 46 => ⟨S1048576x8, .f32⟩
  | 47 => ⟨S1048576x8, .f32⟩
  | 48 => ⟨S1048576x8, .f32⟩
  | 49 => ⟨S1048576x8, .f32⟩
  | 50 => ⟨S1048576x8, .f32⟩
  | 51 => ⟨S1048576x8, .f32⟩
  | 52 => ⟨S8x8, .f32⟩
  | 53 => ⟨S1048576x8, .f32⟩
  | 54 => ⟨S1x8, .f32⟩
  | 55 => ⟨S1048576x8, .f32⟩
  | 56 => ⟨S1048576x8, .f32⟩
  | 57 => ⟨S_, .f32⟩
  | 58 => ⟨S1048576x8, .f32⟩
  | 59 => ⟨S1048576x8, .f32⟩
  | 60 => ⟨S1048576x8, .f32⟩
  | 61 => ⟨S1048576x8, .f32⟩
  | 62 => ⟨S1048576x8, .i1⟩
  | 63 => ⟨S1048576x8, .f32⟩
  | 64 => ⟨S1048576x8, .f32⟩
  | 65 => ⟨S1048576x8, .f32⟩
  | 66 => ⟨S1048576x8, .f32⟩
  | 67 => ⟨S1048576x8, .f32⟩
  | 68 => ⟨S1048576x8, .f32⟩
  | 69 => ⟨S1048576x8, .f32⟩
  | 70 => ⟨S1048576x8, .f32⟩
  | 71 => ⟨S8x8, .f32⟩
  | 72 => ⟨S1048576x8, .f32⟩
  | 73 => ⟨S1x8, .f32⟩
  | 74 => ⟨S1048576x8, .f32⟩
  | 75 => ⟨S1048576x8, .f32⟩
  | 76 => ⟨S_, .f32⟩
  | 77 => ⟨S1048576x8, .f32⟩
  | 78 => ⟨S1048576x8, .f32⟩
  | 79 => ⟨S1048576x8, .f32⟩
  | 80 => ⟨S1048576x8, .f32⟩
  | 81 => ⟨S1048576x8, .i1⟩
  | 82 => ⟨S1048576x8, .f32⟩
  | 83 => ⟨S1048576x8, .f32⟩
  | 84 => ⟨S1048576x8, .f32⟩
  | 85 => ⟨S1048576x8, .f32⟩
  | 86 => ⟨S1048576x8, .f32⟩
  | 87 => ⟨S1048576x8, .f32⟩
  | 88 => ⟨S1048576x8, .f32⟩
  | 89 => ⟨S1048576x8, .f32⟩
  | 90 => ⟨S8x8, .f32⟩
  | 91 => ⟨S1048576x8, .f32⟩
  | 92 => ⟨S1x8, .f32⟩
  | 93 => ⟨S1048576x8, .f32⟩
  | 94 => ⟨S1048576x8, .f32⟩
  | 95 => ⟨S_, .f32⟩
  | 96 => ⟨S1048576x8, .f32⟩
  | 97 => ⟨S1048576x8, .f32⟩
  | 98 => ⟨S1048576x8, .f32⟩
  | 99 => ⟨S1048576x8, .f32⟩
  | 100 => ⟨S1048576x8, .i1⟩
  | 101 => ⟨S1048576x8, .f32⟩
  | 102 => ⟨S1048576x8, .f32⟩
  | 103 => ⟨S1048576x8, .f32⟩
  | 104 => ⟨S1048576x8, .f32⟩
  | 105 => ⟨S1048576x8, .f32⟩
  | 106 => ⟨S1048576x8, .f32⟩
  | 107 => ⟨S1048576x8, .f32⟩
  | 108 => ⟨S1048576x8, .f32⟩
  | 109 => ⟨S8x15, .f32⟩
  | 110 => ⟨S1048576x15, .f32⟩
  | 111 => ⟨S1x15, .f32⟩
  | 112 => ⟨S1048576x15, .f32⟩
  | 113 => ⟨S1048576x15, .f32⟩
  | 114 => ⟨S_, .f32⟩
  | 115 => ⟨S6x6, .f32⟩
  | 116 => ⟨S6x6, .i32⟩
  | 117 => ⟨S_, .i32⟩
  | 118 => ⟨S6x6, .i32⟩
  | 119 => ⟨S6x6, .i32⟩
  | 120 => ⟨S6x6, .i32⟩
  | 121 => ⟨S6x6, .i1⟩
  | 122 => ⟨S_, .f32⟩
  | 123 => ⟨S6x6, .f32⟩
  | 124 => ⟨S6x6, .f32⟩
  | 125 => ⟨S_, .f32⟩
  | 126 => ⟨S6x6, .f32⟩
  | 127 => ⟨S6x6, .i1⟩
  | _ => ⟨S256x4096x6, .f32⟩

abbrev hbmTy0_1 (i : Nat) : BufTy := match i % 128 with
  | 0 => ⟨S36, .i1⟩
  | 1 => ⟨S36, .i32⟩
  | 2 => ⟨S_, .i32⟩
  | 3 => ⟨S_, .i32⟩
  | 4 => ⟨S36, .i32⟩
  | 5 => ⟨S_, .i32⟩
  | 6 => ⟨S15, .i32⟩
  | 7 => ⟨S_, .i32⟩
  | 8 => ⟨S_, .i32⟩
  | 9 => ⟨S36, .i32⟩
  | 10 => ⟨S36, .i32⟩
  | 11 => ⟨S_, .i32⟩
  | 12 => ⟨S36, .i32⟩
  | 13 => ⟨S36, .i1⟩
  | 14 => ⟨S_, .i32⟩
  | 15 => ⟨S36, .i32⟩
  | 16 => ⟨S36, .i32⟩
  | 17 => ⟨S36, .i32⟩
  | 18 => ⟨S36x1, .i32⟩
  | 19 => ⟨S_, .i32⟩
  | 20 => ⟨S36, .i32⟩
  | 21 => ⟨S15, .i32⟩
  | 22 => ⟨S_, .i32⟩
  | 23 => ⟨S_, .i32⟩
  | 24 => ⟨S15, .i32⟩
  | 25 => ⟨S_, .i32⟩
  | 26 => ⟨S15, .i32⟩
  | 27 => ⟨S15, .i32⟩
  | 28 => ⟨S15, .i32⟩
  | 29 => ⟨S_, .i32⟩
  | 30 => ⟨S15, .i32⟩
  | 31 => ⟨S15, .i1⟩
  | 32 => ⟨S15, .i32⟩
  | 33 => ⟨S15, .i32⟩
  | 34 => ⟨S_, .i32⟩
  | 35 => ⟨S15, .i32⟩
  | 36 => ⟨S15, .i1⟩
  | 37 => ⟨S15, .i1⟩
  | 38 => ⟨S_, .i32⟩
  | 39 => ⟨S15, .i32⟩
  | 40 => ⟨S15, .i32⟩
  | 41 => ⟨S15, .i32⟩
  | 42 => ⟨S_, .i32⟩
  | 43 => ⟨S_, .i32⟩
  | 44 => ⟨S_, .i32⟩
  | 45 => ⟨S_, .i1⟩
  | 46 => ⟨S_, .i32⟩
  | 47 => ⟨S_, .i32⟩
  | 48 => ⟨S15, .i32⟩
  | 49 => ⟨S15, .i32⟩
  | 50 => ⟨S_, .i32⟩
  | 51 => ⟨S15, .i32⟩
  | 52 => ⟨S15, .i1⟩
  | 53 => ⟨S_, .i32⟩
  | 54 => ⟨S15, .i32⟩
  | 55 => ⟨S15, .i1⟩
  | 56 => ⟨S_, .i32⟩
  | 57 => ⟨S_, .i1⟩
  | 58 => ⟨S15, .i1⟩
  | 59 => ⟨S15, .i1⟩
  | 60 => ⟨S15, .i1⟩
  | 61 => ⟨S15, .i32⟩
  | 62 => ⟨S15, .i32⟩
  | 63 => ⟨S15, .i32⟩
  | 64 => ⟨S_, .i32⟩
  | 65 => ⟨S15, .i32⟩
  | 66 => ⟨S15, .i32⟩
  | 67 => ⟨S15, .i32⟩
  | 68 => ⟨S_, .i32⟩
  | 69 => ⟨S15, .i32⟩
  | 70 => ⟨S15, .i1⟩
  | 71 => ⟨S15, .i32⟩
  | 72 => ⟨S15, .i32⟩
  | 73 => ⟨S_, .i32⟩
  | 74 => ⟨S15, .i32⟩
  | 75 => ⟨S15, .i1⟩
  | 76 => ⟨S15, .i1⟩
  | 77 => ⟨S_, .i32⟩
  | 78 => ⟨S15, .i32⟩
  | 79 => ⟨S15, .i32⟩
  | 80 => ⟨S15, .i32⟩
  | 81 => ⟨S_, .i32⟩
  | 82 => ⟨S_, .i32⟩
  | 83 => ⟨S_, .i32⟩
  | 84 => ⟨S_, .i1⟩
  | 85 => ⟨S_, .i32⟩
  | 86 => ⟨S_, .i32⟩
  | 87 => ⟨S15, .i32⟩
  | 88 => ⟨S15, .i32⟩
  | 89 => ⟨S_, .i32⟩
  | 90 => ⟨S15, .i32⟩
  | 91 => ⟨S15, .i1⟩
  | 92 => ⟨S_, .i32⟩
  | 93 => ⟨S15, .i32⟩
  | 94 => ⟨S15, .i1⟩
  | 95 => ⟨S_, .i32⟩
  | 96 => ⟨S_, .i1⟩
  | 97 => ⟨S15, .i1⟩
  | 98 => ⟨S15, .i1⟩
  | 99 => ⟨S15, .i1⟩
  | 100 => ⟨S15, .i32⟩
  | 101 => ⟨S15, .i32⟩
  | 102 => ⟨S15, .i32⟩
  | 103 => ⟨S_, .f32⟩
  | 104 => ⟨S1048576x6x6, .f32⟩
  | 105 => ⟨S_, .i32⟩
  | 106 => ⟨S15, .i32⟩
  | 107 => ⟨S15, .i1⟩
  | 108 => ⟨S_, .i32⟩
  | 109 => ⟨S15, .i32⟩
  | 110 => ⟨S15, .i32⟩
  | 111 => ⟨S15, .i32⟩
  | 112 => ⟨S_, .i32⟩
  | 113 => ⟨S15, .i32⟩
  | 114 => ⟨S15, .i1⟩
  | 115 => ⟨S_, .i32⟩
  | 116 => ⟨S15, .i32⟩
  | 117 => ⟨S15, .i32⟩
  | 118 => ⟨S15, .i32⟩
  | 119 => ⟨S15x1, .i32⟩
  | 120 => ⟨S15x1, .i32⟩
  | 121 => ⟨S15x2, .i32⟩
  | 122 => ⟨S1048576x6x6, .f32⟩
  | 123 => ⟨S1048576x15, .f32⟩
  | 124 => ⟨S_, .i32⟩
  | 125 => ⟨S15, .i32⟩
  | 126 => ⟨S15, .i1⟩
  | 127 => ⟨S_, .i32⟩
  | _ => ⟨S256x4096x6, .f32⟩

abbrev hbmTy0_2 (i : Nat) : BufTy := match i % 128 with
  | 0 => ⟨S15, .i32⟩
  | 1 => ⟨S15, .i32⟩
  | 2 => ⟨S15, .i32⟩
  | 3 => ⟨S_, .i32⟩
  | 4 => ⟨S15, .i32⟩
  | 5 => ⟨S15, .i1⟩
  | 6 => ⟨S_, .i32⟩
  | 7 => ⟨S15, .i32⟩
  | 8 => ⟨S15, .i32⟩
  | 9 => ⟨S15, .i32⟩
  | 10 => ⟨S15x1, .i32⟩
  | 11 => ⟨S15x1, .i32⟩
  | 12 => ⟨S15x2, .i32⟩
  | 13 => ⟨S1048576x6x6, .f32⟩
  | 14 => ⟨S256x4096x6x6, .f32⟩
  | _ => ⟨S256x4096x6, .f32⟩

abbrev hbmTy (i : Nat) : BufTy := match i / 128 with
  | 0 => hbmTy0_0 i
  | 1 => hbmTy0_1 i
  | 2 => hbmTy0_2 i
  | _ => ⟨S256x4096x6, .f32⟩

abbrev bufTy : (tb : Table) → Fin (tcTables nBuf tb) → BufTy
  | .hbm, ⟨i, _⟩ => hbmTy i
  | _, _ => ⟨S256x4096x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_call0_cst : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_call1_cst : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_v5 : Ref sig .tc := ⟨.hbm, 44, rfl⟩
abbrev main_call1_v6 : Ref sig .tc := ⟨.hbm, 45, rfl⟩
abbrev main_call1_v7 : Ref sig .tc := ⟨.hbm, 46, rfl⟩
abbrev main_call1_v8 : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_v16 : Ref sig .tc := ⟨.hbm, 55, rfl⟩
abbrev main_v17 : Ref sig .tc := ⟨.hbm, 56, rfl⟩
abbrev main_call2_cst : Ref sig .tc := ⟨.hbm, 57, rfl⟩
abbrev main_call2_v0 : Ref sig .tc := ⟨.hbm, 58, rfl⟩
abbrev main_call2_v1 : Ref sig .tc := ⟨.hbm, 59, rfl⟩
abbrev main_call2_v2 : Ref sig .tc := ⟨.hbm, 60, rfl⟩
abbrev main_call2_v3 : Ref sig .tc := ⟨.hbm, 61, rfl⟩
abbrev main_call2_v4 : Ref sig .tc := ⟨.hbm, 62, rfl⟩
abbrev main_call2_v5 : Ref sig .tc := ⟨.hbm, 63, rfl⟩
abbrev main_call2_v6 : Ref sig .tc := ⟨.hbm, 64, rfl⟩
abbrev main_call2_v7 : Ref sig .tc := ⟨.hbm, 65, rfl⟩
abbrev main_call2_v8 : Ref sig .tc := ⟨.hbm, 66, rfl⟩
abbrev main_call2_v9 : Ref sig .tc := ⟨.hbm, 67, rfl⟩
abbrev main_call2_v10 : Ref sig .tc := ⟨.hbm, 68, rfl⟩
abbrev main_call2_v11 : Ref sig .tc := ⟨.hbm, 69, rfl⟩
abbrev main_v18 : Ref sig .tc := ⟨.hbm, 70, rfl⟩
abbrev main_v19 : Ref sig .tc := ⟨.hbm, 71, rfl⟩
abbrev main_v20 : Ref sig .tc := ⟨.hbm, 72, rfl⟩
abbrev main_v21 : Ref sig .tc := ⟨.hbm, 73, rfl⟩
abbrev main_v22 : Ref sig .tc := ⟨.hbm, 74, rfl⟩
abbrev main_v23 : Ref sig .tc := ⟨.hbm, 75, rfl⟩
abbrev main_call3_cst : Ref sig .tc := ⟨.hbm, 76, rfl⟩
abbrev main_call3_v0 : Ref sig .tc := ⟨.hbm, 77, rfl⟩
abbrev main_call3_v1 : Ref sig .tc := ⟨.hbm, 78, rfl⟩
abbrev main_call3_v2 : Ref sig .tc := ⟨.hbm, 79, rfl⟩
abbrev main_call3_v3 : Ref sig .tc := ⟨.hbm, 80, rfl⟩
abbrev main_call3_v4 : Ref sig .tc := ⟨.hbm, 81, rfl⟩
abbrev main_call3_v5 : Ref sig .tc := ⟨.hbm, 82, rfl⟩
abbrev main_call3_v6 : Ref sig .tc := ⟨.hbm, 83, rfl⟩
abbrev main_call3_v7 : Ref sig .tc := ⟨.hbm, 84, rfl⟩
abbrev main_call3_v8 : Ref sig .tc := ⟨.hbm, 85, rfl⟩
abbrev main_call3_v9 : Ref sig .tc := ⟨.hbm, 86, rfl⟩
abbrev main_call3_v10 : Ref sig .tc := ⟨.hbm, 87, rfl⟩
abbrev main_call3_v11 : Ref sig .tc := ⟨.hbm, 88, rfl⟩
abbrev main_v24 : Ref sig .tc := ⟨.hbm, 89, rfl⟩
abbrev main_v25 : Ref sig .tc := ⟨.hbm, 90, rfl⟩
abbrev main_v26 : Ref sig .tc := ⟨.hbm, 91, rfl⟩
abbrev main_v27 : Ref sig .tc := ⟨.hbm, 92, rfl⟩
abbrev main_v28 : Ref sig .tc := ⟨.hbm, 93, rfl⟩
abbrev main_v29 : Ref sig .tc := ⟨.hbm, 94, rfl⟩
abbrev main_call4_cst : Ref sig .tc := ⟨.hbm, 95, rfl⟩
abbrev main_call4_v0 : Ref sig .tc := ⟨.hbm, 96, rfl⟩
abbrev main_call4_v1 : Ref sig .tc := ⟨.hbm, 97, rfl⟩
abbrev main_call4_v2 : Ref sig .tc := ⟨.hbm, 98, rfl⟩
abbrev main_call4_v3 : Ref sig .tc := ⟨.hbm, 99, rfl⟩
abbrev main_call4_v4 : Ref sig .tc := ⟨.hbm, 100, rfl⟩
abbrev main_call4_v5 : Ref sig .tc := ⟨.hbm, 101, rfl⟩
abbrev main_call4_v6 : Ref sig .tc := ⟨.hbm, 102, rfl⟩
abbrev main_call4_v7 : Ref sig .tc := ⟨.hbm, 103, rfl⟩
abbrev main_call4_v8 : Ref sig .tc := ⟨.hbm, 104, rfl⟩
abbrev main_call4_v9 : Ref sig .tc := ⟨.hbm, 105, rfl⟩
abbrev main_call4_v10 : Ref sig .tc := ⟨.hbm, 106, rfl⟩
abbrev main_call4_v11 : Ref sig .tc := ⟨.hbm, 107, rfl⟩
abbrev main_v30 : Ref sig .tc := ⟨.hbm, 108, rfl⟩
abbrev main_v31 : Ref sig .tc := ⟨.hbm, 109, rfl⟩
abbrev main_v32 : Ref sig .tc := ⟨.hbm, 110, rfl⟩
abbrev main_v33 : Ref sig .tc := ⟨.hbm, 111, rfl⟩
abbrev main_v34 : Ref sig .tc := ⟨.hbm, 112, rfl⟩
abbrev main_v35 : Ref sig .tc := ⟨.hbm, 113, rfl⟩
abbrev main_cst : Ref sig .tc := ⟨.hbm, 114, rfl⟩
abbrev main_v36 : Ref sig .tc := ⟨.hbm, 115, rfl⟩
abbrev main_call5_v0 : Ref sig .tc := ⟨.hbm, 116, rfl⟩
abbrev main_call5_c : Ref sig .tc := ⟨.hbm, 117, rfl⟩
abbrev main_call5_v1 : Ref sig .tc := ⟨.hbm, 118, rfl⟩
abbrev main_call5_v2 : Ref sig .tc := ⟨.hbm, 119, rfl⟩
abbrev main_call5_v3 : Ref sig .tc := ⟨.hbm, 120, rfl⟩
abbrev main_call5_v4 : Ref sig .tc := ⟨.hbm, 121, rfl⟩
abbrev main_call5_cst : Ref sig .tc := ⟨.hbm, 122, rfl⟩
abbrev main_call5_v5 : Ref sig .tc := ⟨.hbm, 123, rfl⟩
abbrev main_v37 : Ref sig .tc := ⟨.hbm, 124, rfl⟩
abbrev main_cst_0 : Ref sig .tc := ⟨.hbm, 125, rfl⟩
abbrev main_v38 : Ref sig .tc := ⟨.hbm, 126, rfl⟩
abbrev main_v39 : Ref sig .tc := ⟨.hbm, 127, rfl⟩
abbrev main_call6_v0 : Ref sig .tc := ⟨.hbm, 128, rfl⟩
abbrev main_call6_v1 : Ref sig .tc := ⟨.hbm, 129, rfl⟩
abbrev main_call6_call0_c : Ref sig .tc := ⟨.hbm, 130, rfl⟩
abbrev main_call6_call0_v0 : Ref sig .tc := ⟨.hbm, 131, rfl⟩
abbrev main_v40 : Ref sig .tc := ⟨.hbm, 132, rfl⟩
abbrev main_c : Ref sig .tc := ⟨.hbm, 133, rfl⟩
abbrev main_v41 : Ref sig .tc := ⟨.hbm, 134, rfl⟩
abbrev main_c_1 : Ref sig .tc := ⟨.hbm, 135, rfl⟩
abbrev main_call7_v0 : Ref sig .tc := ⟨.hbm, 136, rfl⟩
abbrev main_call7_v1 : Ref sig .tc := ⟨.hbm, 137, rfl⟩
abbrev main_v42 : Ref sig .tc := ⟨.hbm, 138, rfl⟩
abbrev main_c_2 : Ref sig .tc := ⟨.hbm, 139, rfl⟩
abbrev main_v43 : Ref sig .tc := ⟨.hbm, 140, rfl⟩
abbrev main_v44 : Ref sig .tc := ⟨.hbm, 141, rfl⟩
abbrev main_c_3 : Ref sig .tc := ⟨.hbm, 142, rfl⟩
abbrev main_v45 : Ref sig .tc := ⟨.hbm, 143, rfl⟩
abbrev main_v46 : Ref sig .tc := ⟨.hbm, 144, rfl⟩
abbrev main_v47 : Ref sig .tc := ⟨.hbm, 145, rfl⟩
abbrev main_v48 : Ref sig .tc := ⟨.hbm, 146, rfl⟩
abbrev main_c_4 : Ref sig .tc := ⟨.hbm, 147, rfl⟩
abbrev main_v49 : Ref sig .tc := ⟨.hbm, 148, rfl⟩
abbrev main_v50 : Ref sig .tc := ⟨.hbm, 149, rfl⟩
abbrev main_call8_call0_c : Ref sig .tc := ⟨.hbm, 150, rfl⟩
abbrev main_call8_call0_v0 : Ref sig .tc := ⟨.hbm, 151, rfl⟩
abbrev main_v51 : Ref sig .tc := ⟨.hbm, 152, rfl⟩
abbrev main_c_5 : Ref sig .tc := ⟨.hbm, 153, rfl⟩
abbrev main_call9_v0 : Ref sig .tc := ⟨.hbm, 154, rfl⟩
abbrev main_call9_v1 : Ref sig .tc := ⟨.hbm, 155, rfl⟩
abbrev main_call9_v2 : Ref sig .tc := ⟨.hbm, 156, rfl⟩
abbrev main_call9_v3 : Ref sig .tc := ⟨.hbm, 157, rfl⟩
abbrev main_call9_v4 : Ref sig .tc := ⟨.hbm, 158, rfl⟩
abbrev main_call9_v5 : Ref sig .tc := ⟨.hbm, 159, rfl⟩
abbrev main_call9_v6 : Ref sig .tc := ⟨.hbm, 160, rfl⟩
abbrev main_call9_v7 : Ref sig .tc := ⟨.hbm, 161, rfl⟩
abbrev main_call9_c : Ref sig .tc := ⟨.hbm, 162, rfl⟩
abbrev main_call9_v8 : Ref sig .tc := ⟨.hbm, 163, rfl⟩
abbrev main_call9_v9 : Ref sig .tc := ⟨.hbm, 164, rfl⟩
abbrev main_call9_v10 : Ref sig .tc := ⟨.hbm, 165, rfl⟩
abbrev main_call9_c_0 : Ref sig .tc := ⟨.hbm, 166, rfl⟩
abbrev main_call9_v11 : Ref sig .tc := ⟨.hbm, 167, rfl⟩
abbrev main_call9_v12 : Ref sig .tc := ⟨.hbm, 168, rfl⟩
abbrev main_v52 : Ref sig .tc := ⟨.hbm, 169, rfl⟩
abbrev main_c_6 : Ref sig .tc := ⟨.hbm, 170, rfl⟩
abbrev main_call10_v0 : Ref sig .tc := ⟨.hbm, 171, rfl⟩
abbrev main_call10_c : Ref sig .tc := ⟨.hbm, 172, rfl⟩
abbrev main_call10_v1 : Ref sig .tc := ⟨.hbm, 173, rfl⟩
abbrev main_call10_c_0 : Ref sig .tc := ⟨.hbm, 174, rfl⟩
abbrev main_call10_v2 : Ref sig .tc := ⟨.hbm, 175, rfl⟩
abbrev main_call10_v3 : Ref sig .tc := ⟨.hbm, 176, rfl⟩
abbrev main_call10_v4 : Ref sig .tc := ⟨.hbm, 177, rfl⟩
abbrev main_call10_c_1 : Ref sig .tc := ⟨.hbm, 178, rfl⟩
abbrev main_call10_v5 : Ref sig .tc := ⟨.hbm, 179, rfl⟩
abbrev main_call10_v6 : Ref sig .tc := ⟨.hbm, 180, rfl⟩
abbrev main_call10_c_2 : Ref sig .tc := ⟨.hbm, 181, rfl⟩
abbrev main_call10_v7 : Ref sig .tc := ⟨.hbm, 182, rfl⟩
abbrev main_call10_v8 : Ref sig .tc := ⟨.hbm, 183, rfl⟩
abbrev main_call10_c_3 : Ref sig .tc := ⟨.hbm, 184, rfl⟩
abbrev main_call10_v9 : Ref sig .tc := ⟨.hbm, 185, rfl⟩
abbrev main_call10_v10 : Ref sig .tc := ⟨.hbm, 186, rfl⟩
abbrev main_call10_v11 : Ref sig .tc := ⟨.hbm, 187, rfl⟩
abbrev main_call10_v12 : Ref sig .tc := ⟨.hbm, 188, rfl⟩
abbrev main_call10_v13 : Ref sig .tc := ⟨.hbm, 189, rfl⟩
abbrev main_call10_v14 : Ref sig .tc := ⟨.hbm, 190, rfl⟩
abbrev main_v53 : Ref sig .tc := ⟨.hbm, 191, rfl⟩
abbrev main_c_7 : Ref sig .tc := ⟨.hbm, 192, rfl⟩
abbrev main_call11_v0 : Ref sig .tc := ⟨.hbm, 193, rfl⟩
abbrev main_call11_v1 : Ref sig .tc := ⟨.hbm, 194, rfl⟩
abbrev main_call11_v2 : Ref sig .tc := ⟨.hbm, 195, rfl⟩
abbrev main_call11_v3 : Ref sig .tc := ⟨.hbm, 196, rfl⟩
abbrev main_call11_v4 : Ref sig .tc := ⟨.hbm, 197, rfl⟩
abbrev main_call11_v5 : Ref sig .tc := ⟨.hbm, 198, rfl⟩
abbrev main_call11_v6 : Ref sig .tc := ⟨.hbm, 199, rfl⟩
abbrev main_call11_v7 : Ref sig .tc := ⟨.hbm, 200, rfl⟩
abbrev main_call11_c : Ref sig .tc := ⟨.hbm, 201, rfl⟩
abbrev main_call11_v8 : Ref sig .tc := ⟨.hbm, 202, rfl⟩
abbrev main_call11_v9 : Ref sig .tc := ⟨.hbm, 203, rfl⟩
abbrev main_call11_v10 : Ref sig .tc := ⟨.hbm, 204, rfl⟩
abbrev main_call11_c_0 : Ref sig .tc := ⟨.hbm, 205, rfl⟩
abbrev main_call11_v11 : Ref sig .tc := ⟨.hbm, 206, rfl⟩
abbrev main_call11_v12 : Ref sig .tc := ⟨.hbm, 207, rfl⟩
abbrev main_v54 : Ref sig .tc := ⟨.hbm, 208, rfl⟩
abbrev main_c_8 : Ref sig .tc := ⟨.hbm, 209, rfl⟩
abbrev main_call12_v0 : Ref sig .tc := ⟨.hbm, 210, rfl⟩
abbrev main_call12_c : Ref sig .tc := ⟨.hbm, 211, rfl⟩
abbrev main_call12_v1 : Ref sig .tc := ⟨.hbm, 212, rfl⟩
abbrev main_call12_c_0 : Ref sig .tc := ⟨.hbm, 213, rfl⟩
abbrev main_call12_v2 : Ref sig .tc := ⟨.hbm, 214, rfl⟩
abbrev main_call12_v3 : Ref sig .tc := ⟨.hbm, 215, rfl⟩
abbrev main_call12_v4 : Ref sig .tc := ⟨.hbm, 216, rfl⟩
abbrev main_call12_c_1 : Ref sig .tc := ⟨.hbm, 217, rfl⟩
abbrev main_call12_v5 : Ref sig .tc := ⟨.hbm, 218, rfl⟩
abbrev main_call12_v6 : Ref sig .tc := ⟨.hbm, 219, rfl⟩
abbrev main_call12_c_2 : Ref sig .tc := ⟨.hbm, 220, rfl⟩
abbrev main_call12_v7 : Ref sig .tc := ⟨.hbm, 221, rfl⟩
abbrev main_call12_v8 : Ref sig .tc := ⟨.hbm, 222, rfl⟩
abbrev main_call12_c_3 : Ref sig .tc := ⟨.hbm, 223, rfl⟩
abbrev main_call12_v9 : Ref sig .tc := ⟨.hbm, 224, rfl⟩
abbrev main_call12_v10 : Ref sig .tc := ⟨.hbm, 225, rfl⟩
abbrev main_call12_v11 : Ref sig .tc := ⟨.hbm, 226, rfl⟩
abbrev main_call12_v12 : Ref sig .tc := ⟨.hbm, 227, rfl⟩
abbrev main_call12_v13 : Ref sig .tc := ⟨.hbm, 228, rfl⟩
abbrev main_call12_v14 : Ref sig .tc := ⟨.hbm, 229, rfl⟩
abbrev main_v55 : Ref sig .tc := ⟨.hbm, 230, rfl⟩
abbrev main_cst_9 : Ref sig .tc := ⟨.hbm, 231, rfl⟩
abbrev main_v56 : Ref sig .tc := ⟨.hbm, 232, rfl⟩
abbrev main_c_10 : Ref sig .tc := ⟨.hbm, 233, rfl⟩
abbrev main_v57 : Ref sig .tc := ⟨.hbm, 234, rfl⟩
abbrev main_v58 : Ref sig .tc := ⟨.hbm, 235, rfl⟩
abbrev main_c_11 : Ref sig .tc := ⟨.hbm, 236, rfl⟩
abbrev main_v59 : Ref sig .tc := ⟨.hbm, 237, rfl⟩
abbrev main_v60 : Ref sig .tc := ⟨.hbm, 238, rfl⟩
abbrev main_v61 : Ref sig .tc := ⟨.hbm, 239, rfl⟩
abbrev main_c_12 : Ref sig .tc := ⟨.hbm, 240, rfl⟩
abbrev main_v62 : Ref sig .tc := ⟨.hbm, 241, rfl⟩
abbrev main_v63 : Ref sig .tc := ⟨.hbm, 242, rfl⟩
abbrev main_c_13 : Ref sig .tc := ⟨.hbm, 243, rfl⟩
abbrev main_v64 : Ref sig .tc := ⟨.hbm, 244, rfl⟩
abbrev main_v65 : Ref sig .tc := ⟨.hbm, 245, rfl⟩
abbrev main_v66 : Ref sig .tc := ⟨.hbm, 246, rfl⟩
abbrev main_v67 : Ref sig .tc := ⟨.hbm, 247, rfl⟩
abbrev main_v68 : Ref sig .tc := ⟨.hbm, 248, rfl⟩
abbrev main_v69 : Ref sig .tc := ⟨.hbm, 249, rfl⟩
abbrev main_v70 : Ref sig .tc := ⟨.hbm, 250, rfl⟩
abbrev main_v71 : Ref sig .tc := ⟨.hbm, 251, rfl⟩
abbrev main_c_14 : Ref sig .tc := ⟨.hbm, 252, rfl⟩
abbrev main_v72 : Ref sig .tc := ⟨.hbm, 253, rfl⟩
abbrev main_v73 : Ref sig .tc := ⟨.hbm, 254, rfl⟩
abbrev main_c_15 : Ref sig .tc := ⟨.hbm, 255, rfl⟩
abbrev main_v74 : Ref sig .tc := ⟨.hbm, 256, rfl⟩
abbrev main_v75 : Ref sig .tc := ⟨.hbm, 257, rfl⟩
abbrev main_v76 : Ref sig .tc := ⟨.hbm, 258, rfl⟩
abbrev main_c_16 : Ref sig .tc := ⟨.hbm, 259, rfl⟩
abbrev main_v77 : Ref sig .tc := ⟨.hbm, 260, rfl⟩
abbrev main_v78 : Ref sig .tc := ⟨.hbm, 261, rfl⟩
abbrev main_c_17 : Ref sig .tc := ⟨.hbm, 262, rfl⟩
abbrev main_v79 : Ref sig .tc := ⟨.hbm, 263, rfl⟩
abbrev main_v80 : Ref sig .tc := ⟨.hbm, 264, rfl⟩
abbrev main_v81 : Ref sig .tc := ⟨.hbm, 265, rfl⟩
abbrev main_v82 : Ref sig .tc := ⟨.hbm, 266, rfl⟩
abbrev main_v83 : Ref sig .tc := ⟨.hbm, 267, rfl⟩
abbrev main_v84 : Ref sig .tc := ⟨.hbm, 268, rfl⟩
abbrev main_v85 : Ref sig .tc := ⟨.hbm, 269, rfl⟩
abbrev main_v86 : Ref sig .tc := ⟨.hbm, 270, rfl⟩

abbrev nD : Nat := 1
abbrev τ : Topo := Topo.v7x

variable {F : FTy → Type} [FloatOps F]

class Facts₀ : Prop where
  shapeCasts_S256x4096x6_S1048576x6 : S256x4096x6.ShapeCasts S1048576x6
  transposes_S8x6_S6x8_1_0 : S8x6.Transposes [1, 0] S6x8
  bcast_S8_S1x8_1 : S8.BroadcastsInDim S1x8 (![1] : Fin 1 → Fin S1x8.rank)
  bcast_S1x8_S1048576x8_0_1 : S1x8.BroadcastsInDim S1048576x8 (![0, 1] : Fin 2 → Fin S1048576x8.rank)
  bcast_S_S1048576x8 : S_.BroadcastsInDim S1048576x8 (![] : Fin 0 → Fin S1048576x8.rank)
  transposes_S8x8_S8x8_1_0 : S8x8.Transposes [1, 0] S8x8
  transposes_S15x8_S8x15_1_0 : S15x8.Transposes [1, 0] S8x15
  bcast_S15_S1x15_1 : S15.BroadcastsInDim S1x15 (![1] : Fin 1 → Fin S1x15.rank)
  bcast_S1x15_S1048576x15_0_1 : S1x15.BroadcastsInDim S1048576x15 (![0, 1] : Fin 2 → Fin S1048576x15.rank)
  bcast_S_S6x6 : S_.BroadcastsInDim S6x6 (![] : Fin 0 → Fin S6x6.rank)
  shapeCasts_S6x6_S36 : S6x6.ShapeCasts S36
  natLt_1_32 : 1 < 32
  bcast_S_S_ : S_.BroadcastsInDim S_ (![] : Fin 0 → Fin S_.rank)
  reduceWindows_S36_S36_w36s1p35_0 : S36.ReduceWindows (![36] : Fin 1 → Nat) ![1] ![35] ![0] S36
  h_S_ : 0 < S_.numel
  bcast_S_S15 : S_.BroadcastsInDim S15 (![] : Fin 0 → Fin S15.rank)
  bcast_S_S36 : S_.BroadcastsInDim S36 (![] : Fin 0 → Fin S36.rank)
  bcast_S36_S36x1_0 : S36.BroadcastsInDim S36x1 (![0] : Fin 1 → Fin S36x1.rank)
  reduceWindows_S15_S15_w15s1p14_0 : S15.ReduceWindows (![15] : Fin 1 → Nat) ![1] ![14] ![0] S15
  bcast_S_S1048576x6x6 : S_.BroadcastsInDim S1048576x6x6 (![] : Fin 0 → Fin S1048576x6x6.rank)
  bcast_S15_S15x1_0 : S15.BroadcastsInDim S15x1 (![0] : Fin 1 → Fin S15x1.rank)
  concatenates_S15x1_S15x1_S15x2_d1 : Shape.Concatenates [S15x1, S15x1] S15x2 1
  shapeCasts_S1048576x6x6_S256x4096x6x6 : S1048576x6x6.ShapeCasts S256x4096x6x6
  dot_S1048576x6_S6x8_S1048576x8_1_0_0_1_n_n_wf : DotDims.WF S1048576x6 S6x8 S1048576x8 [1] [0] [0] [1] [] []
  dot_S1048576x8_S8x8_S1048576x8_1_0_0_1_n_n_wf : DotDims.WF S1048576x8 S8x8 S1048576x8 [1] [0] [0] [1] [] []
  dot_S1048576x8_S8x15_S1048576x15_1_0_0_1_n_n_wf : DotDims.WF S1048576x8 S8x15 S1048576x15 [1] [0] [0] [1] [] []
  scatter_S15_S36x1_S36_n_0_0_1_wf : ScatterDims.WF S15 S36x1 S36 [] [0] [0] 1
  scatter_S1048576x6x6_S15x2_S1048576x15_0_12_12_1_wf : ScatterDims.WF S1048576x6x6 S15x2 S1048576x15 [0] [1, 2] [1, 2] 1

variable [Facts₀]

def dot_S1048576x6_S6x8_S1048576x8_1_0_0_1_n_n : DotDims S1048576x6 S6x8 S1048576x8 where
  lhsContracting := [1]
  rhsContracting := [0]
  lhsNonContracting := [0]
  rhsNonContracting := [1]
  lhsBatch := []
  rhsBatch := []
  wf := dot_S1048576x6_S6x8_S1048576x8_1_0_0_1_n_n_wf
def dot_S1048576x8_S8x8_S1048576x8_1_0_0_1_n_n : DotDims S1048576x8 S8x8 S1048576x8 where
  lhsContracting := [1]
  rhsContracting := [0]
  lhsNonContracting := [0]
  rhsNonContracting := [1]
  lhsBatch := []
  rhsBatch := []
  wf := dot_S1048576x8_S8x8_S1048576x8_1_0_0_1_n_n_wf
def dot_S1048576x8_S8x15_S1048576x15_1_0_0_1_n_n : DotDims S1048576x8 S8x15 S1048576x15 where
  lhsContracting := [1]
  rhsContracting := [0]
  lhsNonContracting := [0]
  rhsNonContracting := [1]
  lhsBatch := []
  rhsBatch := []
  wf := dot_S1048576x8_S8x15_S1048576x15_1_0_0_1_n_n_wf
def scatter_S15_S36x1_S36_n_0_0_1 : ScatterDims S15 S36x1 S36 where
  updateWindowDims := []
  insertedWindowDims := [0]
  scatterDimsToOperandDims := [0]
  indexVectorDim := 1
  wf := scatter_S15_S36x1_S36_n_0_0_1_wf
def scatter_S1048576x6x6_S15x2_S1048576x15_0_12_12_1 : ScatterDims S1048576x6x6 S15x2 S1048576x15 where
  updateWindowDims := [0]
  insertedWindowDims := [1, 2]
  scatterDimsToOperandDims := [1, 2]
  indexVectorDim := 1
  wf := scatter_S1048576x6x6_S15x2_S1048576x15_0_12_12_1_wf

class Facts : Prop extends Facts₀ where

variable [Facts]
-- ==== Proof.LibPlainDot.lean ====
/-
  A contraction of an M×K array with a K×N array over their shared axis, read at one position.

  Both the accelerator's matrix product into a zero accumulator and the host's general dot product, at the
  exact extended-real values, are at position (r, c) the finite sum over k of lhs (r, k) * rhs (k, c):
  no rounding and no order of accumulation is left in them. The dimension numbers are the plain ones
  (left operand contracted on its last axis, right operand on its first, no batch axes); any record with
  those numbers is the plain record, whatever proof of well-formedness it carries.
-/
import Idealize.ShloMosaic.PureOps.Ideal.Laws
import Idealize.ShloMosaic.Lib.ValueIdx

noncomputable section

open scoped BigOperators

namespace Cert.PlainDot

open Idealize.ShloMosaic Idealize.ShloMosaic.ValueIdx

/-- The contraction shape of a plain M×K by K×N product has one axis. -/
theorem contr_rank (M K N : ℕ) : (DotDims.plain M K N).contr.rank = 1 := rfl

/-- That axis has the shared extent K. -/
theorem contr_size (M K N : ℕ) : (DotDims.plain M K N).contr.size ⟨0, by rw [contr_rank]; exact Nat.one_pos⟩ = K := rfl

/-- The left operand's position for output position (r, c) and contraction coordinate k is (r, k). -/
theorem lhsIdx_eq {M K N : ℕ} (r : Fin M) (c : Fin N) (k : Fin K) :
    (DotDims.plain M K N).lhsIdx (ix2 r c) ((contrEquiv1 (DotDims.plain M K N) K (contr_rank M K N) (contr_size M K N)).symm k)
      = ix2 r k := by
  funext a
  refine Fin.ext ?_
  match a with
  | ⟨0, _⟩ => rfl
  | ⟨1, _⟩ =>
    exact ((DotDims.plain M K N).lhsIdx_val_of_single (cl := (1 : Fin 2)) rfl _ _).trans
      (contrEquiv1_symm_val (DotDims.plain M K N) K (contr_rank M K N) (contr_size M K N) k)

/-- The right operand's position is (k, c). -/
theorem rhsIdx_eq {M K N : ℕ} (r : Fin M) (c : Fin N) (k : Fin K) :
    (DotDims.plain M K N).rhsIdx (ix2 r c) ((contrEquiv1 (DotDims.plain M K N) K (contr_rank M K N) (contr_size M K N)).symm k)
      = ix2 k c := by
  funext a
  refine Fin.ext ?_
  match a with
  | ⟨0, _⟩ =>
    exact ((DotDims.plain M K N).rhsIdx_val_of_single (cr := (0 : Fin 2)) rfl _ _).trans
      (contrEquiv1_symm_val (DotDims.plain M K N) K (contr_rank M K N) (contr_size M K N) k)
  | ⟨1, _⟩ => rfl

/-- The contraction's sum over its index set is the sum over k < K of the products along row r and column c. -/
theorem sum_eq {M K N : ℕ} (f : (⟨2, ![M, K]⟩ : Shape).Idx → EReal) (g : (⟨2, ![K, N]⟩ : Shape).Idx → EReal)
    (r : Fin M) (c : Fin N) :
    ∑ k : (DotDims.plain M K N).contr.Idx,
        f ((DotDims.plain M K N).lhsIdx (ix2 r c) k) * g ((DotDims.plain M K N).rhsIdx (ix2 r c) k)
      = ∑ k : Fin K, f (ix2 r k) * g (ix2 k c) := by
  rw [← Equiv.sum_comp (contrEquiv1 (DotDims.plain M K N) K (contr_rank M K N) (contr_size M K N)).symm]
  refine Finset.sum_congr rfl fun k _ => ?_
  rw [lhsIdx_eq, rhsIdx_eq]

/-- The accelerator's matrix product into the zero accumulator, at (r, c). -/
theorem matmul_zero_apply {M K N : ℕ} (d : DotDims ⟨2, ![M, K]⟩ ⟨2, ![K, N]⟩ ⟨2, ![M, N]⟩) (hd : d = DotDims.plain M K N)
    (prec : Option ContractPrecision) (lhs : FVec Ideal ⟨2, ![M, K]⟩ .f32) (rhs : FVec Ideal ⟨2, ![K, N]⟩ .f32)
    (r : Fin M) (c : Fin N) :
    FloatOps.matmul d prec lhs rhs (constant ⟨2, ![M, N]⟩ .f32 0x00000000#32) (ix2 r c)
      = ∑ k : Fin K, lhs (ix2 r k) * rhs (ix2 k c) := by
  subst hd
  rw [Ideal.matmul_constant_zero_apply]
  exact sum_eq lhs rhs r c

/-- The host's general dot product, at (r, c), whatever its schedule. -/
theorem dotGeneral_apply {M K N : ℕ} (d : DotDims ⟨2, ![M, K]⟩ ⟨2, ![K, N]⟩ ⟨2, ![M, N]⟩) (hd : d = DotDims.plain M K N)
    (prec : Option ContractPrecision) (sched : HostSchedule) (lhs : FVec Ideal ⟨2, ![M, K]⟩ .f32) (rhs : FVec Ideal ⟨2, ![K, N]⟩ .f32)
    (r : Fin M) (c : Fin N) :
    FloatOps.dotGeneral d prec sched lhs rhs (ix2 r c) = ∑ k : Fin K, lhs (ix2 r k) * rhs (ix2 k c) := by
  subst hd
  rw [Ideal.dotGeneral_apply]
  exact sum_eq lhs rhs r c

end Cert.PlainDot

end
-- ==== Proof.Spec.lean ====
/-
  The function both programs compute, one row at a time.

  A row x of six numbers goes through five layers y ↦ softplus (Wᵀ-contraction of y plus a bias) of width eight
  and one affine layer of width fifteen; the fifteen numbers u are then spread over a 6×6 antisymmetric pattern
  by a fixed 15×36 table E of entries 0, 1 and −1: position c of the flattened 6×6 block holds ∑ k, u k * E (k, c).
  Everything is over the extended reals; only commutative-monoid structure of + and the order are used, so
  nothing here needs the inputs to be finite.

  softplus z is written max z 0 + log (1 + exp (−|z|)), with |z| = max z (−z): the form both programs print.
  The weights appear TRANSPOSED (shape [inputs, outputs]) because both programs transpose them before use.
-/
import Idealize.ShloMosaic.PureOps.Ideal.Laws
import Idealize.ShloMosaic.Lib.ValueIdx

noncomputable section

open scoped BigOperators

namespace Cert.SkewMlp

open Idealize.ShloMosaic Idealize.ShloMosaic.ValueIdx

/-- softplus on the extended reals, in the printed form. -/
def sp (z : EReal) : EReal := max z 0 + Ideal.log1p (Ideal.exp (-(max z (-z))))

/-- One affine layer on a row: output j is ∑ k, x k * Wt (k, j) + b j, the weights given transposed. -/
def affine {I O : ℕ} (Wt : (⟨2, ![I, O]⟩ : Shape).Idx → EReal) (b : (⟨1, ![O]⟩ : Shape).Idx → EReal)
    (x : Fin I → EReal) (j : Fin O) : EReal :=
  (∑ k : Fin I, x k * Wt (ix2 k j)) + b (ix1 j)

/-- An affine layer followed by softplus. -/
def hidden {I O : ℕ} (Wt : (⟨2, ![I, O]⟩ : Shape).Idx → EReal) (b : (⟨1, ![O]⟩ : Shape).Idx → EReal)
    (x : Fin I → EReal) (j : Fin O) : EReal :=
  sp (affine Wt b x j)

/-- The fifteen outputs of one row: five hidden layers, then the affine output layer. -/
def ut (W0 : (⟨2, ![6, 8]⟩ : Shape).Idx → EReal) (b0 : (⟨1, ![8]⟩ : Shape).Idx → EReal)
    (W1 : (⟨2, ![8, 8]⟩ : Shape).Idx → EReal) (b1 : (⟨1, ![8]⟩ : Shape).Idx → EReal)
    (W2 : (⟨2, ![8, 8]⟩ : Shape).Idx → EReal) (b2 : (⟨1, ![8]⟩ : Shape).Idx → EReal)
    (W3 : (⟨2, ![8, 8]⟩ : Shape).Idx → EReal) (b3 : (⟨1, ![8]⟩ : Shape).Idx → EReal)
    (W4 : (⟨2, ![8, 8]⟩ : Shape).Idx → EReal) (b4 : (⟨1, ![8]⟩ : Shape).Idx → EReal)
    (W5 : (⟨2, ![8, 15]⟩ : Shape).Idx → EReal) (b5 : (⟨1, ![15]⟩ : Shape).Idx → EReal)
    (x : Fin 6 → EReal) : Fin 15 → EReal :=
  affine W5 b5 (hidden W4 b4 (hidden W3 b3 (hidden W2 b2 (hidden W1 b1 (hidden W0 b0 x)))))

/-- The flattened result: row n, position c of the 6×6 block, is ∑ k, u k * E (k, c) for the row's outputs u. -/
def flat (E : (⟨2, ![15, 36]⟩ : Shape).Idx → EReal)
    (W0 : (⟨2, ![6, 8]⟩ : Shape).Idx → EReal) (b0 : (⟨1, ![8]⟩ : Shape).Idx → EReal)
    (W1 : (⟨2, ![8, 8]⟩ : Shape).Idx → EReal) (b1 : (⟨1, ![8]⟩ : Shape).Idx → EReal)
    (W2 : (⟨2, ![8, 8]⟩ : Shape).Idx → EReal) (b2 : (⟨1, ![8]⟩ : Shape).Idx → EReal)
    (W3 : (⟨2, ![8, 8]⟩ : Shape).Idx → EReal) (b3 : (⟨1, ![8]⟩ : Shape).Idx → EReal)
    (W4 : (⟨2, ![8, 8]⟩ : Shape).Idx → EReal) (b4 : (⟨1, ![8]⟩ : Shape).Idx → EReal)
    (W5 : (⟨2, ![8, 15]⟩ : Shape).Idx → EReal) (b5 : (⟨1, ![15]⟩ : Shape).Idx → EReal)
    (X : (⟨2, ![1048576, 6]⟩ : Shape).Idx → EReal) : (⟨2, ![1048576, 36]⟩ : Shape).Idx → EReal :=
  fun q => ∑ k : Fin 15, ut W0 b0 W1 b1 W2 b2 W3 b3 W4 b4 W5 b5 (fun a => X (ix2 (q 0) a)) k * E (ix2 k (q 1))

/-! ## The two printed forms of softplus, at one element -/

/-- A number is never different from itself: the not-a-number guard of both programs never fires. -/
theorem cmp_one_self (a : EReal) : Ideal.cmp .one a a = 0#1 := by simp [Ideal.cmp]
theorem cmp_une_self (a : EReal) : Ideal.cmp .une a a = 0#1 := by simp [Ideal.cmp]

/-- The accelerator's form: the guard on z − 0 ≠ z − 0, then max z 0 + log1p (exp (0 − |z − 0|)). -/
theorem sp_kernel (z o : EReal) (ho : o = 0) :
    Scalar.select (Ideal.cmp .one (z - o) (z - o)) (z + o)
        (max z o + Ideal.log1p (Ideal.exp (o - max (z - o) (-(z - o))))) = sp z := by
  subst ho
  rw [cmp_one_self, select_zero, sub_zero, zero_sub]
  rfl

/-- The host's form: the same guard, then max z 0 + log1p (exp (−|z − 0|)). -/
theorem sp_host (z o : EReal) (ho : o = 0) :
    Scalar.select (Ideal.cmp .une (z - o) (z - o)) (z + o)
        (max z o + Ideal.log1p (Ideal.exp (-(max (z - o) (-(z - o)))))) = sp z := by
  subst ho
  rw [cmp_une_self, select_zero, sub_zero]
  rfl

end Cert.SkewMlp

end
-- ==== Proof.KernelRow.lean ====
/-
  What the kernel body stores, read at one position of its block.

  The body's arithmetic is one pure term over the blocks it loads. Position (r, c) of the stored 8192×36 block
  depends on row r of the loaded 8192×6 block alone: that row goes through the five softplus layers and the
  affine output layer (the weights as loaded, already transposed), and the fifteen results are contracted with
  column c of the 15×36 table. Each matrix product accumulates into zeros, so it is a plain finite sum; each
  bias is one row broadcast over all rows; softplus is applied position by position.
-/
import proofs.«141923_j68289980007047_2_alg».proof.Proof.Gen.KernelIdeal.Skeleton
import proofs.«141923_j68289980007047_2_alg».proof.Proof.LibPlainDot
import proofs.«141923_j68289980007047_2_alg».proof.Proof.Spec
import Idealize.ShloMosaic.Lib.ValueLayout
import Idealize.ShloMosaic.Lib.Pipeline.Value

noncomputable section

open scoped BigOperators

namespace Cert.KernelIdeal.RowValue

open Cert.KernelIdeal Cert.KernelIdeal.Gen Idealize.ShloMosaic Idealize.ShloMosaic.ValueIdx Idealize.ShloMosaic.Pipeline Cert.SkewMlp

/-- softplus as the body prints it on a whole vector: the never-firing guard, then max v 0 + log1p (exp (0 − |v − 0|)). -/
def spVec {s : Shape} (v : FVec Ideal s .f32) : FVec Ideal s .f32 :=
  select (cmpf .one (subf v (broadcast s (Scalar.ofBits .f32 0x00000000#32))) (subf v (broadcast s (Scalar.ofBits .f32 0x00000000#32))))
    (addf v (broadcast s (Scalar.ofBits .f32 0x00000000#32)))
    (addf (maximumf v (broadcast s (Scalar.ofBits .f32 0x00000000#32)))
      (log1p (exp (subf (broadcast s (Scalar.ofBits .f32 0x00000000#32))
        (absf (subf v (broadcast s (Scalar.ofBits .f32 0x00000000#32))))))))

/-- Position by position it is softplus. -/
theorem spVec_apply {s : Shape} (v : FVec Ideal s .f32) (i : s.Idx) : spVec v i = sp (v i) :=
  sp_kernel (v i) _ Ideal.ofBits_zero_f32

/-- A matrix product into zeros plus a bias row broadcast over the rows, as the body prints it. -/
def pre {K O : ℕ} (d : DotDims ⟨2, ![8192, K]⟩ ⟨2, ![K, O]⟩ ⟨2, ![8192, O]⟩)
    (A : FVec Ideal ⟨2, ![8192, K]⟩ .f32) (Wt : FVec Ideal ⟨2, ![K, O]⟩ .f32) (b : FVec Ideal ⟨1, ![O]⟩ .f32)
    (h1 : (⟨1, ![O]⟩ : Shape).ShapeCasts ⟨2, ![1, O]⟩) (h2 : (⟨2, ![1, O]⟩ : Shape).Broadcasts ⟨2, ![8192, O]⟩) :
    FVec Ideal ⟨2, ![8192, O]⟩ .f32 :=
  addf (matmul d none A Wt (constant ⟨2, ![8192, O]⟩ .f32 0x00000000#32))
    (broadcastTo ⟨2, ![8192, O]⟩ (shapeCast ⟨2, ![1, O]⟩ b h1) h2)

/-- At (r, j) it is the affine layer of row r. -/
theorem pre_apply {K O : ℕ} (d : DotDims ⟨2, ![8192, K]⟩ ⟨2, ![K, O]⟩ ⟨2, ![8192, O]⟩) (hd : d = DotDims.plain 8192 K O)
    (A : FVec Ideal ⟨2, ![8192, K]⟩ .f32) (Wt : FVec Ideal ⟨2, ![K, O]⟩ .f32) (b : FVec Ideal ⟨1, ![O]⟩ .f32)
    (h1 : (⟨1, ![O]⟩ : Shape).ShapeCasts ⟨2, ![1, O]⟩) (h2 : (⟨2, ![1, O]⟩ : Shape).Broadcasts ⟨2, ![8192, O]⟩)
    (r : Fin 8192) (j : Fin O) :
    pre d A Wt b h1 h2 (ix2 r j) = affine Wt b (fun k => A (ix2 r k)) j := by
  unfold pre affine
  rw [addf_apply]
  show FloatOps.matmul d none A Wt (constant ⟨2, ![8192, O]⟩ .f32 0x00000000#32) (ix2 r j) + _ = _
  rw [Cert.PlainDot.matmul_zero_apply d hd, broadcastTo_1b_ab_apply, shapeCast_a_1a_apply]

/-- The body's arithmetic, regrouped layer by layer (the same term: only the grouping of its parts differs). -/
theorem pay_eq (x0 : Vec Ideal S8192x6 .f32) (x1 : Vec Ideal S6x8 .f32) (x2 : Vec Ideal S8 .f32) (x3 : Vec Ideal S8x8 .f32)
    (x4 : Vec Ideal S8 .f32) (x5 : Vec Ideal S8x8 .f32) (x6 : Vec Ideal S8 .f32) (x7 : Vec Ideal S8x8 .f32) (x8 : Vec Ideal S8 .f32)
    (x9 : Vec Ideal S8x8 .f32) (x10 : Vec Ideal S8 .f32) (x11 : Vec Ideal S8x15 .f32) (x12 : Vec Ideal S15 .f32)
    (x13 : Vec Ideal S15x36 .f32) :
    k0_pay1 (k0_pay3 (k0_pay2 x0 x1 x2 x3 x4) x5 x6 x7 x8 x9) x10 x11 x12 x13
      = matmul (F := Ideal) (φ₁ := .f32) (φ₂ := .f32) dot_S8192x15_S15x36_S8192x36_1_0_0_1_n_n none
          (pre dot_S8192x8_S8x15_S8192x15_1_0_0_1_n_n
            (spVec (pre dot_S8192x8_S8x8_S8192x8_1_0_0_1_n_n
              (spVec (pre dot_S8192x8_S8x8_S8192x8_1_0_0_1_n_n
                (spVec (pre dot_S8192x8_S8x8_S8192x8_1_0_0_1_n_n
                  (spVec (pre dot_S8192x8_S8x8_S8192x8_1_0_0_1_n_n
                    (spVec (pre dot_S8192x6_S6x8_S8192x8_1_0_0_1_n_n
                      (shapeCast S8192x6 x0 shapeCasts_S8192x6_S8192x6) (shapeCast S6x8 x1 shapeCasts_S6x8_S6x8) x2
                      shapeCasts_S8_S1x8 broadcasts_S1x8_S8192x8))
                    (shapeCast S8x8 x3 shapeCasts_S8x8_S8x8) x4 shapeCasts_S8_S1x8 broadcasts_S1x8_S8192x8))
                  (shapeCast S8x8 x5 shapeCasts_S8x8_S8x8) x6 shapeCasts_S8_S1x8 broadcasts_S1x8_S8192x8))
                (shapeCast S8x8 x7 shapeCasts_S8x8_S8x8) x8 shapeCasts_S8_S1x8 broadcasts_S1x8_S8192x8))
              (shapeCast S8x8 x9 shapeCasts_S8x8_S8x8) x10 shapeCasts_S8_S1x8 broadcasts_S1x8_S8192x8))
            (shapeCast S8x15 x11 shapeCasts_S8x15_S8x15) x12 shapeCasts_S15_S1x15 broadcasts_S1x15_S8192x15)
          x13 (constant S8192x36 .f32 0x00000000#32) := rfl

/-- THE PAYLOAD AT (r, c): the fifteen outputs of row r contracted with column c of the table. -/
theorem pay_apply (x0 : Vec Ideal S8192x6 .f32) (x1 : Vec Ideal S6x8 .f32) (x2 : Vec Ideal S8 .f32) (x3 : Vec Ideal S8x8 .f32)
    (x4 : Vec Ideal S8 .f32) (x5 : Vec Ideal S8x8 .f32) (x6 : Vec Ideal S8 .f32) (x7 : Vec Ideal S8x8 .f32) (x8 : Vec Ideal S8 .f32)
    (x9 : Vec Ideal S8x8 .f32) (x10 : Vec Ideal S8 .f32) (x11 : Vec Ideal S8x15 .f32) (x12 : Vec Ideal S15 .f32)
    (x13 : Vec Ideal S15x36 .f32) (r : Fin 8192) (c : Fin 36) :
    k0_pay1 (k0_pay3 (k0_pay2 x0 x1 x2 x3 x4) x5 x6 x7 x8 x9) x10 x11 x12 x13 (ix2 r c)
      = ∑ k : Fin 15, ut x1 x2 x3 x4 x5 x6 x7 x8 x9 x10 x11 x12 (fun a => x0 (ix2 r a)) k * x13 (ix2 k c) := by
  rw [pay_eq]
  simp only [matmul]
  rw [Cert.PlainDot.matmul_zero_apply dot_S8192x15_S15x36_S8192x36_1_0_0_1_n_n rfl]
  refine Finset.sum_congr rfl fun k _ => ?_
  congr 1
  simp only [pre_apply dot_S8192x8_S8x15_S8192x15_1_0_0_1_n_n rfl, pre_apply dot_S8192x8_S8x8_S8192x8_1_0_0_1_n_n rfl,
    pre_apply dot_S8192x6_S6x8_S8192x8_1_0_0_1_n_n rfl, spVec_apply, shapeCast_self]
  rfl

end Cert.KernelIdeal.RowValue

end
-- ==== Proof.KernelArray.lean ====
/-
  From the blocks the grid points write to the whole output array, and on to the program's result.

  The grid has 128 points. Point t loads rows 8192·t … 8192·t + 8191 of the flattened input (window 0) and the
  whole of every weight, bias and table array (windows 1–13, whose index maps are constantly zero), and writes
  back rows 8192·t … of the 1048576×36 output (window 14). By the row lemma the block written at point t is
  block t of ONE function of the arrays as the region finds them, and the 128 blocks tile the output, so after
  the run the output array is that function. The host then only re-reads the array in the shape [256, 4096, 6, 6].
-/
import proofs.«141923_j68289980007047_2_alg».proof.Proof.Gen.KernelIdeal.Frame
import proofs.«141923_j68289980007047_2_alg».proof.Proof.KernelRow
import Idealize.ShloMosaic.Lib.Pipeline.Value
import Idealize.ShloMosaic.Lib.StableHlo.Run

set_option maxRecDepth 16384

noncomputable section

open scoped BigOperators

namespace Cert.KernelIdeal.ArrayValue

open Cert.KernelIdeal Cert.KernelIdeal.Gen Idealize.ShloMosaic Idealize.ShloMosaic.TcCoe Idealize.SL.Sem
open Idealize.ShloMosaic.ValueIdx Cert.SkewMlp Cert.KernelIdeal.RowValue
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl
theorem hz1 : (![0] : Fin 1 → Nat) = fun _ => 0 := funext fun a => by fin_cases a <;> rfl

/-! ## The index maps, decided over the grid -/

/-- Windows 0 and 14 move down the rows with the point; their column block is always 0. -/
theorem idx_rows : ∀ t : Fin cfg0.N, win0_0.index t (0 : Fin 2) = t.val ∧ win0_0.index t (1 : Fin 2) = 0
    ∧ win0_14.index t (0 : Fin 2) = t.val ∧ win0_14.index t (1 : Fin 2) = 0 :=
  (by decide +kernel : ∀ t : Fin grid0.N, win0_0.index t (0 : Fin 2) = t.val ∧ win0_0.index t (1 : Fin 2) = 0
    ∧ win0_14.index t (0 : Fin 2) = t.val ∧ win0_14.index t (1 : Fin 2) = 0)

/-- Every other window stays at block 0 on every axis. -/
theorem idx1 : ∀ (t : Fin cfg0.N) (a : Fin 2), win0_1.index t a = 0 :=
  (by decide +kernel : ∀ (t : Fin grid0.N) (a : Fin 2), win0_1.index t a = 0)
theorem idx2 : ∀ (t : Fin cfg0.N) (a : Fin 1), win0_2.index t a = 0 :=
  (by decide +kernel : ∀ (t : Fin grid0.N) (a : Fin 1), win0_2.index t a = 0)
theorem idx3 : ∀ (t : Fin cfg0.N) (a : Fin 2), win0_3.index t a = 0 :=
  (by decide +kernel : ∀ (t : Fin grid0.N) (a : Fin 2), win0_3.index t a = 0)
theorem idx4 : ∀ (t : Fin cfg0.N) (a : Fin 1), win0_4.index t a = 0 :=
  (by decide +kernel : ∀ (t : Fin grid0.N) (a : Fin 1), win0_4.index t a = 0)
theorem idx5 : ∀ (t : Fin cfg0.N) (a : Fin 2), win0_5.index t a = 0 :=
  (by decide +kernel : ∀ (t : Fin grid0.N) (a : Fin 2), win0_5.index t a = 0)
theorem idx6 : ∀ (t : Fin cfg0.N) (a : Fin 1), win0_6.index t a = 0 :=
  (by decide +kernel : ∀ (t : Fin grid0.N) (a : Fin 1), win0_6.index t a = 0)
theorem idx7 : ∀ (t : Fin cfg0.N) (a : Fin 2), win0_7.index t a = 0 :=
  (by decide +kernel : ∀ (t : Fin grid0.N) (a : Fin 2), win0_7.index t a = 0)
theorem idx8 : ∀ (t : Fin cfg0.N) (a : Fin 1), win0_8.index t a = 0 :=
  (by decide +kernel : ∀ (t : Fin grid0.N) (a : Fin 1), win0_8.index t a = 0)
theorem idx9 : ∀ (t : Fin cfg0.N) (a : Fin 2), win0_9.index t a = 0 :=
  (by decide +kernel : ∀ (t : Fin grid0.N) (a : Fin 2), win0_9.index t a = 0)
theorem idx10 : ∀ (t : Fin cfg0.N) (a : Fin 1), win0_10.index t a = 0 :=
  (by decide +kernel : ∀ (t : Fin grid0.N) (a : Fin 1), win0_10.index t a = 0)
theorem idx11 : ∀ (t : Fin cfg0.N) (a : Fin 2), win0_11.index t a = 0 :=
  (by decide +kernel : ∀ (t : Fin grid0.N) (a : Fin 2), win0_11.index t a = 0)
theorem idx12 : ∀ (t : Fin cfg0.N) (a : Fin 1), win0_12.index t a = 0 :=
  (by decide +kernel : ∀ (t : Fin grid0.N) (a : Fin 1), win0_12.index t a = 0)
theorem idx13 : ∀ (t : Fin cfg0.N) (a : Fin 2), win0_13.index t a = 0 :=
  (by decide +kernel : ∀ (t : Fin grid0.N) (a : Fin 2), win0_13.index t a = 0)

/-! ## A whole-array window's block is the array -/

theorem iblk1 (c : Dev nD) (t : Fin cfg0.N) : (iblk m c 1 t : Vec Ideal S6x8 .f32) = V m c main_v1 := by
  funext y
  show V m c main_v1 (((cfg0.win 1).blk t).view.emb y) = V m c main_v1 y
  refine congrArg (V m c main_v1) (funext fun a => Fin.ext ?_)
  match a with
  | ⟨0, _⟩ => show win0_1.index t (0 : Fin 2) * 6 + 1 * (y 0).val = (y 0).val; rw [idx1 t 0]; omega
  | ⟨1, _⟩ => show win0_1.index t (1 : Fin 2) * 8 + 1 * (y 1).val = (y 1).val; rw [idx1 t 1]; omega
theorem iblk2 (c : Dev nD) (t : Fin cfg0.N) : (iblk m c 2 t : Vec Ideal S8 .f32) = V m c main_arg2 := by
  funext y
  show V m c main_arg2 (((cfg0.win 2).blk t).view.emb y) = V m c main_arg2 y
  refine congrArg (V m c main_arg2) (funext fun a => Fin.ext ?_)
  match a with
  | ⟨0, _⟩ => show win0_2.index t (0 : Fin 1) * 8 + 1 * (y 0).val = (y 0).val; rw [idx2 t 0]; omega
theorem iblk3 (c : Dev nD) (t : Fin cfg0.N) : (iblk m c 3 t : Vec Ideal S8x8 .f32) = V m c main_v2 := by
  funext y
  show V m c main_v2 (((cfg0.win 3).blk t).view.emb y) = V m c main_v2 y
  refine congrArg (V m c main_v2) (funext fun a => Fin.ext ?_)
  match a with
  | ⟨0, _⟩ => show win0_3.index t (0 : Fin 2) * 8 + 1 * (y 0).val = (y 0).val; rw [idx3 t 0]; omega
  | ⟨1, _⟩ => show win0_3.index t (1 : Fin 2) * 8 + 1 * (y 1).val = (y 1).val; rw [idx3 t 1]; omega
theorem iblk4 (c : Dev nD) (t : Fin cfg0.N) : (iblk m c 4 t : Vec Ideal S8 .f32) = V m c main_arg4 := by
  funext y
  show V m c main_arg4 (((cfg0.win 4).blk t).view.emb y) = V m c main_arg4 y
  refine congrArg (V m c main_arg4) (funext fun a => Fin.ext ?_)
  match a with
  | ⟨0, _⟩ => show win0_4.index t (0 : Fin 1) * 8 + 1 * (y 0).val = (y 0).val; rw [idx4 t 0]; omega
theorem iblk5 (c : Dev nD) (t : Fin cfg0.N) : (iblk m c 5 t : Vec Ideal S8x8 .f32) = V m c main_v3 := by
  funext y
  show V m c main_v3 (((cfg0.win 5).blk t).view.emb y) = V m c main_v3 y
  refine congrArg (V m c main_v3) (funext fun a => Fin.ext ?_)
  match a with
  | ⟨0, _⟩ => show win0_5.index t (0 : Fin 2) * 8 + 1 * (y 0).val = (y 0).val; rw [idx5 t 0]; omega
  | ⟨1, _⟩ => show win0_5.index t (1 : Fin 2) * 8 + 1 * (y 1).val = (y 1).val; rw [idx5 t 1]; omega
theorem iblk6 (c : Dev nD) (t : Fin cfg0.N) : (iblk m c 6 t : Vec Ideal S8 .f32) = V m c main_arg6 := by
  funext y
  show V m c main_arg6 (((cfg0.win 6).blk t).view.emb y) = V m c main_arg6 y
  refine congrArg (V m c main_arg6) (funext fun a => Fin.ext ?_)
  match a with
  | ⟨0, _⟩ => show win0_6.index t (0 : Fin 1) * 8 + 1 * (y 0).val = (y 0).val; rw [idx6 t 0]; omega
theorem iblk7 (c : Dev nD) (t : Fin cfg0.N) : (iblk m c 7 t : Vec Ideal S8x8 .f32) = V m c main_v4 := by
  funext y
  show V m c main_v4 (((cfg0.win 7).blk t).view.emb y) = V m c main_v4 y
  refine congrArg (V m c main_v4) (funext fun a => Fin.ext ?_)
  match a with
  | ⟨0, _⟩ => show win0_7.index t (0 : Fin 2) * 8 + 1 * (y 0).val = (y 0).val; rw [idx7 t 0]; omega
  | ⟨1, _⟩ => show win0_7.index t (1 : Fin 2) * 8 + 1 * (y 1).val = (y 1).val; rw [idx7 t 1]; omega
theorem iblk8 (c : Dev nD) (t : Fin cfg0.N) : (iblk m c 8 t : Vec Ideal S8 .f32) = V m c main_arg8 := by
  funext y
  show V m c main_arg8 (((cfg0.win 8).blk t).view.emb y) = V m c main_arg8 y
  refine congrArg (V m c main_arg8) (funext fun a => Fin.ext ?_)
  match a with
  | ⟨0, _⟩ => show win0_8.index t (0 : Fin 1) * 8 + 1 * (y 0).val = (y 0).val; rw [idx8 t 0]; omega
theorem iblk9 (c : Dev nD) (t : Fin cfg0.N) : (iblk m c 9 t : Vec Ideal S8x8 .f32) = V m c main_v5 := by
  funext y
  show V m c main_v5 (((cfg0.win 9).blk t).view.emb y) = V m c main_v5 y
  refine congrArg (V m c main_v5) (funext fun a => Fin.ext ?_)
  match a with
  | ⟨0, _⟩ => show win0_9.index t (0 : Fin 2) * 8 + 1 * (y 0).val = (y 0).val; rw [idx9 t 0]; omega
  | ⟨1, _⟩ => show win0_9.index t (1 : Fin 2) * 8 + 1 * (y 1).val = (y 1).val; rw [idx9 t 1]; omega
theorem iblk10 (c : Dev nD) (t : Fin cfg0.N) : (iblk m c 10 t : Vec Ideal S8 .f32) = V m c main_arg10 := by
  funext y
  show V m c main_arg10 (((cfg0.win 10).blk t).view.emb y) = V m c main_arg10 y
  refine congrArg (V m c main_arg10) (funext fun a => Fin.ext ?_)
  match a with
  | ⟨0, _⟩ => show win0_10.index t (0 : Fin 1) * 8 + 1 * (y 0).val = (y 0).val; rw [idx10 t 0]; omega
theorem iblk11 (c : Dev nD) (t : Fin cfg0.N) : (iblk m c 11 t : Vec Ideal S8x15 .f32) = V m c main_v6 := by
  funext y
  show V m c main_v6 (((cfg0.win 11).blk t).view.emb y) = V m c main_v6 y
  refine congrArg (V m c main_v6) (funext fun a => Fin.ext ?_)
  match a with
  | ⟨0, _⟩ => show win0_11.index t (0 : Fin 2) * 8 + 1 * (y 0).val = (y 0).val; rw [idx11 t 0]; omega
  | ⟨1, _⟩ => show win0_11.index t (1 : Fin 2) * 15 + 1 * (y 1).val = (y 1).val; rw [idx11 t 1]; omega
theorem iblk12 (c : Dev nD) (t : Fin cfg0.N) : (iblk m c 12 t : Vec Ideal S15 .f32) = V m c main_arg12 := by
  funext y
  show V m c main_arg12 (((cfg0.win 12).blk t).view.emb y) = V m c main_arg12 y
  refine congrArg (V m c main_arg12) (funext fun a => Fin.ext ?_)
  match a with
  | ⟨0, _⟩ => show win0_12.index t (0 : Fin 1) * 15 + 1 * (y 0).val = (y 0).val; rw [idx12 t 0]; omega
theorem iblk13 (c : Dev nD) (t : Fin cfg0.N) : (iblk m c 13 t : Vec Ideal S15x36 .f32) = V m c main_cst := by
  funext y
  show V m c main_cst (((cfg0.win 13).blk t).view.emb y) = V m c main_cst y
  refine congrArg (V m c main_cst) (funext fun a => Fin.ext ?_)
  match a with
  | ⟨0, _⟩ => show win0_13.index t (0 : Fin 2) * 15 + 1 * (y 0).val = (y 0).val; rw [idx13 t 0]; omega
  | ⟨1, _⟩ => show win0_13.index t (1 : Fin 2) * 36 + 1 * (y 1).val = (y 1).val; rw [idx13 t 1]; omega

/-! ## What point t writes back -/

/-- The output array's contents after the run, as one function of the arrays as the region finds them. -/
abbrev G (c : Dev nD) : S1048576x36.Idx → EReal :=
  flat (V m c main_cst) (V m c main_v1) (V m c main_arg2) (V m c main_v2) (V m c main_arg4) (V m c main_v3) (V m c main_arg6)
    (V m c main_v4) (V m c main_arg8) (V m c main_v5) (V m c main_arg10) (V m c main_v6) (V m c main_arg12) (V m c main_v0)

/-- POINT t WRITES BACK block t of G. -/
theorem flushed_eq (c : Dev nD) (t : Fin cfg0.N) :
    (dats m 0 c).flushed 14 t = ((cfg0.win 14).blk t).view.read (Elt Ideal) (G m c) := by
  show (cfg0.win 14).cut (grid0.coords t) ((dats m 0 c).after 14 t) = _
  rw [after0_14]
  unfold out0_14
  rw [View.canon_unit_zero hz]
  simp only [View.ld_unit_zero (S := S8192x6) hz, View.ld_unit_zero (S := S6x8) hz, View.ld_unit_zero (S := S8x8) hz, View.ld_unit_zero (S := S8x15) hz, View.ld_unit_zero (S := S15x36) hz, View.ld_unit_zero (S := S8) hz1, View.ld_unit_zero (S := S15) hz1]
  rw [iblk1 m c t, iblk2 m c t, iblk3 m c t, iblk4 m c t, iblk5 m c t, iblk6 m c t, iblk7 m c t, iblk8 m c t, iblk9 m c t, iblk10 m c t, iblk11 m c t, iblk12 m c t, iblk13 m c t]
  obtain ⟨e0, e1, e2, e3⟩ := idx_rows t
  funext j
  obtain ⟨p, q, rfl⟩ : ∃ (p : Fin 8192) (q : Fin 36), j = ix2 p q := ⟨j 0, j 1, eq_ix2 j⟩
  refine (pay_apply (iblk m c 0 t) (V m c main_v1) (V m c main_arg2) (V m c main_v2) (V m c main_arg4) (V m c main_v3)
    (V m c main_arg6) (V m c main_v4) (V m c main_arg8) (V m c main_v5) (V m c main_arg10) (V m c main_v6) (V m c main_arg12)
    (V m c main_cst) p q).trans ?_
  show _ = flat _ _ _ _ _ _ _ _ _ _ _ _ _ _ (((cfg0.win 14).blk t).view.emb (ix2 p q))
  unfold flat
  refine Finset.sum_congr rfl fun k _ => ?_
  have hrow : (fun a : Fin 6 => (iblk m c 0 t : Vec Ideal S8192x6 .f32) (ix2 p a))
      = fun a => V m c main_v0 (ix2 ((((cfg0.win 14).blk t).view.emb (ix2 p q)) 0) a) := by
    funext a
    show V m c main_v0 (((cfg0.win 0).blk t).view.emb (ix2 p a)) = _
    refine congrArg (V m c main_v0) (funext fun ax => Fin.ext ?_)
    match ax with
    | ⟨0, _⟩ => show win0_0.index t (0 : Fin 2) * 8192 + 1 * p.val = win0_14.index t (0 : Fin 2) * 8192 + 1 * p.val; omega
    | ⟨1, _⟩ => show win0_0.index t (1 : Fin 2) * 6 + 1 * a.val = a.val; omega
  have hcol : (ix2 k q : S15x36.Idx) = ix2 k ((((cfg0.win 14).blk t).view.emb (ix2 p q)) 1) := by
    funext ax
    refine Fin.ext ?_
    match ax with
    | ⟨0, _⟩ => rfl
    | ⟨1, _⟩ => show q.val = win0_14.index t (1 : Fin 2) * 36 + 1 * q.val; omega
  rw [hrow, hcol] <;> rfl

/-! ## The 128 blocks tile the output -/

theorem mem_blk (t : Fin cfg0.N) (i : S1048576x36.Idx) :
    i ∈ ((cfg0.win 14).blk t).view.set ↔ ∀ a : Fin 2, win0_14.index t a * S8192x36.size a ≤ (i a).val
      ∧ (i a).val < win0_14.index t a * S8192x36.size a + S8192x36.size a := by
  show i ∈ ((View.whole main_v7).slice (win0_14.rect t)).set ↔ _
  rw [View.set_slice_whole, Rect.mem_set_unit]
  exact Iff.rfl

/-- THE OUTPUT ARRAY after the run is G: row r lies in the block of point r / 8192. -/
theorem final (c : Dev nD) : (dats m 0 c).arrAt 14 cfg0.N = G m c :=
  (dats m 0 c).arrAt_eq_of_cover 14 (G m c) (fun t _ => flushed_eq m c t) fun i => by
    have hi0 : (i 0).val < 1048576 := (i 0).isLt
    have hi1 : (i 1).val < 36 := (i 1).isLt
    have hN : cfg0.N = 128 := N_0
    refine ⟨⟨(i 0).val / 8192, by rw [hN]; omega⟩, flush0_14 _, ?_⟩
    obtain ⟨_, _, e2, e3⟩ := idx_rows ⟨(i 0).val / 8192, by rw [hN]; omega⟩
    rw [mem_blk]
    intro a
    match a with
    | ⟨0, _⟩ =>
      show win0_14.index _ (0 : Fin 2) * 8192 ≤ (i 0).val ∧ (i 0).val < win0_14.index _ (0 : Fin 2) * 8192 + 8192
      rw [e2]
      show (i 0).val / 8192 * 8192 ≤ (i 0).val ∧ (i 0).val < (i 0).val / 8192 * 8192 + 8192
      omega
    | ⟨1, _⟩ =>
      show win0_14.index _ (1 : Fin 2) * 36 ≤ (i 1).val ∧ (i 1).val < win0_14.index _ (1 : Fin 2) * 36 + 36
      rw [e3]
      omega

end Cert.KernelIdeal.ArrayValue

end
-- ==== Proof.KernelRun.lean ====
/-
  The kernel program's run, with its result named as a function of the arguments.

  Before the region the host re-reads the input as 1048576 rows of six, transposes the six weight matrices and
  materializes the 15×36 table of zeros and ±1; the bias vectors reach the region untouched. After the region the
  host re-reads the region's 1048576×36 output in the shape [256, 4096, 6, 6]. So every fair execution ends with
  the result buffer holding that re-reading of the row function applied to every row, and the arguments unchanged.
-/
import proofs.«141923_j68289980007047_2_alg».proof.Proof.KernelArray

set_option maxRecDepth 16384

noncomputable section

open scoped BigOperators

namespace Cert.KernelIdeal.RunValue

open Cert.KernelIdeal Cert.KernelIdeal.Gen Idealize.ShloMosaic Idealize.ShloMosaic.TcCoe Idealize.SL.Sem
open Idealize.ShloMosaic.ValueIdx Cert.SkewMlp Cert.KernelIdeal.ArrayValue
open Idealize.ShloMosaic.Pipeline (Dat)

variable (m : (ℓ : Loc nD τ sig) → Buf (Elt Ideal) ℓ) (ρ : Dev nD → PrngReg)

/-! ## The arrays as the region finds them -/

/-- The table: entry i is the number its listed word denotes. -/
theorem V_cst (c : Dev nD) : (V m c main_cst : S15x36.Idx → EReal) = fun i => Ideal.ofBits .f32 (lit0 (S15x36.rowMajor i)) := by
  show StableHlo.after hostOps0 (fun b => m (c, b)) (Proc.devRef .tc main_cst) = _
  after_results
  rfl

/-- The input re-read as rows of six. -/
theorem V_v0 (c : Dev nD) : (V m c main_v0 : S1048576x6.Idx → EReal)
    = shapeCast S1048576x6 (m ((c : Thread nD τ).loc main_arg0)) shapeCasts_S256x4096x6_S1048576x6 := by
  show StableHlo.after hostOps0 (fun b => m (c, b)) (Proc.devRef .tc main_v0) = _
  after_results
  rfl

/-- The weights, transposed. -/
theorem V_v1 (c : Dev nD) : (V m c main_v1 : S6x8.Idx → EReal) = transpose S6x8 [1, 0] (m ((c : Thread nD τ).loc main_arg1)) transposes_S8x6_S6x8_1_0 := by
  show StableHlo.after hostOps0 (fun b => m (c, b)) (Proc.devRef .tc main_v1) = _
  after_results
theorem V_v2 (c : Dev nD) : (V m c main_v2 : S8x8.Idx → EReal) = transpose S8x8 [1, 0] (m ((c : Thread nD τ).loc main_arg3)) transposes_S8x8_S8x8_1_0 := by
  show StableHlo.after hostOps0 (fun b => m (c, b)) (Proc.devRef .tc main_v2) = _
  after_results
theorem V_v3 (c : Dev nD) : (V m c main_v3 : S8x8.Idx → EReal) = transpose S8x8 [1, 0] (m ((c : Thread nD τ).loc main_arg5)) transposes_S8x8_S8x8_1_0 := by
  show StableHlo.after hostOps0 (fun b => m (c, b)) (Proc.devRef .tc main_v3) = _
  after_results
theorem V_v4 (c : Dev nD) : (V m c main_v4 : S8x8.Idx → EReal) = transpose S8x8 [1, 0] (m ((c : Thread nD τ).loc main_arg7)) transposes_S8x8_S8x8_1_0 := by
  show StableHlo.after hostOps0 (fun b => m (c, b)) (Proc.devRef .tc main_v4) = _
  after_results
theorem V_v5 (c : Dev nD) : (V m c main_v5 : S8x8.Idx → EReal) = transpose S8x8 [1, 0] (m ((c : Thread nD τ).loc main_arg9)) transposes_S8x8_S8x8_1_0 := by
  show StableHlo.after hostOps0 (fun b => m (c, b)) (Proc.devRef .tc main_v5) = _
  after_results
theorem V_v6 (c : Dev nD) : (V m c main_v6 : S8x15.Idx → EReal) = transpose S8x15 [1, 0] (m ((c : Thread nD τ).loc main_arg11)) transposes_S15x8_S8x15_1_0 := by
  show StableHlo.after hostOps0 (fun b => m (c, b)) (Proc.devRef .tc main_v6) = _
  after_results

/-- The kernel program's result as a function of the argument arrays on core c. -/
def K (c : Dev nD) : S256x4096x6x6.Idx → EReal :=
  shapeCast S256x4096x6x6 (flat (fun i => Ideal.ofBits .f32 (lit0 (S15x36.rowMajor i)))
    (transpose S6x8 [1, 0] (m ((c : Thread nD τ).loc main_arg1)) transposes_S8x6_S6x8_1_0) (m ((c : Thread nD τ).loc main_arg2))
    (transpose S8x8 [1, 0] (m ((c : Thread nD τ).loc main_arg3)) transposes_S8x8_S8x8_1_0) (m ((c : Thread nD τ).loc main_arg4))
    (transpose S8x8 [1, 0] (m ((c : Thread nD τ).loc main_arg5)) transposes_S8x8_S8x8_1_0) (m ((c : Thread nD τ).loc main_arg6))
    (transpose S8x8 [1, 0] (m ((c : Thread nD τ).loc main_arg7)) transposes_S8x8_S8x8_1_0) (m ((c : Thread nD τ).loc main_arg8))
    (transpose S8x8 [1, 0] (m ((c : Thread nD τ).loc main_arg9)) transposes_S8x8_S8x8_1_0) (m ((c : Thread nD τ).loc main_arg10))
    (transpose S8x15 [1, 0] (m ((c : Thread nD τ).loc main_arg11)) transposes_S15x8_S8x15_1_0) (m ((c : Thread nD τ).loc main_arg12))
    (shapeCast S1048576x6 (m ((c : Thread nD τ).loc main_arg0)) shapeCasts_S256x4096x6_S1048576x6)) shapeCasts_S1048576x36_S256x4096x6x6

/-- The region's output array, in terms of the arguments. -/
theorem G_eq (c : Dev nD) : G m c = flat (fun i => Ideal.ofBits .f32 (lit0 (S15x36.rowMajor i)))
    (transpose S6x8 [1, 0] (m ((c : Thread nD τ).loc main_arg1)) transposes_S8x6_S6x8_1_0) (m ((c : Thread nD τ).loc main_arg2))
    (transpose S8x8 [1, 0] (m ((c : Thread nD τ).loc main_arg3)) transposes_S8x8_S8x8_1_0) (m ((c : Thread nD τ).loc main_arg4))
    (transpose S8x8 [1, 0] (m ((c : Thread nD τ).loc main_arg5)) transposes_S8x8_S8x8_1_0) (m ((c : Thread nD τ).loc main_arg6))
    (transpose S8x8 [1, 0] (m ((c : Thread nD τ).loc main_arg7)) transposes_S8x8_S8x8_1_0) (m ((c : Thread nD τ).loc main_arg8))
    (transpose S8x8 [1, 0] (m ((c : Thread nD τ).loc main_arg9)) transposes_S8x8_S8x8_1_0) (m ((c : Thread nD τ).loc main_arg10))
    (transpose S8x15 [1, 0] (m ((c : Thread nD τ).loc main_arg11)) transposes_S15x8_S8x15_1_0) (m ((c : Thread nD τ).loc main_arg12))
    (shapeCast S1048576x6 (m ((c : Thread nD τ).loc main_arg0)) shapeCasts_S256x4096x6_S1048576x6) := by
  unfold G
  rw [V_cst, V_v0, V_v1, V_v2, V_v3, V_v4, V_v5, V_v6, V_main_arg2, V_main_arg4, V_main_arg6, V_main_arg8, V_main_arg10, V_main_arg12]

/-- After the frame run the result buffer holds K: the host's last line re-reads the region's output array. -/
theorem result_eq (r : PUnit × MemSt nD τ sig (Elt Ideal))
    (h : Pipeline.FramePost cfgs (dats m) 0 (Pipeline.afterTail₀ cfgs (dats m) 0 (V0 m) [hostOps1]) r) (c : Dev nD) :
    r.2.mem ((c : Thread nD τ).loc main_v8) = K m c := by
  rw [(h c).2 main_v8 (Pipeline.mem_restRefs_of main_v8 (by decide) (by decide))]
  unfold Pipeline.afterTail₀
  show StableHlo.after hostOps1 _ (Proc.devRef .tc main_v8) = _
  after_results
  rw [Pipeline.withArrays_arr spec0 launch0.win.arr_inj c _ _ 14, final m c, G_eq m c]
  rfl

/-- THE KERNEL PROGRAM'S RUN: the result buffer ends at K, the thirteen arguments as launched. -/
theorem run : θ_run defs (onTc (τ := τ) (main (F := Ideal))) ⟨m, fun _ => 0, ρ⟩ fun r => ∀ c : Dev nD,
      r.2.mem ((c : Thread nD τ).loc main_v8) = K m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12) :=
  (θ_run defs _ _).mono (fun r h c => ⟨result_eq m r h c,
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).1 4).trans (((dats m 0 c).arrAt_in 4 rfl _).trans ((A_eq m c 4).trans (V_main_arg4 m c))),
      ((h c).2 main_arg5 (Pipeline.mem_restRefs_of main_arg5 (by decide) (by decide))).trans (W_main_arg5 m (dats m) c),
      ((h c).1 6).trans (((dats m 0 c).arrAt_in 6 rfl _).trans ((A_eq m c 6).trans (V_main_arg6 m c))),
      ((h c).2 main_arg7 (Pipeline.mem_restRefs_of main_arg7 (by decide) (by decide))).trans (W_main_arg7 m (dats m) c),
      ((h c).1 8).trans (((dats m 0 c).arrAt_in 8 rfl _).trans ((A_eq m c 8).trans (V_main_arg8 m c))),
      ((h c).2 main_arg9 (Pipeline.mem_restRefs_of main_arg9 (by decide) (by decide))).trans (W_main_arg9 m (dats m) c),
      ((h c).1 10).trans (((dats m 0 c).arrAt_in 10 rfl _).trans ((A_eq m c 10).trans (V_main_arg10 m c))),
      ((h c).2 main_arg11 (Pipeline.mem_restRefs_of main_arg11 (by decide) (by decide))).trans (W_main_arg11 m (dats m) c),
      ((h c).1 12).trans (((dats m 0 c).arrAt_in 12 rfl _).trans ((A_eq m c 12).trans (V_main_arg12 m c)))⟩)
    (run_main m ρ)

end Cert.KernelIdeal.RunValue

end
-- ==== Proof.Skew.lean ====
/-
  The antisymmetric spreading of fifteen numbers over a 6×6 matrix, as a sum with coefficients 0, 1, −1.

  The pairs (i, j) with i < j < 6, in row-major order, are numbered k = 0 … 14: (iu k, ju k). Writing u k at
  position (iu k, ju k) and −u k at the mirrored position (ju k, iu k), zeros elsewhere, gives at position (a, b)
  the sum over k of u k times a coefficient that is 1 when (a, b) is the k-th pair, −1 when it is the mirrored k-th
  pair, and 0 otherwise. Since the pairs are pairwise distinct and every pair has iu k < ju k, at most one term of
  the sum is not zero. On the extended reals x * 0 = 0, x * 1 = x and x * (−1) = −x hold for every x, infinite
  ones included, so nothing here asks the u k to be finite.
-/
import Idealize.ShloMosaic.PureOps.Ideal

noncomputable section

open scoped BigOperators

namespace Cert.Skew

/-- Row of the k-th pair of the strict upper triangle of a 6×6 matrix, row-major. -/
def iu : Fin 15 → Fin 6 := ![0, 0, 0, 0, 0, 1, 1, 1, 1, 2, 2, 2, 3, 3, 4]
/-- Column of the k-th pair. -/
def ju : Fin 15 → Fin 6 := ![1, 2, 3, 4, 5, 2, 3, 4, 5, 3, 4, 5, 4, 5, 5]

theorem iu_lt_ju : ∀ k : Fin 15, iu k < ju k := by decide
theorem pair_inj : ∀ k k' : Fin 15, iu k = iu k' → ju k = ju k' → k = k' := by decide
/-- A pair is never another pair mirrored: the first has its row below its column, the mirror above. -/
theorem pair_ne_mirror : ∀ k k' : Fin 15, ¬(iu k = ju k' ∧ ju k = iu k') := by decide

/-- The coefficient of u k at position (a, b). -/
def coef (k : Fin 15) (a b : Fin 6) : EReal :=
  if a = iu k ∧ b = ju k then 1 else if a = ju k ∧ b = iu k then -1 else 0

/-- At the k₀-th pair's own position only the k₀-th term survives, with coefficient 1. -/
theorem sum_coef_upper (u : Fin 15 → EReal) (k₀ : Fin 15) : ∑ k : Fin 15, u k * coef k (iu k₀) (ju k₀) = u k₀ := by
  rw [Finset.sum_eq_single k₀]
  · unfold coef
    rw [if_pos ⟨rfl, rfl⟩, mul_one]
  · intro k _ hk
    unfold coef
    rw [if_neg (fun h => hk (pair_inj k k₀ h.1.symm h.2.symm)), if_neg (fun h => pair_ne_mirror k₀ k ⟨h.1, h.2⟩), mul_zero]
  · intro h
    exact absurd (Finset.mem_univ k₀) h

/-- At the mirrored position only the k₀-th term survives, with coefficient −1. -/
theorem sum_coef_lower (u : Fin 15 → EReal) (k₀ : Fin 15) : ∑ k : Fin 15, u k * coef k (ju k₀) (iu k₀) = -u k₀ := by
  rw [Finset.sum_eq_single k₀]
  · unfold coef
    rw [if_neg (fun h => pair_ne_mirror k₀ k₀ ⟨h.2, h.1⟩), if_pos ⟨rfl, rfl⟩, mul_neg, mul_one]
  · intro k _ hk
    unfold coef
    rw [if_neg (fun h => pair_ne_mirror k k₀ ⟨h.1.symm, h.2.symm⟩),
      if_neg (fun h => hk (pair_inj k k₀ h.2.symm h.1.symm)), mul_zero]
  · intro h
    exact absurd (Finset.mem_univ k₀) h

/-- Where no pair and no mirrored pair sits, every term vanishes. -/
theorem sum_coef_none (u : Fin 15 → EReal) (a b : Fin 6) (h1 : ∀ k, ¬(iu k = a ∧ ju k = b)) (h2 : ∀ k, ¬(ju k = a ∧ iu k = b)) :
    ∑ k : Fin 15, u k * coef k a b = 0 := by
  refine Finset.sum_eq_zero fun k _ => ?_
  unfold coef
  rw [if_neg (fun h => h1 k ⟨h.1.symm, h.2.symm⟩), if_neg (fun h => h2 k ⟨h.1.symm, h.2.symm⟩), mul_zero]

end Cert.Skew

end
-- ==== Proof.KernelTable.lean ====
/-
  The kernel's 15×36 table of coefficients, read entry by entry.

  The kernel multiplies each row of fifteen outputs by a constant 15×36 matrix whose entries are the words of 0, 1
  and −1. Row k of the matrix, read as a 6×6 block in row-major order, holds 1 at the position of the k-th pair
  (iu k, ju k) of the strict upper triangle, −1 at the mirrored position, and 0 elsewhere: the coefficient of the
  k-th number in the antisymmetric spreading. The words are compared by evaluation at all 15 · 6 · 6 positions; the
  three words' values are computed from the format.
-/
import proofs.«141923_j68289980007047_2_alg».proof.KernelIdeal
import proofs.«141923_j68289980007047_2_alg».proof.Proof.Skew
import Idealize.ShloMosaic.Lib.ValueIdx
import Idealize.ShloMosaic.PureOps.Ideal.Laws

noncomputable section

namespace Cert.KernelIdeal.Table

open Idealize.ShloMosaic Idealize.ShloMosaic.ValueIdx Cert.KernelIdeal Cert.Skew

-- 540 entries, each found through two matches on a base-128 digit
set_option maxRecDepth 1000000 in
set_option maxHeartbeats 4000000 in
/-- The words of the table: at row k and column 6a + b, the word of 1 at the k-th pair, of −1 at its mirror, of 0 elsewhere. -/
theorem word_eq : ∀ (k : Fin 15) (a b : Fin 6), lit0t (36 * k.val + (6 * a.val + b.val))
    = if a = iu k ∧ b = ju k then 0x3F800000#32 else if a = ju k ∧ b = iu k then 0xBF800000#32 else 0x00000000#32 := by
  decide

/-- The word 0x3F800000 is the number 1: sign 0, exponent 127, fraction 0. -/
theorem ofBits_one_f32 : Ideal.ofBits .f32 0x3F800000#32 = 1 := by
  simp [Ideal.ofBits, Ideal.ieee, -EReal.coe_mul]; norm_num

/-- The word 0xBF800000 is the number −1: the same with the sign bit set. -/
theorem ofBits_negone_f32 : Ideal.ofBits .f32 0xBF800000#32 = -1 := by
  simp [Ideal.ofBits, Ideal.ieee, -EReal.coe_mul]; norm_num

/-- The table at index (k, c) is its word at the row-major position 36 k + c. -/
theorem lit0_at (k : Fin 15) (c : Fin 36) : lit0 (S15x36.rowMajor (ix2 k c)) = lit0t (36 * k.val + c.val) := by
  have h : (S15x36.rowMajor (ix2 k c)).val = 36 * k.val + c.val := by
    rw [Shape.rowMajor_val_two]
    show k.val * 36 + c.val = 36 * k.val + c.val
    omega
  show lit0t (S15x36.rowMajor (ix2 k c)).val = _
  rw [h]

/-- Entry (k, 6a + b) of the kernel's table is the coefficient of the k-th number at position (a, b). -/
theorem table_eq (k : Fin 15) (a b : Fin 6) :
    Ideal.ofBits .f32 (Cert.KernelIdeal.lit0 (Cert.KernelIdeal.S15x36.rowMajor
        (ix2 k (⟨6 * a.val + b.val, by have := a.isLt; have := b.isLt; omega⟩ : Fin 36))))
      = Cert.Skew.coef k a b := by
  rw [lit0_at, word_eq k a b]
  unfold Cert.Skew.coef
  split_ifs
  · exact ofBits_one_f32
  · exact ofBits_negone_f32
  · exact Ideal.ofBits_zero_f32

end Cert.KernelIdeal.Table

end
-- ==== Proof.RefOps.lean ====
/- The reference program's @main as a list of its host operations, in program order, with each outlined
   function's operations written at its call site over that call's buffer record (a call of a function that itself
   calls another lists the inner function's operations at the inner call, over the inner record). The list is cut into
   eight consecutive stages: five dense layers (transpose, matrix product, bias broadcast twice, sum, then the
   fourteen operations of softplus), the output layer, the run-time computation of the two index tables, and the
   two scatters with the final reshape. The program's run is then read back through the straight-line rule: every
   weakly fair execution terminates with each buffer at the fold of the operations over the launch contents. -/
import proofs.«141923_j68289980007047_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Layer 0: the input flattened to rows, the weight transposed, their product, the bias broadcast to a row and then to
    every row, the sum; then softplus's fourteen operations over the first call's record (its result is `main_v6`). 20 operations. -/
abbrev opsL0 : List (HloOp τ sig (Elt F)) :=
  [ reshape main_arg0 main_v0 rfl shapeCasts_S256x4096x6_S1048576x6,
    unary main_arg1 main_v1 ((transpose S6x8 [1, 0] · transposes_S8x6_S6x8_1_0) : (⟨S8x6, .f32⟩ : BufTy).Contents (Elt F) → (⟨S6x8, .f32⟩ : BufTy).Contents (Elt F)),
    binary main_v0 main_v1 main_v2 ((fun l r => Host.dotGeneral dot_S1048576x6_S6x8_S1048576x8_1_0_0_1_n_n none l r) : (⟨S1048576x6, .f32⟩ : BufTy).Contents (Elt F) → (⟨S6x8, .f32⟩ : BufTy).Contents (Elt F) → (⟨S1048576x8, .f32⟩ : BufTy).Contents (Elt F)),
    unary main_arg2 main_v3 (broadcastInDim S1x8 ![1] bcast_S8_S1x8_1 : (⟨S8, .f32⟩ : BufTy).Contents (Elt F) → (⟨S1x8, .f32⟩ : BufTy).Contents (Elt F)),
    unary main_v3 main_v4 (broadcastInDim S1048576x8 ![0, 1] bcast_S1x8_S1048576x8_0_1 : (⟨S1x8, .f32⟩ : BufTy).Contents (Elt F) → (⟨S1048576x8, .f32⟩ : BufTy).Contents (Elt F)),
    binary main_v2 main_v4 main_v5 (addf : (⟨S1048576x8, .f32⟩ : BufTy).Contents (Elt F) → (⟨S1048576x8, .f32⟩ : BufTy).Contents (Elt F) → (⟨S1048576x8, .f32⟩ : BufTy).Contents (Elt F)),
    TRef.nullary main_call0.cst (constant S_ .f32 0x00000000#32),
    TRef.unary main_call0.cst main_call0.v0 (broadcastInDim S1048576x8 ![] bcast_S_S1048576x8),
    TRef.binary (.of main_v5 : TRef sig ⟨S1048576x8, .f32⟩) main_call0.v0 main_call0.v1 maximumf,
    TRef.unary main_call0.cst main_call0.v2 (broadcastInDim S1048576x8 ![] bcast_S_S1048576x8),
    TRef.binary (.of main_v5 : TRef sig ⟨S1048576x8, .f32⟩) main_call0.v2 main_call0.v3 subf,
    TRef.binary main_call0.v3 main_call0.v3 main_call0.v4 (cmpf .une),
    TRef.unary main_call0.cst main_call0.v5 (broadcastInDim S1048576x8 ![] bcast_S_S1048576x8),
    TRef.binary (.of main_v5 : TRef sig ⟨S1048576x8, .f32⟩) main_call0.v5 main_call0.v6 addf,
    TRef.unary main_call0.v3 main_call0.v7 Host.absf,
    TRef.unary main_call0.v7 main_call0.v8 Host.negf,
    TRef.unary main_call0.v8 main_call0.v9 Host.exp,
    TRef.unary main_call0.v9 main_call0.v10 Host.log1p,
    TRef.binary main_call0.v1 main_call0.v10 main_call0.v11 addf,
    TRef.ternary main_call0.v4 main_call0.v6 main_call0.v11 main_call0.v12 select ]

/-- Layer 1: transpose, product with `main_v6`, bias broadcasts, sum, softplus over the second call's record (result `main_v12`). 19 operations. -/
abbrev opsL1 : List (HloOp τ sig (Elt F)) :=
  [ unary main_arg3 main_v7 ((transpose S8x8 [1, 0] · transposes_S8x8_S8x8_1_0) : (⟨S8x8, .f32⟩ : BufTy).Contents (Elt F) → (⟨S8x8, .f32⟩ : BufTy).Contents (Elt F)),
    binary main_v6 main_v7 main_v8 ((fun l r => Host.dotGeneral dot_S1048576x8_S8x8_S1048576x8_1_0_0_1_n_n none l r) : (⟨S1048576x8, .f32⟩ : BufTy).Contents (Elt F) → (⟨S8x8, .f32⟩ : BufTy).Contents (Elt F) → (⟨S1048576x8, .f32⟩ : BufTy).Contents (Elt F)),
    unary main_arg4 main_v9 (broadcastInDim S1x8 ![1] bcast_S8_S1x8_1 : (⟨S8, .f32⟩ : BufTy).Contents (Elt F) → (⟨S1x8, .f32⟩ : BufTy).Contents (Elt F)),
    unary main_v9 main_v10 (broadcastInDim S1048576x8 ![0, 1] bcast_S1x8_S1048576x8_0_1 : (⟨S1x8, .f32⟩ : BufTy).Contents (Elt F) → (⟨S1048576x8, .f32⟩ : BufTy).Contents (Elt F)),
    binary main_v8 main_v10 main_v11 (addf : (⟨S1048576x8, .f32⟩ : BufTy).Contents (Elt F) → (⟨S1048576x8, .f32⟩ : BufTy).Contents (Elt F) → (⟨S1048576x8, .f32⟩ : BufTy).Contents (Elt F)),
    TRef.nullary main_call1.cst (constant S_ .f32 0x00000000#32),
    TRef.unary main_call1.cst main_call1.v0 (broadcastInDim S1048576x8 ![] bcast_S_S1048576x8),
    TRef.binary (.of main_v11 : TRef sig ⟨S1048576x8, .f32⟩) main_call1.v0 main_call1.v1 maximumf,
    TRef.unary main_call1.cst main_call1.v2 (broadcastInDim S1048576x8 ![] bcast_S_S1048576x8),
    TRef.binary (.of main_v11 : TRef sig ⟨S1048576x8, .f32⟩) main_call1.v2 main_call1.v3 subf,
    TRef.binary main_call1.v3 main_call1.v3 main_call1.v4 (cmpf .une),
    TRef.unary main_call1.cst main_call1.v5 (broadcastInDim S1048576x8 ![] bcast_S_S1048576x8),
    TRef.binary (.of main_v11 : TRef sig ⟨S1048576x8, .f32⟩) main_call1.v5 main_call1.v6 addf,
    TRef.unary main_call1.v3 main_call1.v7 Host.absf,
    TRef.unary main_call1.v7 main_call1.v8 Host.negf,
    TRef.unary main_call1.v8 main_call1.v9 Host.exp,
    TRef.unary main_call1.v9 main_call1.v10 Host.log1p,
    TRef.binary main_call1.v1 main_call1.v10 main_call1.v11 addf,
    TRef.ternary main_call1.v4 main_call1.v6 main_call1.v11 main_call1.v12 select ]

/-- Layer 2, likewise, from `main_v12` (result `main_v18`). 19 operations. -/
abbrev opsL2 : List (HloOp τ sig (Elt F)) :=
  [ unary main_arg5 main_v13 ((transpose S8x8 [1, 0] · transposes_S8x8_S8x8_1_0) : (⟨S8x8, .f32⟩ : BufTy).Contents (Elt F) → (⟨S8x8, .f32⟩ : BufTy).Contents (Elt F)),
    binary main_v12 main_v13 main_v14 ((fun l r => Host.dotGeneral dot_S1048576x8_S8x8_S1048576x8_1_0_0_1_n_n none l r) : (⟨S1048576x8, .f32⟩ : BufTy).Contents (Elt F) → (⟨S8x8, .f32⟩ : BufTy).Contents (Elt F) → (⟨S1048576x8, .f32⟩ : BufTy).Contents (Elt F)),
    unary main_arg6 main_v15 (broadcastInDim S1x8 ![1] bcast_S8_S1x8_1 : (⟨S8, .f32⟩ : BufTy).Contents (Elt F) → (⟨S1x8, .f32⟩ : BufTy).Contents (Elt F)),
    unary main_v15 main_v16 (broadcastInDim S1048576x8 ![0, 1] bcast_S1x8_S1048576x8_0_1 : (⟨S1x8, .f32⟩ : BufTy).Contents (Elt F) → (⟨S1048576x8, .f32⟩ : BufTy).Contents (Elt F)),
    binary main_v14 main_v16 main_v17 (addf : (⟨S1048576x8, .f32⟩ : BufTy).Contents (Elt F) → (⟨S1048576x8, .f32⟩ : BufTy).Contents (Elt F) → (⟨S1048576x8, .f32⟩ : BufTy).Contents (Elt F)),
    TRef.nullary main_call2.cst (constant S_ .f32 0x00000000#32),
    TRef.unary main_call2.cst main_call2.v0 (broadcastInDim S1048576x8 ![] bcast_S_S1048576x8),
    TRef.binary (.of main_v17 : TRef sig ⟨S1048576x8, .f32⟩) main_call2.v0 main_call2.v1 maximumf,
    TRef.unary main_call2.cst main_call2.v2 (broadcastInDim S1048576x8 ![] bcast_S_S1048576x8),
    TRef.binary (.of main_v17 : TRef sig ⟨S1048576x8, .f32⟩) main_call2.v2 main_call2.v3 subf,
    TRef.binary main_call2.v3 main_call2.v3 main_call2.v4 (cmpf .une),
    TRef.unary main_call2.cst main_call2.v5 (broadcastInDim S1048576x8 ![] bcast_S_S1048576x8),
    TRef.binary (.of main_v17 : TRef sig ⟨S1048576x8, .f32⟩) main_call2.v5 main_call2.v6 addf,
    TRef.unary main_call2.v3 main_call2.v7 Host.absf,
    TRef.unary main_call2.v7 main_call2.v8 Host.negf,
    TRef.unary main_call2.v8 main_call2.v9 Host.exp,
    TRef.unary main_call2.v9 main_call2.v10 Host.log1p,
    TRef.binary main_call2.v1 main_call2.v10 main_call2.v11 addf,
    TRef.ternary main_call2.v4 main_call2.v6 main_call2.v11 main_call2.v12 select ]

/-- Layer 3, likewise, from `main_v18` (result `main_v24`). 19 operations. -/
abbrev opsL3 : List (HloOp τ sig (Elt F)) :=
  [ unary main_arg7 main_v19 ((transpose S8x8 [1, 0] · transposes_S8x8_S8x8_1_0) : (⟨S8x8, .f32⟩ : BufTy).Contents (Elt F) → (⟨S8x8, .f32⟩ : BufTy).Contents (Elt F)),
    binary main_v18 main_v19 main_v20 ((fun l r => Host.dotGeneral dot_S1048576x8_S8x8_S1048576x8_1_0_0_1_n_n none l r) : (⟨S1048576x8, .f32⟩ : BufTy).Contents (Elt F) → (⟨S8x8, .f32⟩ : BufTy).Contents (Elt F) → (⟨S1048576x8, .f32⟩ : BufTy).Contents (Elt F)),
    unary main_arg8 main_v21 (broadcastInDim S1x8 ![1] bcast_S8_S1x8_1 : (⟨S8, .f32⟩ : BufTy).Contents (Elt F) → (⟨S1x8, .f32⟩ : BufTy).Contents (Elt F)),
    unary main_v21 main_v22 (broadcastInDim S1048576x8 ![0, 1] bcast_S1x8_S1048576x8_0_1 : (⟨S1x8, .f32⟩ : BufTy).Contents (Elt F) → (⟨S1048576x8, .f32⟩ : BufTy).Contents (Elt F)),
    binary main_v20 main_v22 main_v23 (addf : (⟨S1048576x8, .f32⟩ : BufTy).Contents (Elt F) → (⟨S1048576x8, .f32⟩ : BufTy).Contents (Elt F) → (⟨S1048576x8, .f32⟩ : BufTy).Contents (Elt F)),
    TRef.nullary main_call3.cst (constant S_ .f32 0x00000000#32),
    TRef.unary main_call3.cst main_call3.v0 (broadcastInDim S1048576x8 ![] bcast_S_S1048576x8),
    TRef.binary (.of main_v23 : TRef sig ⟨S1048576x8, .f32⟩) main_call3.v0 main_call3.v1 maximumf,
    TRef.unary main_call3.cst main_call3.v2 (broadcastInDim S1048576x8 ![] bcast_S_S1048576x8),
    TRef.binary (.of main_v23 : TRef sig ⟨S1048576x8, .f32⟩) main_call3.v2 main_call3.v3 subf,
    TRef.binary main_call3.v3 main_call3.v3 main_call3.v4 (cmpf .une),
    TRef.unary main_call3.cst main_call3.v5 (broadcastInDim S1048576x8 ![] bcast_S_S1048576x8),
    TRef.binary (.of main_v23 : TRef sig ⟨S1048576x8, .f32⟩) main_call3.v5 main_call3.v6 addf,
    TRef.unary main_call3.v3 main_call3.v7 Host.absf,
    TRef.unary main_call3.v7 main_call3.v8 Host.negf,
    TRef.unary main_call3.v8 main_call3.v9 Host.exp,
    TRef.unary main_call3.v9 main_call3.v10 Host.log1p,
    TRef.binary main_call3.v1 main_call3.v10 main_call3.v11 addf,
    TRef.ternary main_call3.v4 main_call3.v6 main_call3.v11 main_call3.v12 select ]

/-- Layer 4, likewise, from `main_v24` (result `main_v30`). 19 operations. -/
abbrev opsL4 : List (HloOp τ sig (Elt F)) :=
  [ unary main_arg9 main_v25 ((transpose S8x8 [1, 0] · transposes_S8x8_S8x8_1_0) : (⟨S8x8, .f32⟩ : BufTy).Contents (Elt F) → (⟨S8x8, .f32⟩ : BufTy).Contents (Elt F)),
    binary main_v24 main_v25 main_v26 ((fun l r => Host.dotGeneral dot_S1048576x8_S8x8_S1048576x8_1_0_0_1_n_n none l r) : (⟨S1048576x8, .f32⟩ : BufTy).Contents (Elt F) → (⟨S8x8, .f32⟩ : BufTy).Contents (Elt F) → (⟨S1048576x8, .f32⟩ : BufTy).Contents (Elt F)),
    unary main_arg10 main_v27 (broadcastInDim S1x8 ![1] bcast_S8_S1x8_1 : (⟨S8, .f32⟩ : BufTy).Contents (Elt F) → (⟨S1x8, .f32⟩ : BufTy).Contents (Elt F)),
    unary main_v27 main_v28 (broadcastInDim S1048576x8 ![0, 1] bcast_S1x8_S1048576x8_0_1 : (⟨S1x8, .f32⟩ : BufTy).Contents (Elt F) → (⟨S1048576x8, .f32⟩ : BufTy).Contents (Elt F)),
    binary main_v26 main_v28 main_v29 (addf : (⟨S1048576x8, .f32⟩ : BufTy).Contents (Elt F) → (⟨S1048576x8, .f32⟩ : BufTy).Contents (Elt F) → (⟨S1048576x8, .f32⟩ : BufTy).Contents (Elt F)),
    TRef.nullary main_call4.cst (constant S_ .f32 0x00000000#32),
    TRef.unary main_call4.cst main_call4.v0 (broadcastInDim S1048576x8 ![] bcast_S_S1048576x8),
    TRef.binary (.of main_v29 : TRef sig ⟨S1048576x8, .f32⟩) main_call4.v0 main_call4.v1 maximumf,
    TRef.unary main_call4.cst main_call4.v2 (broadcastInDim S1048576x8 ![] bcast_S_S1048576x8),
    TRef.binary (.of main_v29 : TRef sig ⟨S1048576x8, .f32⟩) main_call4.v2 main_call4.v3 subf,
    TRef.binary main_call4.v3 main_call4.v3 main_call4.v4 (cmpf .une),
    TRef.unary main_call4.cst main_call4.v5 (broadcastInDim S1048576x8 ![] bcast_S_S1048576x8),
    TRef.binary (.of main_v29 : TRef sig ⟨S1048576x8, .f32⟩) main_call4.v5 main_call4.v6 addf,
    TRef.unary main_call4.v3 main_call4.v7 Host.absf,
    TRef.unary main_call4.v7 main_call4.v8 Host.negf,
    TRef.unary main_call4.v8 main_call4.v9 Host.exp,
    TRef.unary main_call4.v9 main_call4.v10 Host.log1p,
    TRef.binary main_call4.v1 main_call4.v10 main_call4.v11 addf,
    TRef.ternary main_call4.v4 main_call4.v6 main_call4.v11 main_call4.v12 select ]

/-- The output layer: transpose, product with `main_v30`, bias broadcasts, sum (`main_v35`, fifteen columns). 5 operations. -/
abbrev opsOut : List (HloOp τ sig (Elt F)) :=
  [ unary main_arg11 main_v31 ((transpose S8x15 [1, 0] · transposes_S15x8_S8x15_1_0) : (⟨S15x8, .f32⟩ : BufTy).Contents (Elt F) → (⟨S8x15, .f32⟩ : BufTy).Contents (Elt F)),
    binary main_v30 main_v31 main_v32 ((fun l r => Host.dotGeneral dot_S1048576x8_S8x15_S1048576x15_1_0_0_1_n_n none l r) : (⟨S1048576x8, .f32⟩ : BufTy).Contents (Elt F) → (⟨S8x15, .f32⟩ : BufTy).Contents (Elt F) → (⟨S1048576x15, .f32⟩ : BufTy).Contents (Elt F)),
    unary main_arg12 main_v33 (broadcastInDim S1x15 ![1] bcast_S15_S1x15_1 : (⟨S15, .f32⟩ : BufTy).Contents (Elt F) → (⟨S1x15, .f32⟩ : BufTy).Contents (Elt F)),
    unary main_v33 main_v34 (broadcastInDim S1048576x15 ![0, 1] bcast_S1x15_S1048576x15_0_1 : (⟨S1x15, .f32⟩ : BufTy).Contents (Elt F) → (⟨S1048576x15, .f32⟩ : BufTy).Contents (Elt F)),
    binary main_v32 main_v34 main_v35 (addf : (⟨S1048576x15, .f32⟩ : BufTy).Contents (Elt F) → (⟨S1048576x15, .f32⟩ : BufTy).Contents (Elt F) → (⟨S1048576x15, .f32⟩ : BufTy).Contents (Elt F)) ]

/-- The two index tables, computed at run time: a 6×6 table of ones, its upper triangle kept (triu), compared with zero,
    flattened and summed cumulatively (cumsum, through its inner windowed sum), clipped below at zero, wrapped, scattered
    with addition into fifteen counters, summed cumulatively again, then floor-divided by 6 and reduced modulo 6 (and once more
    by 1 and modulo 6), each through its inner select. 117 operations: 40 up to the constant `main_c_5`, then 77. -/
abbrev opsIdx : List (HloOp τ sig (Elt F)) :=
  [ nullary main_cst (constant S_ .f32 0x3F800000#32),
    unary main_cst main_v36 (broadcastInDim S6x6 ![] bcast_S_S6x6 : (⟨S_, .f32⟩ : BufTy).Contents (Elt F) → (⟨S6x6, .f32⟩ : BufTy).Contents (Elt F)),
    TRef.nullary main_call5.v0 (iotaInDim S6x6 32 0),
    TRef.nullary main_call5.c (constantI S_ 32 0#32),
    TRef.unary main_call5.c main_call5.v1 (broadcastInDim S6x6 ![] bcast_S_S6x6),
    TRef.binary main_call5.v0 main_call5.v1 main_call5.v2 addi,
    TRef.nullary main_call5.v3 (iotaInDim S6x6 32 1),
    TRef.binary main_call5.v2 main_call5.v3 main_call5.v4 (cmpi .sge),
    TRef.nullary main_call5.cst (constant S_ .f32 0x00000000#32),
    TRef.unary main_call5.cst main_call5.v5 (broadcastInDim S6x6 ![] bcast_S_S6x6),
    TRef.ternary main_call5.v4 main_call5.v5 (.of main_v36 : TRef sig ⟨S6x6, .f32⟩) main_call5.v6 select,
    nullary main_cst_0 (constant S_ .f32 0x00000000#32),
    unary main_cst_0 main_v38 (broadcastInDim S6x6 ![] bcast_S_S6x6 : (⟨S_, .f32⟩ : BufTy).Contents (Elt F) → (⟨S6x6, .f32⟩ : BufTy).Contents (Elt F)),
    binary main_v37 main_v38 main_v39 (cmpf .une : (⟨S6x6, .f32⟩ : BufTy).Contents (Elt F) → (⟨S6x6, .f32⟩ : BufTy).Contents (Elt F) → (⟨S6x6, .i1⟩ : BufTy).Contents (Elt F)),
    TRef.reshape (.of main_v39 : TRef sig ⟨S6x6, .i1⟩) main_call6.v0 rfl shapeCasts_S6x6_S36,
    TRef.unary main_call6.v0 main_call6.v1 (extui 32 · natLt_1_32),
    TRef.nullary main_call6.call0.c (constantI S_ 32 0#32),
    TRef.unary main_call6.call0.c main_call6.call0.v0 (broadcastInDim S_ ![] bcast_S_S_),
    TRef.binary main_call6.v1 main_call6.call0.v0 main_call6.call0.v1 (fun x v => Host.reduceWindow IntOp.addi ![36] ![1] ![35] ![0] x v reduceWindows_S36_S36_w36s1p35_0 h_S_),
    nullary main_c (constantI S_ 32 0#32),
    unary main_c main_v41 (broadcastInDim S15 ![] bcast_S_S15 : (⟨S_, .i32⟩ : BufTy).Contents (Elt F) → (⟨S15, .i32⟩ : BufTy).Contents (Elt F)),
    nullary main_c_1 (constantI S_ 32 0#32),
    TRef.unary (.of main_c_1 : TRef sig ⟨S_, .i32⟩) main_call7.v0 id,
    TRef.unary main_call7.v0 main_call7.v1 (broadcastInDim S36 ![] bcast_S_S36),
    TRef.binary main_call7.v1 (.of main_v40 : TRef sig ⟨S36, .i32⟩) main_call7.v2 maxsi,
    nullary main_c_2 (constantI S_ 32 0#32),
    unary main_c_2 main_v43 (broadcastInDim S36 ![] bcast_S_S36 : (⟨S_, .i32⟩ : BufTy).Contents (Elt F) → (⟨S36, .i32⟩ : BufTy).Contents (Elt F)),
    binary main_v42 main_v43 main_v44 (cmpi .slt : (⟨S36, .i32⟩ : BufTy).Contents (Elt F) → (⟨S36, .i32⟩ : BufTy).Contents (Elt F) → (⟨S36, .i1⟩ : BufTy).Contents (Elt F)),
    nullary main_c_3 (constantI S_ 32 15#32),
    unary main_c_3 main_v45 (broadcastInDim S36 ![] bcast_S_S36 : (⟨S_, .i32⟩ : BufTy).Contents (Elt F) → (⟨S36, .i32⟩ : BufTy).Contents (Elt F)),
    binary main_v42 main_v45 main_v46 (addi : (⟨S36, .i32⟩ : BufTy).Contents (Elt F) → (⟨S36, .i32⟩ : BufTy).Contents (Elt F) → (⟨S36, .i32⟩ : BufTy).Contents (Elt F)),
    ternary main_v44 main_v46 main_v42 main_v47 (select : (⟨S36, .i1⟩ : BufTy).Contents (Elt F) → (⟨S36, .i32⟩ : BufTy).Contents (Elt F) → (⟨S36, .i32⟩ : BufTy).Contents (Elt F) → (⟨S36, .i32⟩ : BufTy).Contents (Elt F)),
    unary main_v47 main_v48 (broadcastInDim S36x1 ![0] bcast_S36_S36x1_0 : (⟨S36, .i32⟩ : BufTy).Contents (Elt F) → (⟨S36x1, .i32⟩ : BufTy).Contents (Elt F)),
    nullary main_c_4 (constantI S_ 32 1#32),
    unary main_c_4 main_v49 (broadcastInDim S36 ![] bcast_S_S36 : (⟨S_, .i32⟩ : BufTy).Contents (Elt F) → (⟨S36, .i32⟩ : BufTy).Contents (Elt F)),
    ternary main_v41 main_v48 main_v49 main_v50 ((fun x i u => Host.scatter scatter_S15_S36x1_S36_n_0_0_1 IntOp.addi x i u) : (⟨S15, .i32⟩ : BufTy).Contents (Elt F) → (⟨S36x1, .i32⟩ : BufTy).Contents (Elt F) → (⟨S36, .i32⟩ : BufTy).Contents (Elt F) → (⟨S15, .i32⟩ : BufTy).Contents (Elt F)),
    TRef.nullary main_call8.call0.c (constantI S_ 32 0#32),
    TRef.unary main_call8.call0.c main_call8.call0.v0 (broadcastInDim S_ ![] bcast_S_S_),
    TRef.binary (.of main_v50 : TRef sig ⟨S15, .i32⟩) main_call8.call0.v0 main_call8.call0.v1 (fun x v => Host.reduceWindow IntOp.addi ![15] ![1] ![14] ![0] x v reduceWindows_S15_S15_w15s1p14_0 h_S_),
    nullary main_c_5 (constantI S_ 32 6#32),
    TRef.unary (.of main_c_5 : TRef sig ⟨S_, .i32⟩) main_call9.v0 (broadcastInDim S15 ![] bcast_S_S15),
    TRef.binary (.of main_v51 : TRef sig ⟨S15, .i32⟩) main_call9.v0 main_call9.v1 Host.divsi,
    TRef.unary (.of main_v51 : TRef sig ⟨S15, .i32⟩) main_call9.v2 signi,
    TRef.unary (.of main_c_5 : TRef sig ⟨S_, .i32⟩) main_call9.v3 signi,
    TRef.unary main_call9.v3 main_call9.v4 (broadcastInDim S15 ![] bcast_S_S15),
    TRef.binary main_call9.v2 main_call9.v4 main_call9.v5 (cmpi .ne),
    TRef.unary (.of main_c_5 : TRef sig ⟨S_, .i32⟩) main_call9.v6 (broadcastInDim S15 ![] bcast_S_S15),
    TRef.binary (.of main_v51 : TRef sig ⟨S15, .i32⟩) main_call9.v6 main_call9.v7 Host.remsi,
    TRef.nullary main_call9.c (constantI S_ 32 0#32),
    TRef.unary main_call9.c main_call9.v8 (broadcastInDim S15 ![] bcast_S_S15),
    TRef.binary main_call9.v7 main_call9.v8 main_call9.v9 (cmpi .ne),
    TRef.binary main_call9.v5 main_call9.v9 main_call9.v10 andi,
    TRef.nullary main_call9.c_0 (constantI S_ 32 1#32),
    TRef.unary main_call9.c_0 main_call9.v11 (broadcastInDim S15 ![] bcast_S_S15),
    TRef.binary main_call9.v1 main_call9.v11 main_call9.v12 subi,
    TRef.ternary main_call9.v10 main_call9.v12 main_call9.v1 main_call9.call0.v0 select,
    nullary main_c_6 (constantI S_ 32 6#32),
    TRef.unary (.of main_c_6 : TRef sig ⟨S_, .i32⟩) main_call10.v0 id,
    TRef.nullary main_call10.c (constantI S_ 32 0#32),
    TRef.binary main_call10.v0 main_call10.c main_call10.v1 (cmpi .eq),
    TRef.nullary main_call10.c_0 (constantI S_ 32 1#32),
    TRef.ternary main_call10.v1 main_call10.c_0 main_call10.v0 main_call10.call0.v0 select,
    TRef.unary main_call10.call0.v0 main_call10.v3 (broadcastInDim S15 ![] bcast_S_S15),
    TRef.binary (.of main_v52 : TRef sig ⟨S15, .i32⟩) main_call10.v3 main_call10.v4 Host.remsi,
    TRef.nullary main_call10.c_1 (constantI S_ 32 0#32),
    TRef.unary main_call10.c_1 main_call10.v5 (broadcastInDim S15 ![] bcast_S_S15),
    TRef.binary main_call10.v4 main_call10.v5 main_call10.v6 (cmpi .ne),
    TRef.nullary main_call10.c_2 (constantI S_ 32 0#32),
    TRef.unary main_call10.c_2 main_call10.v7 (broadcastInDim S15 ![] bcast_S_S15),
    TRef.binary main_call10.v4 main_call10.v7 main_call10.v8 (cmpi .slt),
    TRef.nullary main_call10.c_3 (constantI S_ 32 0#32),
    TRef.binary main_call10.call0.v0 main_call10.c_3 main_call10.v9 (cmpi .slt),
    TRef.unary main_call10.v9 main_call10.v10 (broadcastInDim S15 ![] bcast_S_S15),
    TRef.binary main_call10.v8 main_call10.v10 main_call10.v11 (cmpi .ne),
    TRef.binary main_call10.v11 main_call10.v6 main_call10.v12 andi,
    TRef.unary main_call10.call0.v0 main_call10.v13 (broadcastInDim S15 ![] bcast_S_S15),
    TRef.binary main_call10.v4 main_call10.v13 main_call10.v14 addi,
    TRef.ternary main_call10.v12 main_call10.v14 main_call10.v4 main_call10.v15 select,
    nullary main_c_7 (constantI S_ 32 1#32),
    TRef.unary (.of main_c_7 : TRef sig ⟨S_, .i32⟩) main_call11.v0 (broadcastInDim S15 ![] bcast_S_S15),
    TRef.binary (.of main_v51 : TRef sig ⟨S15, .i32⟩) main_call11.v0 main_call11.v1 Host.divsi,
    TRef.unary (.of main_v51 : TRef sig ⟨S15, .i32⟩) main_call11.v2 signi,
    TRef.unary (.of main_c_7 : TRef sig ⟨S_, .i32⟩) main_call11.v3 signi,
    TRef.unary main_call11.v3 main_call11.v4 (broadcastInDim S15 ![] bcast_S_S15),
    TRef.binary main_call11.v2 main_call11.v4 main_call11.v5 (cmpi .ne),
    TRef.unary (.of main_c_7 : TRef sig ⟨S_, .i32⟩) main_call11.v6 (broadcastInDim S15 ![] bcast_S_S15),
    TRef.binary (.of main_v51 : TRef sig ⟨S15, .i32⟩) main_call11.v6 main_call11.v7 Host.remsi,
    TRef.nullary main_call11.c (constantI S_ 32 0#32),
    TRef.unary main_call11.c main_call11.v8 (broadcastInDim S15 ![] bcast_S_S15),
    TRef.binary main_call11.v7 main_call11.v8 main_call11.v9 (cmpi .ne),
    TRef.binary main_call11.v5 main_call11.v9 main_call11.v10 andi,
    TRef.nullary main_call11.c_0 (constantI S_ 32 1#32),
    TRef.unary main_call11.c_0 main_call11.v11 (broadcastInDim S15 ![] bcast_S_S15),
    TRef.binary main_call11.v1 main_call11.v11 main_call11.v12 subi,
    TRef.ternary main_call11.v10 main_call11.v12 main_call11.v1 main_call11.call0.v0 select,
    nullary main_c_8 (constantI S_ 32 6#32),
    TRef.unary (.of main_c_8 : TRef sig ⟨S_, .i32⟩) main_call12.v0 id,
    TRef.nullary main_call12.c (constantI S_ 32 0#32),
    TRef.binary main_call12.v0 main_call12.c main_call12.v1 (cmpi .eq),
    TRef.nullary main_call12.c_0 (constantI S_ 32 1#32),
    TRef.ternary main_call12.v1 main_call12.c_0 main_call12.v0 main_call12.call0.v0 select,
    TRef.unary main_call12.call0.v0 main_call12.v3 (broadcastInDim S15 ![] bcast_S_S15),
    TRef.binary (.of main_v54 : TRef sig ⟨S15, .i32⟩) main_call12.v3 main_call12.v4 Host.remsi,
    TRef.nullary main_call12.c_1 (constantI S_ 32 0#32),
    TRef.unary main_call12.c_1 main_call12.v5 (broadcastInDim S15 ![] bcast_S_S15),
    TRef.binary main_call12.v4 main_call12.v5 main_call12.v6 (cmpi .ne),
    TRef.nullary main_call12.c_2 (constantI S_ 32 0#32),
    TRef.unary main_call12.c_2 main_call12.v7 (broadcastInDim S15 ![] bcast_S_S15),
    TRef.binary main_call12.v4 main_call12.v7 main_call12.v8 (cmpi .slt),
    TRef.nullary main_call12.c_3 (constantI S_ 32 0#32),
    TRef.binary main_call12.call0.v0 main_call12.c_3 main_call12.v9 (cmpi .slt),
    TRef.unary main_call12.v9 main_call12.v10 (broadcastInDim S15 ![] bcast_S_S15),
    TRef.binary main_call12.v8 main_call12.v10 main_call12.v11 (cmpi .ne),
    TRef.binary main_call12.v11 main_call12.v6 main_call12.v12 andi,
    TRef.unary main_call12.call0.v0 main_call12.v13 (broadcastInDim S15 ![] bcast_S_S15),
    TRef.binary main_call12.v4 main_call12.v13 main_call12.v14 addi,
    TRef.ternary main_call12.v12 main_call12.v14 main_call12.v4 main_call12.v15 select ]

/-- The two scatters: a zero 6×6 block per row; the wrapped index pairs (row, column) concatenated; `main_v35` scattered at
    them; `main_v35` negated and scattered at the transposed pairs (column, row); the reshape to the result. 40 operations. -/
abbrev opsScat : List (HloOp τ sig (Elt F)) :=
  [ nullary main_cst_9 (constant S_ .f32 0x00000000#32),
    unary main_cst_9 main_v56 (broadcastInDim S1048576x6x6 ![] bcast_S_S1048576x6x6 : (⟨S_, .f32⟩ : BufTy).Contents (Elt F) → (⟨S1048576x6x6, .f32⟩ : BufTy).Contents (Elt F)),
    nullary main_c_10 (constantI S_ 32 0#32),
    unary main_c_10 main_v57 (broadcastInDim S15 ![] bcast_S_S15 : (⟨S_, .i32⟩ : BufTy).Contents (Elt F) → (⟨S15, .i32⟩ : BufTy).Contents (Elt F)),
    binary main_v53 main_v57 main_v58 (cmpi .slt : (⟨S15, .i32⟩ : BufTy).Contents (Elt F) → (⟨S15, .i32⟩ : BufTy).Contents (Elt F) → (⟨S15, .i1⟩ : BufTy).Contents (Elt F)),
    nullary main_c_11 (constantI S_ 32 6#32),
    unary main_c_11 main_v59 (broadcastInDim S15 ![] bcast_S_S15 : (⟨S_, .i32⟩ : BufTy).Contents (Elt F) → (⟨S15, .i32⟩ : BufTy).Contents (Elt F)),
    binary main_v53 main_v59 main_v60 (addi : (⟨S15, .i32⟩ : BufTy).Contents (Elt F) → (⟨S15, .i32⟩ : BufTy).Contents (Elt F) → (⟨S15, .i32⟩ : BufTy).Contents (Elt F)),
    ternary main_v58 main_v60 main_v53 main_v61 (select : (⟨S15, .i1⟩ : BufTy).Contents (Elt F) → (⟨S15, .i32⟩ : BufTy).Contents (Elt F) → (⟨S15, .i32⟩ : BufTy).Contents (Elt F) → (⟨S15, .i32⟩ : BufTy).Contents (Elt F)),
    nullary main_c_12 (constantI S_ 32 0#32),
    unary main_c_12 main_v62 (broadcastInDim S15 ![] bcast_S_S15 : (⟨S_, .i32⟩ : BufTy).Contents (Elt F) → (⟨S15, .i32⟩ : BufTy).Contents (Elt F)),
    binary main_v55 main_v62 main_v63 (cmpi .slt : (⟨S15, .i32⟩ : BufTy).Contents (Elt F) → (⟨S15, .i32⟩ : BufTy).Contents (Elt F) → (⟨S15, .i1⟩ : BufTy).Contents (Elt F)),
    nullary main_c_13 (constantI S_ 32 6#32),
    unary main_c_13 main_v64 (broadcastInDim S15 ![] bcast_S_S15 : (⟨S_, .i32⟩ : BufTy).Contents (Elt F) → (⟨S15, .i32⟩ : BufTy).Contents (Elt F)),
    binary main_v55 main_v64 main_v65 (addi : (⟨S15, .i32⟩ : BufTy).Contents (Elt F) → (⟨S15, .i32⟩ : BufTy).Contents (Elt F) → (⟨S15, .i32⟩ : BufTy).Contents (Elt F)),
    ternary main_v63 main_v65 main_v55 main_v66 (select : (⟨S15, .i1⟩ : BufTy).Contents (Elt F) → (⟨S15, .i32⟩ : BufTy).Contents (Elt F) → (⟨S15, .i32⟩ : BufTy).Contents (Elt F) → (⟨S15, .i32⟩ : BufTy).Contents (Elt F)),
    unary main_v61 main_v67 (broadcastInDim S15x1 ![0] bcast_S15_S15x1_0 : (⟨S15, .i32⟩ : BufTy).Contents (Elt F) → (⟨S15x1, .i32⟩ : BufTy).Contents (Elt F)),
    unary main_v66 main_v68 (broadcastInDim S15x1 ![0] bcast_S15_S15x1_0 : (⟨S15, .i32⟩ : BufTy).Contents (Elt F) → (⟨S15x1, .i32⟩ : BufTy).Contents (Elt F)),
    binary main_v67 main_v68 main_v69 ((fun a b => concatenate S15x2 1 [⟨S15x1, a⟩, ⟨S15x1, b⟩] concatenates_S15x1_S15x1_S15x2_d1) : (⟨S15x1, .i32⟩ : BufTy).Contents (Elt F) → (⟨S15x1, .i32⟩ : BufTy).Contents (Elt F) → (⟨S15x2, .i32⟩ : BufTy).Contents (Elt F)),
    ternary main_v56 main_v69 main_v35 main_v70 ((fun x i u => Host.scatter scatter_S1048576x6x6_S15x2_S1048576x15_0_12_12_1 (fun _ b => b) x i u) : (⟨S1048576x6x6, .f32⟩ : BufTy).Contents (Elt F) → (⟨S15x2, .i32⟩ : BufTy).Contents (Elt F) → (⟨S1048576x15, .f32⟩ : BufTy).Contents (Elt F) → (⟨S1048576x6x6, .f32⟩ : BufTy).Contents (Elt F)),
    unary main_v35 main_v71 (Host.negf : (⟨S1048576x15, .f32⟩ : BufTy).Contents (Elt F) → (⟨S1048576x15, .f32⟩ : BufTy).Contents (Elt F)),
    nullary main_c_14 (constantI S_ 32 0#32),
    unary main_c_14 main_v72 (broadcastInDim S15 ![] bcast_S_S15 : (⟨S_, .i32⟩ : BufTy).Contents (Elt F) → (⟨S15, .i32⟩ : BufTy).Contents (Elt F)),
    binary main_v55 main_v72 main_v73 (cmpi .slt : (⟨S15, .i32⟩ : BufTy).Contents (Elt F) → (⟨S15, .i32⟩ : BufTy).Contents (Elt F) → (⟨S15, .i1⟩ : BufTy).Contents (Elt F)),
    nullary main_c_15 (constantI S_ 32 6#32),
    unary main_c_15 main_v74 (broadcastInDim S15 ![] bcast_S_S15 : (⟨S_, .i32⟩ : BufTy).Contents (Elt F) → (⟨S15, .i32⟩ : BufTy).Contents (Elt F)),
    binary main_v55 main_v74 main_v75 (addi : (⟨S15, .i32⟩ : BufTy).Contents (Elt F) → (⟨S15, .i32⟩ : BufTy).Contents (Elt F) → (⟨S15, .i32⟩ : BufTy).Contents (Elt F)),
    ternary main_v73 main_v75 main_v55 main_v76 (select : (⟨S15, .i1⟩ : BufTy).Contents (Elt F) → (⟨S15, .i32⟩ : BufTy).Contents (Elt F) → (⟨S15, .i32⟩ : BufTy).Contents (Elt F) → (⟨S15, .i32⟩ : BufTy).Contents (Elt F)),
    nullary main_c_16 (constantI S_ 32 0#32),
    unary main_c_16 main_v77 (broadcastInDim S15 ![] bcast_S_S15 : (⟨S_, .i32⟩ : BufTy).Contents (Elt F) → (⟨S15, .i32⟩ : BufTy).Contents (Elt F)),
    binary main_v53 main_v77 main_v78 (cmpi .slt : (⟨S15, .i32⟩ : BufTy).Contents (Elt F) → (⟨S15, .i32⟩ : BufTy).Contents (Elt F) → (⟨S15, .i1⟩ : BufTy).Contents (Elt F)),
    nullary main_c_17 (constantI S_ 32 6#32),
    unary main_c_17 main_v79 (broadcastInDim S15 ![] bcast_S_S15 : (⟨S_, .i32⟩ : BufTy).Contents (Elt F) → (⟨S15, .i32⟩ : BufTy).Contents (Elt F)),
    binary main_v53 main_v79 main_v80 (addi : (⟨S15, .i32⟩ : BufTy).Contents (Elt F) → (⟨S15, .i32⟩ : BufTy).Contents (Elt F) → (⟨S15, .i32⟩ : BufTy).Contents (Elt F)),
    ternary main_v78 main_v80 main_v53 main_v81 (select : (⟨S15, .i1⟩ : BufTy).Contents (Elt F) → (⟨S15, .i32⟩ : BufTy).Contents (Elt F) → (⟨S15, .i32⟩ : BufTy).Contents (Elt F) → (⟨S15, .i32⟩ : BufTy).Contents (Elt F)),
    unary main_v76 main_v82 (broadcastInDim S15x1 ![0] bcast_S15_S15x1_0 : (⟨S15, .i32⟩ : BufTy).Contents (Elt F) → (⟨S15x1, .i32⟩ : BufTy).Contents (Elt F)),
    unary main_v81 main_v83 (broadcastInDim S15x1 ![0] bcast_S15_S15x1_0 : (⟨S15, .i32⟩ : BufTy).Contents (Elt F) → (⟨S15x1, .i32⟩ : BufTy).Contents (Elt F)),
    binary main_v82 main_v83 main_v84 ((fun a b => concatenate S15x2 1 [⟨S15x1, a⟩, ⟨S15x1, b⟩] concatenates_S15x1_S15x1_S15x2_d1) : (⟨S15x1, .i32⟩ : BufTy).Contents (Elt F) → (⟨S15x1, .i32⟩ : BufTy).Contents (Elt F) → (⟨S15x2, .i32⟩ : BufTy).Contents (Elt F)),
    ternary main_v70 main_v84 main_v71 main_v85 ((fun x i u => Host.scatter scatter_S1048576x6x6_S15x2_S1048576x15_0_12_12_1 (fun _ b => b) x i u) : (⟨S1048576x6x6, .f32⟩ : BufTy).Contents (Elt F) → (⟨S15x2, .i32⟩ : BufTy).Contents (Elt F) → (⟨S1048576x15, .f32⟩ : BufTy).Contents (Elt F) → (⟨S1048576x6x6, .f32⟩ : BufTy).Contents (Elt F)),
    reshape main_v85 main_v86 rfl shapeCasts_S1048576x6x6_S256x4096x6x6 ]

/-- @main's 258 operations, in order: the eight stages one after the other. -/
abbrev ops : List (HloOp τ sig (Elt F)) :=
  opsL0 ++ opsL1 ++ opsL2 ++ opsL3 ++ opsL4 ++ opsOut ++ opsIdx ++ opsScat

/-- The fold over two lists one after the other is the fold over the second from where the first ends. -/
theorem after_append {τ' : Topo} {sig' : RefSig} {Val : EltTy → Type} (l₁ l₂ : List (HloOp τ' sig' Val))
    (V : Valuation τ' sig' Val) : after (l₁ ++ l₂) V = after l₂ (after l₁ V) := by
  induction l₁ generalizing V with
  | nil => rfl
  | cons op l ih => simp only [List.cons_append, after_cons, ih]

end Cert.ReferenceIdeal.RefRun

end
-- ==== Proof.RefRun.lean ====
/- The run of the reference program read back from its list of operations (the lists are in RefOps.lean): @main is the
   straight line of those operations; every operation touches TensorCore buffers only and determines its results; the
   signature scopes no buffer and no semaphore; hence every weakly fair execution terminates with each buffer at the fold
   of the operations over the launch contents. -/
import proofs.«141923_j68289980007047_2_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

-- 258 binds re-associated: the rewrite under the chain recurses once per statement
set_option maxRecDepth 16384 in
set_option maxHeartbeats 8000000 in
/-- @main is that straight line: its two windows one after the other, the outlined functions' definitions unfolded at
    their calls and the records at their fields; once sequencing is reassociated both sides are the same chain of steps. -/
theorem main_eq (c : Dev nD) : main (F := F) c = seq ops := by
  simp only [main, main_part0, main_part1, fn_softplus.body, fn_triu.body, fn_cumsum.body, fn_cumsum_0.body, fn_clip.body, fn_cumsum_1.body, fn_cumsum_2.body, fn_floor_divide.body, fn_where.body, fn_remainder.body, fn_where_3.body,
    ops, opsL0, opsL1, opsL2, opsL3, opsL4, opsOut, opsIdx, opsScat, seq_append, seq, bind_assoc, pure_bind]

theorem opsL0_sub : (opsL0 : List (HloOp τ sig (Elt F))).Forall fun op => op.bufs ⊆ tcRefs τ sig :=
  ⟨reshape_bufs_sub .., unary_bufs_sub .., binary_bufs_sub .., unary_bufs_sub .., unary_bufs_sub .., binary_bufs_sub ..,
    nullary_bufs_sub .., unary_bufs_sub .., binary_bufs_sub .., unary_bufs_sub .., binary_bufs_sub .., binary_bufs_sub ..,
    unary_bufs_sub .., binary_bufs_sub .., unary_bufs_sub .., unary_bufs_sub .., unary_bufs_sub .., unary_bufs_sub ..,
    binary_bufs_sub .., ternary_bufs_sub ..⟩

theorem opsL1_sub : (opsL1 : List (HloOp τ sig (Elt F))).Forall fun op => op.bufs ⊆ tcRefs τ sig :=
  ⟨unary_bufs_sub .., binary_bufs_sub .., unary_bufs_sub .., unary_bufs_sub .., binary_bufs_sub .., nullary_bufs_sub ..,
    unary_bufs_sub .., binary_bufs_sub .., unary_bufs_sub .., binary_bufs_sub .., binary_bufs_sub .., unary_bufs_sub ..,
    binary_bufs_sub .., unary_bufs_sub .., unary_bufs_sub .., unary_bufs_sub .., unary_bufs_sub .., binary_bufs_sub ..,
    ternary_bufs_sub ..⟩

theorem opsL2_sub : (opsL2 : List (HloOp τ sig (Elt F))).Forall fun op => op.bufs ⊆ tcRefs τ sig :=
  ⟨unary_bufs_sub .., binary_bufs_sub .., unary_bufs_sub .., unary_bufs_sub .., binary_bufs_sub .., nullary_bufs_sub ..,
    unary_bufs_sub .., binary_bufs_sub .., unary_bufs_sub .., binary_bufs_sub .., binary_bufs_sub .., unary_bufs_sub ..,
    binary_bufs_sub .., unary_bufs_sub .., unary_bufs_sub .., unary_bufs_sub .., unary_bufs_sub .., binary_bufs_sub ..,
    ternary_bufs_sub ..⟩

theorem opsL3_sub : (opsL3 : List (HloOp τ sig (Elt F))).Forall fun op => op.bufs ⊆ tcRefs τ sig :=
  ⟨unary_bufs_sub .., binary_bufs_sub .., unary_bufs_sub .., unary_bufs_sub .., binary_bufs_sub .., nullary_bufs_sub ..,
    unary_bufs_sub .., binary_bufs_sub .., unary_bufs_sub .., binary_bufs_sub .., binary_bufs_sub .., unary_bufs_sub ..,
    binary_bufs_sub .., unary_bufs_sub .., unary_bufs_sub .., unary_bufs_sub .., unary_bufs_sub .., binary_bufs_sub ..,
    ternary_bufs_sub ..⟩

theorem opsL4_sub : (opsL4 : List (HloOp τ sig (Elt F))).Forall fun op => op.bufs ⊆ tcRefs τ sig :=
  ⟨unary_bufs_sub .., binary_bufs_sub .., unary_bufs_sub .., unary_bufs_sub .., binary_bufs_sub .., nullary_bufs_sub ..,
    unary_bufs_sub .., binary_bufs_sub .., unary_bufs_sub .., binary_bufs_sub .., binary_bufs_sub .., unary_bufs_sub ..,
    binary_bufs_sub .., unary_bufs_sub .., unary_bufs_sub .., unary_bufs_sub .., unary_bufs_sub .., binary_bufs_sub ..,
    ternary_bufs_sub ..⟩

theorem opsOut_sub : (opsOut : List (HloOp τ sig (Elt F))).Forall fun op => op.bufs ⊆ tcRefs τ sig :=
  ⟨unary_bufs_sub .., binary_bufs_sub .., unary_bufs_sub .., unary_bufs_sub .., binary_bufs_sub ..⟩

theorem opsIdx_sub : (opsIdx : List (HloOp τ sig (Elt F))).Forall fun op => op.bufs ⊆ tcRefs τ sig :=
  ⟨nullary_bufs_sub .., unary_bufs_sub .., nullary_bufs_sub .., nullary_bufs_sub .., unary_bufs_sub .., binary_bufs_sub ..,
    nullary_bufs_sub .., binary_bufs_sub .., nullary_bufs_sub .., unary_bufs_sub .., ternary_bufs_sub .., nullary_bufs_sub ..,
    unary_bufs_sub .., binary_bufs_sub .., reshape_bufs_sub .., unary_bufs_sub .., nullary_bufs_sub .., unary_bufs_sub ..,
    binary_bufs_sub .., nullary_bufs_sub .., unary_bufs_sub .., nullary_bufs_sub .., unary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., nullary_bufs_sub .., unary_bufs_sub .., ternary_bufs_sub ..,
    nullary_bufs_sub .., unary_bufs_sub .., binary_bufs_sub .., nullary_bufs_sub .., unary_bufs_sub .., binary_bufs_sub ..,
    unary_bufs_sub .., unary_bufs_sub .., unary_bufs_sub .., binary_bufs_sub .., unary_bufs_sub .., binary_bufs_sub ..,
    nullary_bufs_sub .., unary_bufs_sub .., binary_bufs_sub .., binary_bufs_sub .., nullary_bufs_sub .., unary_bufs_sub ..,
    binary_bufs_sub .., ternary_bufs_sub .., nullary_bufs_sub .., unary_bufs_sub .., nullary_bufs_sub .., binary_bufs_sub ..,
    nullary_bufs_sub .., ternary_bufs_sub .., unary_bufs_sub .., binary_bufs_sub .., nullary_bufs_sub .., unary_bufs_sub ..,
    binary_bufs_sub .., nullary_bufs_sub .., unary_bufs_sub .., binary_bufs_sub .., nullary_bufs_sub .., binary_bufs_sub ..,
    unary_bufs_sub .., binary_bufs_sub .., binary_bufs_sub .., unary_bufs_sub .., binary_bufs_sub .., ternary_bufs_sub ..,
    nullary_bufs_sub .., unary_bufs_sub .., binary_bufs_sub .., unary_bufs_sub .., unary_bufs_sub .., unary_bufs_sub ..,
    binary_bufs_sub .., unary_bufs_sub .., binary_bufs_sub .., nullary_bufs_sub .., unary_bufs_sub .., binary_bufs_sub ..,
    binary_bufs_sub .., nullary_bufs_sub .., unary_bufs_sub .., binary_bufs_sub .., ternary_bufs_sub .., nullary_bufs_sub ..,
    unary_bufs_sub .., nullary_bufs_sub .., binary_bufs_sub .., nullary_bufs_sub .., ternary_bufs_sub .., unary_bufs_sub ..,
    binary_bufs_sub .., nullary_bufs_sub .., unary_bufs_sub .., binary_bufs_sub .., nullary_bufs_sub .., unary_bufs_sub ..,
    binary_bufs_sub .., nullary_bufs_sub .., binary_bufs_sub .., unary_bufs_sub .., binary_bufs_sub .., binary_bufs_sub ..,
    unary_bufs_sub .., binary_bufs_sub .., ternary_bufs_sub ..⟩

theorem opsScat_sub : (opsScat : List (HloOp τ sig (Elt F))).Forall fun op => op.bufs ⊆ tcRefs τ sig :=
  ⟨nullary_bufs_sub .., unary_bufs_sub .., nullary_bufs_sub .., unary_bufs_sub .., binary_bufs_sub .., nullary_bufs_sub ..,
    unary_bufs_sub .., binary_bufs_sub .., ternary_bufs_sub .., nullary_bufs_sub .., unary_bufs_sub .., binary_bufs_sub ..,
    nullary_bufs_sub .., unary_bufs_sub .., binary_bufs_sub .., ternary_bufs_sub .., unary_bufs_sub .., unary_bufs_sub ..,
    binary_bufs_sub .., ternary_bufs_sub .., unary_bufs_sub .., nullary_bufs_sub .., unary_bufs_sub .., binary_bufs_sub ..,
    nullary_bufs_sub .., unary_bufs_sub .., binary_bufs_sub .., ternary_bufs_sub .., nullary_bufs_sub .., unary_bufs_sub ..,
    binary_bufs_sub .., nullary_bufs_sub .., unary_bufs_sub .., binary_bufs_sub .., ternary_bufs_sub .., unary_bufs_sub ..,
    unary_bufs_sub .., binary_bufs_sub .., ternary_bufs_sub .., reshape_bufs_sub ..⟩

/-- Every operation of the line touches TensorCore buffers only. -/
theorem ops_sub : (ops : List (HloOp τ sig (Elt F))).Forall fun op => op.bufs ⊆ tcRefs τ sig :=
  List.forall_append.mpr ⟨List.forall_append.mpr ⟨List.forall_append.mpr ⟨List.forall_append.mpr ⟨List.forall_append.mpr ⟨List.forall_append.mpr ⟨List.forall_append.mpr ⟨opsL0_sub, opsL1_sub⟩, opsL2_sub⟩, opsL3_sub⟩, opsL4_sub⟩, opsOut_sub⟩, opsIdx_sub⟩, opsScat_sub⟩

theorem opsL0_fresh : (opsL0 : List (HloOp τ sig (Elt F))).Forall fun op => op.fresh = ∅ :=
  ⟨rfl, rfl, rfl, rfl, rfl, rfl, rfl, rfl, rfl, rfl, rfl, rfl, rfl, rfl, rfl, rfl, rfl, rfl, rfl, rfl⟩

theorem opsL1_fresh : (opsL1 : List (HloOp τ sig (Elt F))).Forall fun op => op.fresh = ∅ :=
  ⟨rfl, rfl, rfl, rfl, rfl, rfl, rfl, rfl, rfl, rfl, rfl, rfl, rfl, rfl, rfl, rfl, rfl, rfl, rfl⟩

theorem opsL2_fresh : (opsL2 : List (HloOp τ sig (Elt F))).Forall fun op => op.fresh = ∅ :=
  ⟨rfl, rfl, rfl, rfl, rfl, rfl, rfl, rfl, rfl, rfl, rfl, rfl, rfl, rfl, rfl, rfl, rfl, rfl, rfl⟩

theorem opsL3_fresh : (opsL3 : List (HloOp τ sig (Elt F))).Forall fun op => op.fresh = ∅ :=
  ⟨rfl, rfl, rfl, rfl, rfl, rfl, rfl, rfl, rfl, rfl, rfl, rfl, rfl, rfl, rfl, rfl, rfl, rfl, rfl⟩

theorem opsL4_fresh : (opsL4 : List (HloOp τ sig (Elt F))).Forall fun op => op.fresh = ∅ :=
  ⟨rfl, rfl, rfl, rfl, rfl, rfl, rfl, rfl, rfl, rfl, rfl, rfl, rfl, rfl, rfl, rfl, rfl, rfl, rfl⟩

theorem opsOut_fresh : (opsOut : List (HloOp τ sig (Elt F))).Forall fun op => op.fresh = ∅ :=
  ⟨rfl, rfl, rfl, rfl, rfl⟩

theorem opsIdx_fresh : (opsIdx : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl⟩

theorem opsScat_fresh : (opsScat : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl⟩

/-- Every operation of the line determines its results. -/
theorem ops_fresh : ∀ op ∈ (ops : List (HloOp τ sig (Elt F))), op.fresh = ∅ :=
  List.forall_iff_forall_mem.mp (List.forall_append.mpr ⟨List.forall_append.mpr ⟨List.forall_append.mpr ⟨List.forall_append.mpr ⟨List.forall_append.mpr ⟨List.forall_append.mpr ⟨List.forall_append.mpr ⟨opsL0_fresh, opsL1_fresh⟩, opsL2_fresh⟩, opsL3_fresh⟩, opsL4_fresh⟩, opsOut_fresh⟩, opsIdx_fresh⟩, opsScat_fresh⟩)

theorem scopedRefs_eq : (Finset.univ.filter fun b : Ref sig .tc => b.isScoped) = ∅ := by decide
theorem scopedSems_eq : (Finset.univ.filter fun sm : SemLoc sig => sm.isScoped .tc) = ∅ := by decide

/-- On every device, for any float values, from any memory with zero counters: every weakly fair execution of @main on the
    TensorCores terminates, and every final state has each TensorCore buffer at the operations' fold over the launch
    contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

/-! ## What the line leaves alone

Each stage's written buffers as a literal list of references (its operations' results); a reference outside the list keeps
its contents through the stage, and one outside all eight through the whole line. -/

/-- The buffers `opsL0` writes, in order: each operation's result. -/
abbrev wL0 : List (Ref sig .tc) :=
  [main_v0, main_v1, main_v2, main_v3, main_v4, main_v5, main_call0.cst.ref, main_call0.v0.ref,
   main_call0.v1.ref, main_call0.v2.ref, main_call0.v3.ref, main_call0.v4.ref, main_call0.v5.ref, main_call0.v6.ref, main_call0.v7.ref, main_call0.v8.ref,
   main_call0.v9.ref, main_call0.v10.ref, main_call0.v11.ref, main_call0.v12.ref]

/-- The buffers `opsL1` writes, in order: each operation's result. -/
abbrev wL1 : List (Ref sig .tc) :=
  [main_v7, main_v8, main_v9, main_v10, main_v11, main_call1.cst.ref, main_call1.v0.ref, main_call1.v1.ref,
   main_call1.v2.ref, main_call1.v3.ref, main_call1.v4.ref, main_call1.v5.ref, main_call1.v6.ref, main_call1.v7.ref, main_call1.v8.ref, main_call1.v9.ref,
   main_call1.v10.ref, main_call1.v11.ref, main_call1.v12.ref]

/-- The buffers `opsL2` writes, in order: each operation's result. -/
abbrev wL2 : List (Ref sig .tc) :=
  [main_v13, main_v14, main_v15, main_v16, main_v17, main_call2.cst.ref, main_call2.v0.ref, main_call2.v1.ref,
   main_call2.v2.ref, main_call2.v3.ref, main_call2.v4.ref, main_call2.v5.ref, main_call2.v6.ref, main_call2.v7.ref, main_call2.v8.ref, main_call2.v9.ref,
   main_call2.v10.ref, main_call2.v11.ref, main_call2.v12.ref]

/-- The buffers `opsL3` writes, in order: each operation's result. -/
abbrev wL3 : List (Ref sig .tc) :=
  [main_v19, main_v20, main_v21, main_v22, main_v23, main_call3.cst.ref, main_call3.v0.ref, main_call3.v1.ref,
   main_call3.v2.ref, main_call3.v3.ref, main_call3.v4.ref, main_call3.v5.ref, main_call3.v6.ref, main_call3.v7.ref, main_call3.v8.ref, main_call3.v9.ref,
   main_call3.v10.ref, main_call3.v11.ref, main_call3.v12.ref]

/-- The buffers `opsL4` writes, in order: each operation's result. -/
abbrev wL4 : List (Ref sig .tc) :=
  [main_v25, main_v26, main_v27, main_v28, main_v29, main_call4.cst.ref, main_call4.v0.ref, main_call4.v1.ref,
   main_call4.v2.ref, main_call4.v3.ref, main_call4.v4.ref, main_call4.v5.ref, main_call4.v6.ref, main_call4.v7.ref, main_call4.v8.ref, main_call4.v9.ref,
   main_call4.v10.ref, main_call4.v11.ref, main_call4.v12.ref]

/-- The buffers `opsOut` writes, in order: each operation's result. -/
abbrev wOut : List (Ref sig .tc) :=
  [main_v31, main_v32, main_v33, main_v34, main_v35]

/-- The buffers `opsIdx` writes, in order: each operation's result. -/
abbrev wIdx : List (Ref sig .tc) :=
  [main_cst, main_v36, main_call5.v0.ref, main_call5.c.ref, main_call5.v1.ref, main_call5.v2.ref, main_call5.v3.ref, main_call5.v4.ref,
   main_call5.cst.ref, main_call5.v5.ref, main_call5.v6.ref, main_cst_0, main_v38, main_v39, main_call6.v0.ref, main_call6.v1.ref,
   main_call6.call0.c.ref, main_call6.call0.v0.ref, main_call6.call0.v1.ref, main_c, main_v41, main_c_1, main_call7.v0.ref, main_call7.v1.ref,
   main_call7.v2.ref, main_c_2, main_v43, main_v44, main_c_3, main_v45, main_v46, main_v47,
   main_v48, main_c_4, main_v49, main_v50, main_call8.call0.c.ref, main_call8.call0.v0.ref, main_call8.call0.v1.ref, main_c_5,
   main_call9.v0.ref, main_call9.v1.ref, main_call9.v2.ref, main_call9.v3.ref, main_call9.v4.ref, main_call9.v5.ref, main_call9.v6.ref, main_call9.v7.ref,
   main_call9.c.ref, main_call9.v8.ref, main_call9.v9.ref, main_call9.v10.ref, main_call9.c_0.ref, main_call9.v11.ref, main_call9.v12.ref, main_call9.call0.v0.ref,
   main_c_6, main_call10.v0.ref, main_call10.c.ref, main_call10.v1.ref, main_call10.c_0.ref, main_call10.call0.v0.ref, main_call10.v3.ref, main_call10.v4.ref,
   main_call10.c_1.ref, main_call10.v5.ref, main_call10.v6.ref, main_call10.c_2.ref, main_call10.v7.ref, main_call10.v8.ref, main_call10.c_3.ref, main_call10.v9.ref,
   main_call10.v10.ref, main_call10.v11.ref, main_call10.v12.ref, main_call10.v13.ref, main_call10.v14.ref, main_call10.v15.ref, main_c_7, main_call11.v0.ref,
   main_call11.v1.ref, main_call11.v2.ref, main_call11.v3.ref, main_call11.v4.ref, main_call11.v5.ref, main_call11.v6.ref, main_call11.v7.ref, main_call11.c.ref,
   main_call11.v8.ref, main_call11.v9.ref, main_call11.v10.ref, main_call11.c_0.ref, main_call11.v11.ref, main_call11.v12.ref, main_call11.call0.v0.ref, main_c_8,
   main_call12.v0.ref, main_call12.c.ref, main_call12.v1.ref, main_call12.c_0.ref, main_call12.call0.v0.ref, main_call12.v3.ref, main_call12.v4.ref, main_call12.c_1.ref,
   main_call12.v5.ref, main_call12.v6.ref, main_call12.c_2.ref, main_call12.v7.ref, main_call12.v8.ref, main_call12.c_3.ref, main_call12.v9.ref, main_call12.v10.ref,
   main_call12.v11.ref, main_call12.v12.ref, main_call12.v13.ref, main_call12.v14.ref, main_call12.v15.ref]

/-- The buffers `opsScat` writes, in order: each operation's result. -/
abbrev wScat : List (Ref sig .tc) :=
  [main_cst_9, main_v56, main_c_10, main_v57, main_v58, main_c_11, main_v59, main_v60,
   main_v61, main_c_12, main_v62, main_v63, main_c_13, main_v64, main_v65, main_v66,
   main_v67, main_v68, main_v69, main_v70, main_v71, main_c_14, main_v72, main_v73,
   main_c_15, main_v74, main_v75, main_v76, main_c_16, main_v77, main_v78, main_c_17,
   main_v79, main_v80, main_v81, main_v82, main_v83, main_v84, main_v85, main_v86]

theorem opsL0_writes : (opsL0 : List (HloOp τ sig (Elt F))).Forall fun op => op.writes ⊆ ((wL0.map (Proc.devRef (τ := τ) .tc)).toFinset) := by
  simp only [opsL0, List.Forall, nullary_writes, unary_writes, binary_writes, ternary_writes, reshape_writes,
    Finset.singleton_subset_iff, List.mem_toFinset]
  repeat' apply And.intro
  all_goals exact List.mem_map_of_mem (by decide)

/-- A buffer `opsL0` does not write keeps its contents through it. -/
theorem opsL0_keeps {r : Ref sig .tc} (hr : r ∉ wL0) (V : Valuation τ sig (Elt F)) :
    after opsL0 V (r : DevRef τ sig) = V (r : DevRef τ sig) :=
  after_of_writes_sub opsL0 V opsL0_writes hr

theorem opsL1_writes : (opsL1 : List (HloOp τ sig (Elt F))).Forall fun op => op.writes ⊆ ((wL1.map (Proc.devRef (τ := τ) .tc)).toFinset) := by
  simp only [opsL1, List.Forall, nullary_writes, unary_writes, binary_writes, ternary_writes, reshape_writes,
    Finset.singleton_subset_iff, List.mem_toFinset]
  repeat' apply And.intro
  all_goals exact List.mem_map_of_mem (by decide)

/-- A buffer `opsL1` does not write keeps its contents through it. -/
theorem opsL1_keeps {r : Ref sig .tc} (hr : r ∉ wL1) (V : Valuation τ sig (Elt F)) :
    after opsL1 V (r : DevRef τ sig) = V (r : DevRef τ sig) :=
  after_of_writes_sub opsL1 V opsL1_writes hr

theorem opsL2_writes : (opsL2 : List (HloOp τ sig (Elt F))).Forall fun op => op.writes ⊆ ((wL2.map (Proc.devRef (τ := τ) .tc)).toFinset) := by
  simp only [opsL2, List.Forall, nullary_writes, unary_writes, binary_writes, ternary_writes, reshape_writes,
    Finset.singleton_subset_iff, List.mem_toFinset]
  repeat' apply And.intro
  all_goals exact List.mem_map_of_mem (by decide)

/-- A buffer `opsL2` does not write keeps its contents through it. -/
theorem opsL2_keeps {r : Ref sig .tc} (hr : r ∉ wL2) (V : Valuation τ sig (Elt F)) :
    after opsL2 V (r : DevRef τ sig) = V (r : DevRef τ sig) :=
  after_of_writes_sub opsL2 V opsL2_writes hr

theorem opsL3_writes : (opsL3 : List (HloOp τ sig (Elt F))).Forall fun op => op.writes ⊆ ((wL3.map (Proc.devRef (τ := τ) .tc)).toFinset) := by
  simp only [opsL3, List.Forall, nullary_writes, unary_writes, binary_writes, ternary_writes, reshape_writes,
    Finset.singleton_subset_iff, List.mem_toFinset]
  repeat' apply And.intro
  all_goals exact List.mem_map_of_mem (by decide)

/-- A buffer `opsL3` does not write keeps its contents through it. -/
theorem opsL3_keeps {r : Ref sig .tc} (hr : r ∉ wL3) (V : Valuation τ sig (Elt F)) :
    after opsL3 V (r : DevRef τ sig) = V (r : DevRef τ sig) :=
  after_of_writes_sub opsL3 V opsL3_writes hr

theorem opsL4_writes : (opsL4 : List (HloOp τ sig (Elt F))).Forall fun op => op.writes ⊆ ((wL4.map (Proc.devRef (τ := τ) .tc)).toFinset) := by
  simp only [opsL4, List.Forall, nullary_writes, unary_writes, binary_writes, ternary_writes, reshape_writes,
    Finset.singleton_subset_iff, List.mem_toFinset]
  repeat' apply And.intro
  all_goals exact List.mem_map_of_mem (by decide)

/-- A buffer `opsL4` does not write keeps its contents through it. -/
theorem opsL4_keeps {r : Ref sig .tc} (hr : r ∉ wL4) (V : Valuation τ sig (Elt F)) :
    after opsL4 V (r : DevRef τ sig) = V (r : DevRef τ sig) :=
  after_of_writes_sub opsL4 V opsL4_writes hr

theorem opsOut_writes : (opsOut : List (HloOp τ sig (Elt F))).Forall fun op => op.writes ⊆ ((wOut.map (Proc.devRef (τ := τ) .tc)).toFinset) := by
  simp only [opsOut, List.Forall, nullary_writes, unary_writes, binary_writes, ternary_writes, reshape_writes,
    Finset.singleton_subset_iff, List.mem_toFinset]
  repeat' apply And.intro
  all_goals exact List.mem_map_of_mem (by decide)

/-- A buffer `opsOut` does not write keeps its contents through it. -/
theorem opsOut_keeps {r : Ref sig .tc} (hr : r ∉ wOut) (V : Valuation τ sig (Elt F)) :
    after opsOut V (r : DevRef τ sig) = V (r : DevRef τ sig) :=
  after_of_writes_sub opsOut V opsOut_writes hr

theorem opsIdx_writes : (opsIdx : List (HloOp τ sig (Elt F))).Forall fun op => op.writes ⊆ ((wIdx.map (Proc.devRef (τ := τ) .tc)).toFinset) := by
  simp only [opsIdx, List.Forall, nullary_writes, unary_writes, binary_writes, ternary_writes, reshape_writes,
    Finset.singleton_subset_iff, List.mem_toFinset]
  repeat' apply And.intro
  all_goals exact List.mem_map_of_mem (by decide)

/-- A buffer `opsIdx` does not write keeps its contents through it. -/
theorem opsIdx_keeps {r : Ref sig .tc} (hr : r ∉ wIdx) (V : Valuation τ sig (Elt F)) :
    after opsIdx V (r : DevRef τ sig) = V (r : DevRef τ sig) :=
  after_of_writes_sub opsIdx V opsIdx_writes hr

theorem opsScat_writes : (opsScat : List (HloOp τ sig (Elt F))).Forall fun op => op.writes ⊆ ((wScat.map (Proc.devRef (τ := τ) .tc)).toFinset) := by
  simp only [opsScat, List.Forall, nullary_writes, unary_writes, binary_writes, ternary_writes, reshape_writes,
    Finset.singleton_subset_iff, List.mem_toFinset]
  repeat' apply And.intro
  all_goals exact List.mem_map_of_mem (by decide)

/-- A buffer `opsScat` does not write keeps its contents through it. -/
theorem opsScat_keeps {r : Ref sig .tc} (hr : r ∉ wScat) (V : Valuation τ sig (Elt F)) :
    after opsScat V (r : DevRef τ sig) = V (r : DevRef τ sig) :=
  after_of_writes_sub opsScat V opsScat_writes hr

/-- A buffer none of the eight stages writes keeps its contents through the whole line. -/
theorem ops_keeps {r : Ref sig .tc} (hr : r ∉ wL0 ++ wL1 ++ wL2 ++ wL3 ++ wL4 ++ wOut ++ wIdx ++ wScat) (V : Valuation τ sig (Elt F)) :
    after ops V (r : DevRef τ sig) = V (r : DevRef τ sig) := by
  simp only [List.mem_append, not_or] at hr
  obtain ⟨⟨⟨⟨⟨⟨⟨h0, h1⟩, h2⟩, h3⟩, h4⟩, h5⟩, h6⟩, h7⟩ := hr
  simp only [ops, after_append]
  rw [opsScat_keeps h7, opsIdx_keeps h6, opsOut_keeps h5, opsL4_keeps h4, opsL3_keeps h3, opsL2_keeps h2, opsL1_keeps h1, opsL0_keeps h0]

/-- No operation writes the argument `main_arg0`: the line ends with it as launched. -/
theorem kept_arg0 (V : Valuation τ sig (Elt F)) : after ops V (main_arg0 : DevRef τ sig) = V (main_arg0 : DevRef τ sig) :=
  ops_keeps (by decide) V
/-- No operation writes the argument `main_arg1`: the line ends with it as launched. -/
theorem kept_arg1 (V : Valuation τ sig (Elt F)) : after ops V (main_arg1 : DevRef τ sig) = V (main_arg1 : DevRef τ sig) :=
  ops_keeps (by decide) V
/-- No operation writes the argument `main_arg2`: the line ends with it as launched. -/
theorem kept_arg2 (V : Valuation τ sig (Elt F)) : after ops V (main_arg2 : DevRef τ sig) = V (main_arg2 : DevRef τ sig) :=
  ops_keeps (by decide) V
/-- No operation writes the argument `main_arg3`: the line ends with it as launched. -/
theorem kept_arg3 (V : Valuation τ sig (Elt F)) : after ops V (main_arg3 : DevRef τ sig) = V (main_arg3 : DevRef τ sig) :=
  ops_keeps (by decide) V
/-- No operation writes the argument `main_arg4`: the line ends with it as launched. -/
theorem kept_arg4 (V : Valuation τ sig (Elt F)) : after ops V (main_arg4 : DevRef τ sig) = V (main_arg4 : DevRef τ sig) :=
  ops_keeps (by decide) V
/-- No operation writes the argument `main_arg5`: the line ends with it as launched. -/
theorem kept_arg5 (V : Valuation τ sig (Elt F)) : after ops V (main_arg5 : DevRef τ sig) = V (main_arg5 : DevRef τ sig) :=
  ops_keeps (by decide) V
/-- No operation writes the argument `main_arg6`: the line ends with it as launched. -/
theorem kept_arg6 (V : Valuation τ sig (Elt F)) : after ops V (main_arg6 : DevRef τ sig) = V (main_arg6 : DevRef τ sig) :=
  ops_keeps (by decide) V
/-- No operation writes the argument `main_arg7`: the line ends with it as launched. -/
theorem kept_arg7 (V : Valuation τ sig (Elt F)) : after ops V (main_arg7 : DevRef τ sig) = V (main_arg7 : DevRef τ sig) :=
  ops_keeps (by decide) V
/-- No operation writes the argument `main_arg8`: the line ends with it as launched. -/
theorem kept_arg8 (V : Valuation τ sig (Elt F)) : after ops V (main_arg8 : DevRef τ sig) = V (main_arg8 : DevRef τ sig) :=
  ops_keeps (by decide) V
/-- No operation writes the argument `main_arg9`: the line ends with it as launched. -/
theorem kept_arg9 (V : Valuation τ sig (Elt F)) : after ops V (main_arg9 : DevRef τ sig) = V (main_arg9 : DevRef τ sig) :=
  ops_keeps (by decide) V
/-- No operation writes the argument `main_arg10`: the line ends with it as launched. -/
theorem kept_arg10 (V : Valuation τ sig (Elt F)) : after ops V (main_arg10 : DevRef τ sig) = V (main_arg10 : DevRef τ sig) :=
  ops_keeps (by decide) V
/-- No operation writes the argument `main_arg11`: the line ends with it as launched. -/
theorem kept_arg11 (V : Valuation τ sig (Elt F)) : after ops V (main_arg11 : DevRef τ sig) = V (main_arg11 : DevRef τ sig) :=
  ops_keeps (by decide) V
/-- No operation writes the argument `main_arg12`: the line ends with it as launched. -/
theorem kept_arg12 (V : Valuation τ sig (Elt F)) : after ops V (main_arg12 : DevRef τ sig) = V (main_arg12 : DevRef τ sig) :=
  ops_keeps (by decide) V

/-- The index computation does not write the output layer's result. -/
theorem idx_keeps_v35 (V : Valuation τ sig (Elt F)) : after opsIdx V (main_v35 : DevRef τ sig) = V (main_v35 : DevRef τ sig) :=
  opsIdx_keeps (by decide) V

end Cert.ReferenceIdeal.RefRun

end
-- ==== Proof.RefMlp.lean ====
/-
  The reference's multilayer perceptron, read at one position.

  The first 101 host operations compute, from the thirteen arguments, the 1048576×15 array of upper-triangular
  outputs: the input re-read as 1048576 rows of six, each weight transposed, and then layer after layer a general
  dot product plus a bias broadcast over the rows, followed (five times) by softplus in the host's printed form.
  Position (n, k) of that array is output k of the row function applied to row n: the same function the kernel
  applies to the rows of its blocks.
-/
import proofs.«141923_j68289980007047_2_alg».proof.Proof.RefOps
import proofs.«141923_j68289980007047_2_alg».proof.Proof.LibPlainDot
import proofs.«141923_j68289980007047_2_alg».proof.Proof.Spec
import Idealize.ShloMosaic.Lib.Pipeline.Value
import Idealize.ShloMosaic.Lib.StableHlo.Run

set_option maxRecDepth 16384

noncomputable section

open scoped BigOperators

namespace Cert.ReferenceIdeal.RefValue

open Cert.ReferenceIdeal Cert.ReferenceIdeal.Gen Cert.ReferenceIdeal.RefRun
open Idealize.ShloMosaic Idealize.ShloMosaic.TcCoe Idealize.ShloMosaic.StableHlo Idealize.ShloMosaic.ValueIdx Cert.SkewMlp

/-- softplus as the host prints it on a whole array: the never-firing guard, then max v 0 + log1p (exp (−|v − 0|)),
    the zero a scalar constant broadcast to the array's shape. -/
def hSp {s : Shape} (hb : (⟨0, ![]⟩ : Shape).BroadcastsInDim s (![] : Fin 0 → Fin s.rank)) (v : FVec Ideal s .f32) : FVec Ideal s .f32 :=
  select (cmpf .une (subf v (broadcastInDim s ![] hb (constant ⟨0, ![]⟩ .f32 0x00000000#32)))
      (subf v (broadcastInDim s ![] hb (constant ⟨0, ![]⟩ .f32 0x00000000#32))))
    (addf v (broadcastInDim s ![] hb (constant ⟨0, ![]⟩ .f32 0x00000000#32)))
    (addf (maximumf v (broadcastInDim s ![] hb (constant ⟨0, ![]⟩ .f32 0x00000000#32)))
      (Host.log1p (Host.exp (Host.negf (Host.absf (subf v (broadcastInDim s ![] hb (constant ⟨0, ![]⟩ .f32 0x00000000#32))))))))

/-- Position by position it is softplus. -/
theorem hSp_apply {s : Shape} (hb : (⟨0, ![]⟩ : Shape).BroadcastsInDim s (![] : Fin 0 → Fin s.rank)) (v : FVec Ideal s .f32) (i : s.Idx) :
    hSp hb v i = sp (v i) :=
  sp_host (v i) _ Ideal.ofBits_zero_f32

/-- A bias of O numbers broadcast first to one row, then over all 1048576 rows, read at (n, j), is entry j. -/
theorem bias_apply {O : ℕ} (b : (⟨1, ![O]⟩ : Shape).Idx → EReal)
    (h1 : (⟨1, ![O]⟩ : Shape).BroadcastsInDim ⟨2, ![1, O]⟩ (![1] : Fin 1 → Fin 2))
    (h2 : (⟨2, ![1, O]⟩ : Shape).BroadcastsInDim ⟨2, ![1048576, O]⟩ (![0, 1] : Fin 2 → Fin 2))
    (n : Fin 1048576) (j : Fin O) :
    broadcastInDim ⟨2, ![1048576, O]⟩ ![0, 1] h2 (broadcastInDim ⟨2, ![1, O]⟩ ![1] h1 b) (ix2 n j) = b (ix1 j) := by
  rw [broadcastInDim_apply ![0, 1] h2 _ (ix2 n j) (ix2 (0 : Fin 1) j) (fun a => by
        match a with
        | ⟨0, _⟩ => rfl
        | ⟨1, _⟩ =>
          show j.val = if O = 1 then 0 else j.val
          split
          · have := j.isLt; omega
          · rfl),
    broadcastInDim_apply ![1] h1 b (ix2 (0 : Fin 1) j) (ix1 j) (fun a => by
        match a with
        | ⟨0, _⟩ =>
          show j.val = if O = 1 then 0 else j.val
          split
          · have := j.isLt; omega
          · rfl)]

/-- A general dot product plus a broadcast bias, as the host prints one affine layer. -/
def hPre {K O : ℕ} (d : DotDims ⟨2, ![1048576, K]⟩ ⟨2, ![K, O]⟩ ⟨2, ![1048576, O]⟩)
    (A : FVec Ideal ⟨2, ![1048576, K]⟩ .f32) (Wt : FVec Ideal ⟨2, ![K, O]⟩ .f32) (b : FVec Ideal ⟨1, ![O]⟩ .f32)
    (h1 : (⟨1, ![O]⟩ : Shape).BroadcastsInDim ⟨2, ![1, O]⟩ (![1] : Fin 1 → Fin 2))
    (h2 : (⟨2, ![1, O]⟩ : Shape).BroadcastsInDim ⟨2, ![1048576, O]⟩ (![0, 1] : Fin 2 → Fin 2)) :
    FVec Ideal ⟨2, ![1048576, O]⟩ .f32 :=
  addf (Host.dotGeneral d none A Wt) (broadcastInDim ⟨2, ![1048576, O]⟩ ![0, 1] h2 (broadcastInDim ⟨2, ![1, O]⟩ ![1] h1 b))

/-- At (n, j) it is the affine layer of row n. -/
theorem hPre_apply {K O : ℕ} (d : DotDims ⟨2, ![1048576, K]⟩ ⟨2, ![K, O]⟩ ⟨2, ![1048576, O]⟩) (hd : d = DotDims.plain 1048576 K O)
    (A : FVec Ideal ⟨2, ![1048576, K]⟩ .f32) (Wt : FVec Ideal ⟨2, ![K, O]⟩ .f32) (b : FVec Ideal ⟨1, ![O]⟩ .f32)
    (h1 : (⟨1, ![O]⟩ : Shape).BroadcastsInDim ⟨2, ![1, O]⟩ (![1] : Fin 1 → Fin 2))
    (h2 : (⟨2, ![1, O]⟩ : Shape).BroadcastsInDim ⟨2, ![1048576, O]⟩ (![0, 1] : Fin 2 → Fin 2))
    (n : Fin 1048576) (j : Fin O) :
    hPre d A Wt b h1 h2 (ix2 n j) = affine Wt b (fun k => A (ix2 n k)) j := by
  unfold hPre affine
  rw [addf_apply, bias_apply]
  simp only [Host.dotGeneral]
  rw [Cert.PlainDot.dotGeneral_apply d hd]

/-- The 1048576×15 array the first 101 operations leave in the output layer's buffer, as a term of the arguments. -/
def hostUt (a0 : FVec Ideal S256x4096x6 .f32) (a1 : FVec Ideal S8x6 .f32) (a2 : FVec Ideal S8 .f32) (a3 : FVec Ideal S8x8 .f32)
    (a4 : FVec Ideal S8 .f32) (a5 : FVec Ideal S8x8 .f32) (a6 : FVec Ideal S8 .f32) (a7 : FVec Ideal S8x8 .f32) (a8 : FVec Ideal S8 .f32)
    (a9 : FVec Ideal S8x8 .f32) (a10 : FVec Ideal S8 .f32) (a11 : FVec Ideal S15x8 .f32) (a12 : FVec Ideal S15 .f32) :
    FVec Ideal S1048576x15 .f32 :=
  hPre dot_S1048576x8_S8x15_S1048576x15_1_0_0_1_n_n
    (hSp bcast_S_S1048576x8 (hPre dot_S1048576x8_S8x8_S1048576x8_1_0_0_1_n_n
      (hSp bcast_S_S1048576x8 (hPre dot_S1048576x8_S8x8_S1048576x8_1_0_0_1_n_n
        (hSp bcast_S_S1048576x8 (hPre dot_S1048576x8_S8x8_S1048576x8_1_0_0_1_n_n
          (hSp bcast_S_S1048576x8 (hPre dot_S1048576x8_S8x8_S1048576x8_1_0_0_1_n_n
            (hSp bcast_S_S1048576x8 (hPre dot_S1048576x6_S6x8_S1048576x8_1_0_0_1_n_n
              (shapeCast S1048576x6 a0 shapeCasts_S256x4096x6_S1048576x6) (transpose S6x8 [1, 0] a1 transposes_S8x6_S6x8_1_0) a2
              bcast_S8_S1x8_1 bcast_S1x8_S1048576x8_0_1))
            (transpose S8x8 [1, 0] a3 transposes_S8x8_S8x8_1_0) a4 bcast_S8_S1x8_1 bcast_S1x8_S1048576x8_0_1))
          (transpose S8x8 [1, 0] a5 transposes_S8x8_S8x8_1_0) a6 bcast_S8_S1x8_1 bcast_S1x8_S1048576x8_0_1))
        (transpose S8x8 [1, 0] a7 transposes_S8x8_S8x8_1_0) a8 bcast_S8_S1x8_1 bcast_S1x8_S1048576x8_0_1))
      (transpose S8x8 [1, 0] a9 transposes_S8x8_S8x8_1_0) a10 bcast_S8_S1x8_1 bcast_S1x8_S1048576x8_0_1))
    (transpose S8x15 [1, 0] a11 transposes_S15x8_S8x15_1_0) a12 bcast_S15_S1x15_1 bcast_S1x15_S1048576x15_0_1

/-- POSITION (n, k) of it: output k of the row function on row n of the re-read input, the weights transposed. -/
theorem hostUt_apply (a0 : FVec Ideal S256x4096x6 .f32) (a1 : FVec Ideal S8x6 .f32) (a2 : FVec Ideal S8 .f32) (a3 : FVec Ideal S8x8 .f32)
    (a4 : FVec Ideal S8 .f32) (a5 : FVec Ideal S8x8 .f32) (a6 : FVec Ideal S8 .f32) (a7 : FVec Ideal S8x8 .f32) (a8 : FVec Ideal S8 .f32)
    (a9 : FVec Ideal S8x8 .f32) (a10 : FVec Ideal S8 .f32) (a11 : FVec Ideal S15x8 .f32) (a12 : FVec Ideal S15 .f32)
    (n : Fin 1048576) (k : Fin 15) :
    hostUt a0 a1 a2 a3 a4 a5 a6 a7 a8 a9 a10 a11 a12 (ix2 n k)
      = ut (transpose S6x8 [1, 0] a1 transposes_S8x6_S6x8_1_0) a2 (transpose S8x8 [1, 0] a3 transposes_S8x8_S8x8_1_0) a4
          (transpose S8x8 [1, 0] a5 transposes_S8x8_S8x8_1_0) a6 (transpose S8x8 [1, 0] a7 transposes_S8x8_S8x8_1_0) a8
          (transpose S8x8 [1, 0] a9 transposes_S8x8_S8x8_1_0) a10 (transpose S8x15 [1, 0] a11 transposes_S15x8_S8x15_1_0) a12
          (fun a => shapeCast S1048576x6 a0 shapeCasts_S256x4096x6_S1048576x6 (ix2 n a)) k := by
  unfold hostUt
  simp only [hPre_apply dot_S1048576x8_S8x15_S1048576x15_1_0_0_1_n_n rfl, hPre_apply dot_S1048576x8_S8x8_S1048576x8_1_0_0_1_n_n rfl,
    hPre_apply dot_S1048576x6_S6x8_S1048576x8_1_0_0_1_n_n rfl, hSp_apply]
  rfl

/-! ## The run read one layer at a time

Each list of operations computes one layer: from the previous layer's buffer, one weight and one bias it leaves the
layer's result in its last buffer. (Reading all 101 operations as one term would repeat each layer's input wherever
softplus mentions it.) -/

theorem stage_L0 (V : Valuation τ sig (Elt Ideal)) :
    after opsL0 V (main_v6 : DevRef τ sig)
      = hSp bcast_S_S1048576x8 (hPre dot_S1048576x6_S6x8_S1048576x8_1_0_0_1_n_n (shapeCast S1048576x6 (V (main_arg0 : DevRef τ sig)) shapeCasts_S256x4096x6_S1048576x6)
          (transpose S6x8 [1, 0] (V (main_arg1 : DevRef τ sig)) transposes_S8x6_S6x8_1_0) (V (main_arg2 : DevRef τ sig)) bcast_S8_S1x8_1 bcast_S1x8_S1048576x8_0_1) := by
  after_results_simp
  rfl

theorem stage_L1 (V : Valuation τ sig (Elt Ideal)) :
    after opsL1 V (main_v12 : DevRef τ sig)
      = hSp bcast_S_S1048576x8 (hPre dot_S1048576x8_S8x8_S1048576x8_1_0_0_1_n_n (V (main_v6 : DevRef τ sig))
          (transpose S8x8 [1, 0] (V (main_arg3 : DevRef τ sig)) transposes_S8x8_S8x8_1_0) (V (main_arg4 : DevRef τ sig)) bcast_S8_S1x8_1 bcast_S1x8_S1048576x8_0_1) := by
  after_results_simp
  rfl

theorem stage_L2 (V : Valuation τ sig (Elt Ideal)) :
    after opsL2 V (main_v18 : DevRef τ sig)
      = hSp bcast_S_S1048576x8 (hPre dot_S1048576x8_S8x8_S1048576x8_1_0_0_1_n_n (V (main_v12 : DevRef τ sig))
          (transpose S8x8 [1, 0] (V (main_arg5 : DevRef τ sig)) transposes_S8x8_S8x8_1_0) (V (main_arg6 : DevRef τ sig)) bcast_S8_S1x8_1 bcast_S1x8_S1048576x8_0_1) := by
  after_results_simp
  rfl

theorem stage_L3 (V : Valuation τ sig (Elt Ideal)) :
    after opsL3 V (main_v24 : DevRef τ sig)
      = hSp bcast_S_S1048576x8 (hPre dot_S1048576x8_S8x8_S1048576x8_1_0_0_1_n_n (V (main_v18 : DevRef τ sig))
          (transpose S8x8 [1, 0] (V (main_arg7 : DevRef τ sig)) transposes_S8x8_S8x8_1_0) (V (main_arg8 : DevRef τ sig)) bcast_S8_S1x8_1 bcast_S1x8_S1048576x8_0_1) := by
  after_results_simp
  rfl

theorem stage_L4 (V : Valuation τ sig (Elt Ideal)) :
    after opsL4 V (main_v30 : DevRef τ sig)
      = hSp bcast_S_S1048576x8 (hPre dot_S1048576x8_S8x8_S1048576x8_1_0_0_1_n_n (V (main_v24 : DevRef τ sig))
          (transpose S8x8 [1, 0] (V (main_arg9 : DevRef τ sig)) transposes_S8x8_S8x8_1_0) (V (main_arg10 : DevRef τ sig)) bcast_S8_S1x8_1 bcast_S1x8_S1048576x8_0_1) := by
  after_results_simp
  rfl

theorem stage_Out (V : Valuation τ sig (Elt Ideal)) :
    after opsOut V (main_v35 : DevRef τ sig)
      = hPre dot_S1048576x8_S8x15_S1048576x15_1_0_0_1_n_n (V (main_v30 : DevRef τ sig))
          (transpose S8x15 [1, 0] (V (main_arg11 : DevRef τ sig)) transposes_S15x8_S8x15_1_0) (V (main_arg12 : DevRef τ sig)) bcast_S15_S1x15_1 bcast_S1x15_S1048576x15_0_1 := by
  after_results_simp
  rfl

end Cert.ReferenceIdeal.RefValue

end
-- ==== Proof.RefChain.lean ====
/-
  The reference's multilayer perceptron read through its first six stages at once.

  The six lists of operations are folded one after the other; each stage's last buffer is the next stage's input, and
  each weight and bias is an argument no stage writes, so its contents at any point of the line are the launch
  contents. The output layer's buffer after the six stages — and still after the index computation, which does not
  write it — is the whole term of the thirteen arguments.
-/
import proofs.«141923_j68289980007047_2_alg».proof.Proof.RefRun
import proofs.«141923_j68289980007047_2_alg».proof.Proof.RefMlp

set_option maxRecDepth 16384

noncomputable section

namespace Cert.ReferenceIdeal.RefValue

open Cert.ReferenceIdeal Cert.ReferenceIdeal.Gen Cert.ReferenceIdeal.RefRun
open Idealize.ShloMosaic Idealize.ShloMosaic.TcCoe Idealize.ShloMosaic.StableHlo Idealize.ShloMosaic.ValueIdx

/-- After the five layers and the output layer, the output layer's buffer holds the perceptron's term of the thirteen
    arguments: the stages read outermost first, each weight and bias read through the earlier stages, which leave it alone. -/
theorem mlp_read (V : Valuation τ sig (Elt Ideal)) :
    after (opsL0 ++ opsL1 ++ opsL2 ++ opsL3 ++ opsL4 ++ opsOut) V (main_v35 : DevRef τ sig)
      = hostUt (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) := by
  simp only [RefRun.after_append, hostUt]
  rw [stage_Out, stage_L4, stage_L3, stage_L2, stage_L1, stage_L0,
    opsL0_keeps (r := main_arg3) (by decide), opsL0_keeps (r := main_arg4) (by decide), opsL1_keeps (r := main_arg5) (by decide),
    opsL0_keeps (r := main_arg5) (by decide), opsL1_keeps (r := main_arg6) (by decide), opsL0_keeps (r := main_arg6) (by decide),
    opsL2_keeps (r := main_arg7) (by decide), opsL1_keeps (r := main_arg7) (by decide), opsL0_keeps (r := main_arg7) (by decide),
    opsL2_keeps (r := main_arg8) (by decide), opsL1_keeps (r := main_arg8) (by decide), opsL0_keeps (r := main_arg8) (by decide),
    opsL3_keeps (r := main_arg9) (by decide), opsL2_keeps (r := main_arg9) (by decide), opsL1_keeps (r := main_arg9) (by decide),
    opsL0_keeps (r := main_arg9) (by decide), opsL3_keeps (r := main_arg10) (by decide), opsL2_keeps (r := main_arg10) (by decide),
    opsL1_keeps (r := main_arg10) (by decide), opsL0_keeps (r := main_arg10) (by decide), opsL4_keeps (r := main_arg11) (by decide),
    opsL3_keeps (r := main_arg11) (by decide), opsL2_keeps (r := main_arg11) (by decide), opsL1_keeps (r := main_arg11) (by decide),
    opsL0_keeps (r := main_arg11) (by decide), opsL4_keeps (r := main_arg12) (by decide), opsL3_keeps (r := main_arg12) (by decide),
    opsL2_keeps (r := main_arg12) (by decide), opsL1_keeps (r := main_arg12) (by decide), opsL0_keeps (r := main_arg12) (by decide)]

/-- The same after the index computation as well, which does not write the output layer's buffer. -/
theorem ref_mlp (V : Valuation τ sig (Elt Ideal)) :
    after opsIdx (after (opsL0 ++ opsL1 ++ opsL2 ++ opsL3 ++ opsL4 ++ opsOut) V) (main_v35 : DevRef τ sig)
      = hostUt (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) := by
  rw [idx_keeps_v35, mlp_read]

end Cert.ReferenceIdeal.RefValue

end
-- ==== Proof.RefIndex.lean ====
/-
  The reference's two run-time index tables, evaluated.

  The reference computes the positions of the strict upper triangle of a 6×6 array at run time: a 6×6 array of ones,
  its strict upper triangle kept (zero on and below the diagonal), compared unequal to zero (a mask), the mask's
  running count over the 36 flat positions, one added at position "count" for every flat position (positions with
  count 15 fall outside the fifteen counters and are dropped), the running sum of the counters — the flat positions
  6·row + column of the fifteen ones —, and their quotient and remainder by 6: rows 0,0,0,0,0,1,1,1,1,2,2,2,3,3,4 and
  columns 1,2,3,4,5,2,3,4,5,3,4,5,4,5,5. No argument of the program enters: every stage is a literal table, read off
  the line's fold stage by stage, each stage from the one before by evaluating the integer operations on the literal.
  Only the first stage meets floats (the ones, the zeros and the comparison), at the extended reals: 1 ≠ 0.

  Then the two [15, 2] tables the float scatters take: each column wrapped (a negative entry plus 6; none is
  negative) and the two columns set side by side; read signed, row k of the table of (rows, columns) is
  (row k, column k).
-/
import proofs.«141923_j68289980007047_2_alg».proof.Proof.RefOps
import proofs.«141923_j68289980007047_2_alg».proof.Proof.Skew
import Idealize.ShloMosaic.Lib.StableHlo.Run
import Idealize.ShloMosaic.Lib.ValueIdx
import Idealize.ShloMosaic.Lib.Pipeline.Value

noncomputable section

namespace Cert.ReferenceIdeal.RefIndex

open Cert.ReferenceIdeal Cert.ReferenceIdeal.Gen Cert.ReferenceIdeal.RefRun Idealize.ShloMosaic Idealize.ShloMosaic.TcCoe Idealize.SL.Sem
open Idealize.ShloMosaic.StableHlo Idealize.ShloMosaic.ValueIdx

/-! ## The tables -/

/-- The strict upper triangle of a 6×6 array as a mask: 1 where row < column. -/
def maskTab : S6x6.Idx → BitVec 1 := fun i => if (i 0).val < (i 1).val then 1#1 else 0#1
/-- The running count of the mask's ones in row-major order (36 entries). -/
def cumTab : S36.Idx → BitVec 32 := fun i =>
  (![0, 1, 2, 3, 4, 5,  5, 5, 6, 7, 8, 9,  9, 9, 9, 10, 11, 12,  12, 12, 12, 12, 13, 14,  14, 14, 14, 14, 14, 15,
     15, 15, 15, 15, 15, 15] : Fin 36 → BitVec 32) (i 0)
/-- How many flat positions have running count k, for k below 15. -/
def countTab : S15.Idx → BitVec 32 := fun i =>
  (![1, 1, 1, 1, 1, 3, 1, 1, 1, 4, 1, 1, 5, 1, 6] : Fin 15 → BitVec 32) (i 0)
/-- The flat positions 6·row + column of the fifteen ones, in order. -/
def posTab : S15.Idx → BitVec 32 := fun i =>
  (![1, 2, 3, 4, 5, 8, 9, 10, 11, 15, 16, 17, 22, 23, 29] : Fin 15 → BitVec 32) (i 0)
/-- The rows of the strict upper triangle's fifteen positions, in row-major order. -/
def iuTab : S15.Idx → BitVec 32 := fun i =>
  (![0, 0, 0, 0, 0, 1, 1, 1, 1, 2, 2, 2, 3, 3, 4] : Fin 15 → BitVec 32) (i 0)
/-- Their columns. -/
def juTab : S15.Idx → BitVec 32 := fun i =>
  (![1, 2, 3, 4, 5, 2, 3, 4, 5, 3, 4, 5, 4, 5, 5] : Fin 15 → BitVec 32) (i 0)

/-- The single-precision pattern of 1.0 denotes the extended real 1. -/
theorem ofBits_one : Ideal.ofBits .f32 1065353216#32 = 1 := by
  simp [Ideal.ofBits, Ideal.ieee, -EReal.coe_mul]; norm_num
/-- The single-precision pattern of +0.0 denotes 0. -/
theorem ofBits_zero : Ideal.ofBits .f32 0#32 = 0 := by simp [Ideal.ofBits, Ideal.ieee]

/-- The signed comparison "row + 0 ≥ column" of two positions below 6, as words. -/
theorem cmpi_sge_entry : ∀ r c : Fin 6, IntOp.cmpi .sge (BitVec.ofNat 32 r.val + 0#32) (BitVec.ofNat 32 c.val)
    = if c.val ≤ r.val then 1#1 else 0#1 := by decide

/-- One entry of the mask: 1.0 above the diagonal and 0.0 elsewhere, compared unequal to 0.0. -/
theorem mask_entry (r c : Fin 6) :
    Ideal.cmp .une (Scalar.select (IntOp.cmpi .sge (BitVec.ofNat 32 r.val + 0#32) (BitVec.ofNat 32 c.val))
        (Ideal.ofBits .f32 0#32) (Ideal.ofBits .f32 1065353216#32)) (Ideal.ofBits .f32 0#32)
      = if r.val < c.val then 1#1 else 0#1 := by
  rw [cmpi_sge_entry, ofBits_one, ofBits_zero]
  by_cases h : c.val ≤ r.val
  · rw [if_pos h, if_neg (by omega)]
    simp [Scalar.select, Ideal.cmp]
  · rw [if_neg h, if_pos (by omega)]
    simp [Scalar.select, Ideal.cmp]

variable (V : Valuation τ sig (Elt Ideal))

set_option maxHeartbeats 4000000 in
/-- The mask: ones kept strictly above the diagonal, compared unequal to zero. -/
theorem idx_v39 : after (opsIdx (F := Ideal)) V (Proc.devRef .tc main_v39) = maskTab := by
  after_results_simp
  funext i
  obtain ⟨r, c, rfl⟩ : ∃ r c, i = ix2 r c := ⟨i 0, i 1, eq_ix2 i⟩
  exact mask_entry r c

set_option maxHeartbeats 4000000 in
/-- The mask flattened to 36 positions, widened to 32-bit words, and summed over the window of the 36 positions up to each one. -/
theorem idx_v40 : after (opsIdx (F := Ideal)) V (Proc.devRef .tc main_v40) = cumTab := by
  have h := idx_v39 V
  revert h
  after_results_simp
  intro h
  rw [h]
  decide +kernel

set_option maxHeartbeats 4000000 in
/-- Clipped below at 0 and wrapped if negative, the running count is unchanged: every entry is between 0 and 15. -/
theorem idx_v47 : after (opsIdx (F := Ideal)) V (Proc.devRef .tc main_v47) = cumTab := by
  have h := idx_v40 V
  revert h
  after_results_simp
  intro h
  rw [h]
  decide +kernel

set_option maxHeartbeats 4000000 in
/-- One added at position (running count) for each of the 36 flat positions, the count 15 falling outside and dropped. -/
theorem idx_v50 : after (opsIdx (F := Ideal)) V (Proc.devRef .tc main_v50) = countTab := by
  have h := idx_v47 V
  revert h
  after_results_simp
  intro h
  rw [h]
  decide +kernel

set_option maxHeartbeats 4000000 in
/-- The running sum of those counts: the flat positions of the fifteen ones. -/
theorem idx_v51 : after (opsIdx (F := Ideal)) V (Proc.devRef .tc main_v51) = posTab := by
  have h := idx_v50 V
  revert h
  after_results_simp
  intro h
  rw [h]
  decide +kernel

set_option maxHeartbeats 4000000 in
/-- Floor division of the flat positions by 6: the rows. -/
theorem idx_v52 : after (opsIdx (F := Ideal)) V (Proc.devRef .tc main_v52) = iuTab := by
  have h := idx_v51 V
  revert h
  after_results_simp
  intro h
  rw [h]
  decide +kernel

set_option maxHeartbeats 4000000 in
/-- The rows modulo 6 are the rows. -/
theorem idx_v53 : after (opsIdx (F := Ideal)) V (Proc.devRef .tc main_v53) = iuTab := by
  have h := idx_v52 V
  revert h
  after_results_simp
  intro h
  rw [h]
  decide +kernel

set_option maxHeartbeats 4000000 in
/-- Floor division of the flat positions by 1 changes nothing. -/
theorem idx_v54 : after (opsIdx (F := Ideal)) V (Proc.devRef .tc main_v54) = posTab := by
  have h := idx_v51 V
  revert h
  after_results_simp
  intro h
  rw [h]
  decide +kernel

set_option maxHeartbeats 4000000 in
/-- The flat positions modulo 6: the columns. -/
theorem idx_v55 : after (opsIdx (F := Ideal)) V (Proc.devRef .tc main_v55) = juTab := by
  have h := idx_v54 V
  revert h
  after_results_simp
  intro h
  rw [h]
  decide +kernel

/-! ## The two [15, 2] tables of the float scatters -/

/-- The negative-index wrap of a column of positions below 6: an entry below zero, read signed, plus 6. -/
def wrap6 (v : IVec S15 32) : IVec S15 32 :=
  select (cmpi .slt v (broadcastInDim S15 ![] bcast_S_S15 (constantI S_ 32 0#32)))
    (addi v (broadcastInDim S15 ![] bcast_S_S15 (constantI S_ 32 6#32))) v

/-- Two wrapped columns side by side: the [15, 2] table whose row k is (first column's entry k, second column's entry k). -/
def pairTable (vA vB : IVec S15 32) : IVec S15x2 32 :=
  concatenate S15x2 1 [⟨S15x1, broadcastInDim S15x1 ![0] bcast_S15_S15x1_0 (wrap6 vA)⟩,
    ⟨S15x1, broadcastInDim S15x1 ![0] bcast_S15_S15x1_0 (wrap6 vB)⟩] concatenates_S15x1_S15x1_S15x2_d1

/-- A position below 6 is not negative as a signed 32-bit word: the wrap leaves it. -/
theorem wrap_entry : ∀ m : Fin 6,
    Scalar.select (IntOp.cmpi .slt (BitVec.ofNat 32 m.val) 0#32) (IntOp.addi (BitVec.ofNat 32 m.val) 6#32) (BitVec.ofNat 32 m.val)
      = BitVec.ofNat 32 m.val := by decide

/-- Read signed, the word of a position below 6 is that position. -/
theorem toInt_entry : ∀ m : Fin 6, (BitVec.ofNat 32 m.val).toInt = (m.val : Int) := by decide

/-- The wrap at entry k of a column of positions below 6. -/
theorem wrap6_apply (v : IVec S15 32) (ia : Fin 15 → Fin 6) (h : ∀ k, v (ix1 k) = BitVec.ofNat 32 (ia k).val) (k : Fin 15) :
    wrap6 v (ix1 k) = BitVec.ofNat 32 (ia k).val := by
  show Scalar.select (IntOp.cmpi .slt (v (ix1 k)) 0#32) (IntOp.addi (v (ix1 k)) 6#32) (v (ix1 k)) = _
  rw [h k]; exact wrap_entry (ia k)

/-- The table's first column is the first wrapped column. -/
theorem pairTable_left (vA vB : IVec S15 32) (k : Fin 15) : pairTable vA vB (ix2 k 0) = wrap6 vA (ix1 k) := by
  unfold pairTable
  rw [concatenate_pair_apply_left (t := S15x2) (s₁ := S15x1) (s₂ := S15x1) 1 _ _ concatenates_S15x1_S15x1_S15x2_d1
    (ix2 k 0) rfl (ix2 k 0)
    (fun b => by
      match b with
      | ⟨0, _⟩ => rfl
      | ⟨1, _⟩ => rfl)]
  exact broadcastInDim_apply _ _ _ _ (ix1 k) (fun a => by
    match a with
    | ⟨0, _⟩ => rfl)

/-- The table's second column is the second wrapped column. -/
theorem pairTable_right (vA vB : IVec S15 32) (k : Fin 15) : pairTable vA vB (ix2 k 1) = wrap6 vB (ix1 k) := by
  unfold pairTable
  rw [concatenate_pair_apply_right (t := S15x2) (s₁ := S15x1) (s₂ := S15x1) 1 _ _ concatenates_S15x1_S15x1_S15x2_d1
    (ix2 k 1) rfl rfl (ix2 k 0)
    (fun b hb => by
      match b with
      | ⟨0, _⟩ => rfl
      | ⟨1, _⟩ => exact absurd rfl hb)
    rfl]
  exact broadcastInDim_apply _ _ _ _ (ix1 k) (fun a => by
    match a with
    | ⟨0, _⟩ => rfl)

/-- ROW k OF THE TABLE, READ SIGNED: for columns holding the positions "ia k", "ib k" below 6 as 32-bit words, row k of the
    table is (ia k, ib k). -/
theorem pairTable_toInt (vA vB : IVec S15 32) (ia ib : Fin 15 → Fin 6)
    (hA : ∀ k, vA (ix1 k) = BitVec.ofNat 32 (ia k).val) (hB : ∀ k, vB (ix1 k) = BitVec.ofNat 32 (ib k).val) (k : Fin 15) :
    (pairTable vA vB (ix2 k 0)).toInt = ((ia k).val : Int) ∧ (pairTable vA vB (ix2 k 1)).toInt = ((ib k).val : Int) := by
  rw [pairTable_left, pairTable_right, wrap6_apply vA ia hA k, wrap6_apply vB ib hB k]
  exact ⟨toInt_entry (ia k), toInt_entry (ib k)⟩

/-- The rows table's entries are the words of the strict upper triangle's rows. -/
theorem iuTab_entry : ∀ k : Fin 15, iuTab (ix1 k) = BitVec.ofNat 32 (Cert.Skew.iu k).val := by decide
/-- The columns table's entries are the words of its columns. -/
theorem juTab_entry : ∀ k : Fin 15, juTab (ix1 k) = BitVec.ofNat 32 (Cert.Skew.ju k).val := by decide

end Cert.ReferenceIdeal.RefIndex

end
-- ==== Proof.RefFinal.lean ====
/-
  The reference program's run, with its result named as a function of the arguments.

  The last forty operations start from a 1048576×6×6 array of zeros, write the perceptron's fifteen outputs of every
  row at the fifteen positions above the diagonal (the table of pairs computed at run time, wrapped for negative
  entries), then write their negations at the mirrored positions, and re-read the array in the shape
  [256, 4096, 6, 6]. With the index computation evaluated (the pairs are the strict upper triangle in row-major
  order) and the perceptron read stage by stage, the result buffer holds one term of the thirteen arguments.
-/
import proofs.«141923_j68289980007047_2_alg».proof.Proof.RefChain
import proofs.«141923_j68289980007047_2_alg».proof.Proof.RefIndex

set_option maxRecDepth 16384

noncomputable section

namespace Cert.ReferenceIdeal.RefValue

open Cert.ReferenceIdeal Cert.ReferenceIdeal.Gen Cert.ReferenceIdeal.RefRun Cert.ReferenceIdeal.RefIndex
open Idealize.ShloMosaic Idealize.ShloMosaic.TcCoe Idealize.ShloMosaic.StableHlo Idealize.ShloMosaic.ValueIdx Idealize.SL.Sem

/-- The array of zeros the scatters start from. -/
def zeros3 : FVec Ideal S1048576x6x6 .f32 :=
  broadcastInDim S1048576x6x6 ![] bcast_S_S1048576x6x6 (constant S_ .f32 0x00000000#32)

theorem zeros3_apply (i : S1048576x6x6.Idx) : zeros3 i = 0 := Ideal.ofBits_zero_f32

/-- The last stage: from the two index columns and the perceptron's outputs to the result. -/
theorem scat_read (W : Valuation τ sig (Elt Ideal)) :
    after opsScat W (main_v86 : DevRef τ sig)
      = shapeCast S256x4096x6x6
          (Host.scatter scatter_S1048576x6x6_S15x2_S1048576x15_0_12_12_1 (fun _ b => b)
            (Host.scatter scatter_S1048576x6x6_S15x2_S1048576x15_0_12_12_1 (fun _ b => b) zeros3
              (pairTable (W (main_v53 : DevRef τ sig)) (W (main_v55 : DevRef τ sig))) (W (main_v35 : DevRef τ sig)))
            (pairTable (W (main_v55 : DevRef τ sig)) (W (main_v53 : DevRef τ sig))) (Host.negf (W (main_v35 : DevRef τ sig))))
          shapeCasts_S1048576x6x6_S256x4096x6x6 := by
  after_results_simp
  rfl

/-- The reference's result as a function of the argument arrays. -/
def R (a0 : FVec Ideal S256x4096x6 .f32) (a1 : FVec Ideal S8x6 .f32) (a2 : FVec Ideal S8 .f32) (a3 : FVec Ideal S8x8 .f32)
    (a4 : FVec Ideal S8 .f32) (a5 : FVec Ideal S8x8 .f32) (a6 : FVec Ideal S8 .f32) (a7 : FVec Ideal S8x8 .f32) (a8 : FVec Ideal S8 .f32)
    (a9 : FVec Ideal S8x8 .f32) (a10 : FVec Ideal S8 .f32) (a11 : FVec Ideal S15x8 .f32) (a12 : FVec Ideal S15 .f32) : FVec Ideal S256x4096x6x6 .f32 :=
  shapeCast S256x4096x6x6
    (Host.scatter scatter_S1048576x6x6_S15x2_S1048576x15_0_12_12_1 (fun _ b => b)
      (Host.scatter scatter_S1048576x6x6_S15x2_S1048576x15_0_12_12_1 (fun _ b => b) zeros3 (pairTable iuTab juTab) (hostUt a0 a1 a2 a3 a4 a5 a6 a7 a8 a9 a10 a11 a12))
      (pairTable juTab iuTab) (Host.negf (hostUt a0 a1 a2 a3 a4 a5 a6 a7 a8 a9 a10 a11 a12)))
    shapeCasts_S1048576x6x6_S256x4096x6x6

/-- After all 258 operations the result buffer holds R of the arguments' contents. -/
theorem ref_result (V : Valuation τ sig (Elt Ideal)) :
    after ops V (main_v86 : DevRef τ sig) = R (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) := by
  show after ((opsL0 ++ opsL1 ++ opsL2 ++ opsL3 ++ opsL4 ++ opsOut) ++ opsIdx ++ opsScat) V (main_v86 : DevRef τ sig) = _
  rw [RefRun.after_append, RefRun.after_append, scat_read, idx_v53, idx_v55, ref_mlp]
  rfl

/-- THE REFERENCE'S RUN: the result buffer ends at R, the thirteen arguments as launched. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v86) = R
        (m ((c.tc : Thread nD τ).loc main_arg0))
        (m ((c.tc : Thread nD τ).loc main_arg1))
        (m ((c.tc : Thread nD τ).loc main_arg2))
        (m ((c.tc : Thread nD τ).loc main_arg3))
        (m ((c.tc : Thread nD τ).loc main_arg4))
        (m ((c.tc : Thread nD τ).loc main_arg5))
        (m ((c.tc : Thread nD τ).loc main_arg6))
        (m ((c.tc : Thread nD τ).loc main_arg7))
        (m ((c.tc : Thread nD τ).loc main_arg8))
        (m ((c.tc : Thread nD τ).loc main_arg9))
        (m ((c.tc : Thread nD τ).loc main_arg10))
        (m ((c.tc : Thread nD τ).loc main_arg11))
        (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨(h c main_v86).trans (ref_result _),
      (h c main_arg0).trans (kept_arg0 _),
      (h c main_arg1).trans (kept_arg1 _),
      (h c main_arg2).trans (kept_arg2 _),
      (h c main_arg3).trans (kept_arg3 _),
      (h c main_arg4).trans (kept_arg4 _),
      (h c main_arg5).trans (kept_arg5 _),
      (h c main_arg6).trans (kept_arg6 _),
      (h c main_arg7).trans (kept_arg7 _),
      (h c main_arg8).trans (kept_arg8 _),
      (h c main_arg9).trans (kept_arg9 _),
      (h c main_arg10).trans (kept_arg10 _),
      (h c main_arg11).trans (kept_arg11 _),
      (h c main_arg12).trans (kept_arg12 _)⟩)
    (RefRun.run_main m ρ)

end Cert.ReferenceIdeal.RefValue

end
-- ==== Proof.LibScatterSet.lean ====
/-
  A "stablehlo.scatter" whose body returns the update — an array "x.at[…].set(v)" — READ AT AN INDEX.

  The host scatter is a left fold over the update indices in row-major order; each step whose result index is inside
  the operand overwrites one element. First the fold itself (an overwrite fold over any list), then the scatter read
  at a result index that no update reaches (the operand's element) or that exactly one update reaches (that update),
  then the same for the scatter that writes K vectors of length N into the (a, b) positions of an [N, A, B] array,
  the positions read as signed 32-bit (or any width) integers off a [K, 2] table.
-/
import Idealize.ShloMosaic.PureOps.ShapeOps
import Idealize.ShloMosaic.Lib.ValueIdx
import Idealize.ShloMosaic.Lib.StableHlo.Run

namespace Idealize.ShloMosaic.ScatterSet

open Idealize.ShloMosaic Idealize.ShloMosaic.ValueIdx

/-! ## The overwrite fold -/

section Fold
variable {ι κ α : Type} [DecidableEq ι]

/-- One step of an overwrite fold: entry "n" of the list overwrites position "tgt n" (when it has one) by "val n". -/
def step (tgt : κ → Option ι) (val : κ → α) (r : ι → α) (n : κ) : ι → α :=
  match tgt n with
  | some i => fun i' => if i' = i then val n else r i'
  | none => r

/-- A step whose target is "i'" leaves "val n" there. -/
theorem step_hit (tgt : κ → Option ι) (val : κ → α) (r : ι → α) (n : κ) (i' : ι) (h : tgt n = some i') :
    step tgt val r n i' = val n := by
  unfold step; rw [h]; exact if_pos rfl

/-- A step whose target is not "i'" leaves position "i'" as it was. -/
theorem step_miss (tgt : κ → Option ι) (val : κ → α) (r : ι → α) (n : κ) (i' : ι) (h : tgt n ≠ some i') :
    step tgt val r n i' = r i' := by
  unfold step
  cases ht : tgt n with
  | none => rfl
  | some i =>
    have hne : i' ≠ i := fun e => h (by rw [ht, e])
    exact if_neg hne

/-- A position that no entry of the list targets keeps its value through the fold. -/
theorem foldl_step_of_forall_ne (tgt : κ → Option ι) (val : κ → α) (l : List κ) (r : ι → α) (i' : ι)
    (h : ∀ n ∈ l, tgt n ≠ some i') : l.foldl (step tgt val) r i' = r i' := by
  induction l generalizing r with
  | nil => rfl
  | cons n l ih =>
    rw [List.foldl_cons, ih _ (fun m hm => h m (List.mem_cons_of_mem _ hm))]
    exact step_miss tgt val r n i' (h n List.mem_cons_self)

/-- A position that one entry "n₀" of the list targets, and no other entry, holds "val n₀" after the fold. -/
theorem foldl_step_of_unique (tgt : κ → Option ι) (val : κ → α) (l : List κ) (r : ι → α) (i' : ι) (n₀ : κ)
    (hmem : n₀ ∈ l) (h₀ : tgt n₀ = some i') (hu : ∀ n ∈ l, tgt n = some i' → n = n₀) :
    l.foldl (step tgt val) r i' = val n₀ := by
  induction l generalizing r with
  | nil => exact absurd hmem List.not_mem_nil
  | cons n l ih =>
    rw [List.foldl_cons]
    by_cases hl : n₀ ∈ l
    · exact ih _ hl (fun m hm => hu m (List.mem_cons_of_mem _ hm))
    · have hn : n = n₀ := by
        rcases List.mem_cons.1 hmem with e | e
        · exact e.symm
        · exact absurd e hl
      subst hn
      rw [foldl_step_of_forall_ne tgt val l _ i' (fun m hm e => hl (hu m (List.mem_cons_of_mem _ hm) e ▸ hm))]
      exact step_hit tgt val r n i' h₀

end Fold

/-! ## The scatter read at a result index -/

section Scatter
variable {s si u : Shape} {α : Type} {w : Nat}

/-- The host scatter whose body returns the update is the overwrite fold over the update indices in row-major order. -/
theorem scatter_set_eq_foldl (d : ScatterDims s si u) (x : s.Idx → α) (idx : IVec si w) (upd : u.Idx → α) :
    Host.scatter d (fun _ b => b) x idx upd
      = (List.finRange u.numel).foldl
          (step (fun n => d.resultIdx? (u.rowMajor.symm n) idx) (fun n => upd (u.rowMajor.symm n))) x := by
  unfold Host.scatter
  congr 1
  funext r n
  unfold step
  dsimp only
  cases d.resultIdx? (u.rowMajor.symm n) idx <;> rfl

/-- A result index that NO update index lands at reads the operand. -/
theorem scatter_set_apply_of_forall_ne (d : ScatterDims s si u) (x : s.Idx → α) (idx : IVec si w) (upd : u.Idx → α)
    (i' : s.Idx) (h : ∀ j, d.resultIdx? j idx ≠ some i') :
    Host.scatter d (fun _ b => b) x idx upd i' = x i' := by
  rw [scatter_set_eq_foldl]
  exact foldl_step_of_forall_ne _ _ _ _ _ (fun n _ => h _)

/-- A result index that update index "j₀" lands at, and no other, reads the update at "j₀". -/
theorem scatter_set_apply_of_unique (d : ScatterDims s si u) (x : s.Idx → α) (idx : IVec si w) (upd : u.Idx → α)
    (i' : s.Idx) (j₀ : u.Idx) (h₀ : d.resultIdx? j₀ idx = some i') (hu : ∀ j, d.resultIdx? j idx = some i' → j = j₀) :
    Host.scatter d (fun _ b => b) x idx upd i' = upd j₀ := by
  rw [scatter_set_eq_foldl]
  have := foldl_step_of_unique (fun n => d.resultIdx? (u.rowMajor.symm n) idx) (fun n => upd (u.rowMajor.symm n))
    (List.finRange u.numel) x i' (u.rowMajor j₀) (List.mem_finRange _)
    (by simpa using h₀)
    (fun n _ hn => by
      have := hu _ hn
      rw [← this, Equiv.apply_symm_apply])
  simpa using this

end Scatter

/-! ## K vectors of length N written into positions (a, b) of an [N, A, B] array -/

section Set3
variable {N A B K w : Nat} {α : Type}

/-- A statement about the three axes of a rank-3 shape is the three statements. -/
theorem forall_fin3 {P : Fin 3 → Prop} : (∀ c, P c) ↔ P 0 ∧ P 1 ∧ P 2 := by
  constructor
  · intro h; exact ⟨h 0, h 1, h 2⟩
  · rintro ⟨h0, h1, h2⟩ c
    match c with
    | ⟨0, _⟩ => exact h0
    | ⟨1, _⟩ => exact h1
    | ⟨2, _⟩ => exact h2

/-- The dimension numbers of "x.at[:, ia, ib].set(v)" for an operand [N, A, B], a table of K index pairs [K, 2] and updates
    [N, K]: the updates' axis 0 is the window (it runs along the operand's axis 0), the operand's axes 1 and 2 are
    inserted, component c of an index pair is the position on operand axis 1 + c, the pair lies along the table's axis 1. -/
abbrev setDims (N A B K : Nat) (wf : ScatterDims.WF ⟨3, ![N, A, B]⟩ ⟨2, ![K, 2]⟩ ⟨2, ![N, K]⟩ [0] [1, 2] [1, 2] 1) :
    ScatterDims ⟨3, ![N, A, B]⟩ ⟨2, ![K, 2]⟩ ⟨2, ![N, K]⟩ where
  updateWindowDims := [0]
  insertedWindowDims := [1, 2]
  scatterDimsToOperandDims := [1, 2]
  indexVectorDim := 1
  wf := wf

variable (wf : ScatterDims.WF ⟨3, ![N, A, B]⟩ ⟨2, ![K, 2]⟩ ⟨2, ![N, K]⟩ [0] [1, 2] [1, 2] 1)
  (j : (⟨2, ![N, K]⟩ : Shape).Idx) (idx : IVec ⟨2, ![K, 2]⟩ w)

/-- The table entry update index (n, k) reads for component c of its index pair: entry (k, c). -/
theorem setDims_siIdx (c : Fin 2) : (setDims N A B K wf).siIdx j c = ix2 (j 1) c := by
  funext b
  refine Fin.ext ?_
  match b with
  | ⟨0, _⟩ => rfl
  | ⟨1, _⟩ => rfl

/-- No index component goes to operand axis 0: the window starts at 0 there. -/
theorem setDims_start0 : (setDims N A B K wf).start j idx 0 = 0 := by
  unfold ScatterDims.start
  exact dif_neg (show (0 : Fin 3) ∉ ([1, 2] : List (Fin 3)) by decide)

/-- On operand axis 1 the window starts at the pair's first component, read signed. -/
theorem setDims_start1 : (setDims N A B K wf).start j idx 1 = (idx (ix2 (j 1) 0)).toInt := by
  unfold ScatterDims.start
  rw [dif_pos (show (1 : Fin 3) ∈ ([1, 2] : List (Fin 3)) by decide)]
  exact congrArg (fun q => (idx q).toInt) (setDims_siIdx wf j 0)

/-- On operand axis 2 the window starts at the pair's second component, read signed. -/
theorem setDims_start2 : (setDims N A B K wf).start j idx 2 = (idx (ix2 (j 1) 1)).toInt := by
  unfold ScatterDims.start
  rw [dif_pos (show (2 : Fin 3) ∈ ([1, 2] : List (Fin 3)) by decide)]
  exact congrArg (fun q => (idx q).toInt) (setDims_siIdx wf j 1)

/-- Along operand axis 0 the window coordinate is the update's first coordinate. -/
theorem setDims_window0 : (setDims N A B K wf).window j 0 = (j 0).val := by
  unfold ScatterDims.window
  exact dif_pos (List.mem_filter.2 ⟨List.mem_finRange _, rfl⟩)

/-- Operand axis 1 is inserted: the window coordinate is 0. -/
theorem setDims_window1 : (setDims N A B K wf).window j 1 = 0 := by
  unfold ScatterDims.window
  have hmem : (1 : Fin 3) ∉ (setDims N A B K wf).sKept := fun h =>
    absurd (List.mem_filter.1 h).2 (show ¬decide ((1 : Fin 3) ∉ ([1, 2] : List (Fin 3))) = true by decide)
  exact dif_neg hmem

/-- Operand axis 2 is inserted: the window coordinate is 0. -/
theorem setDims_window2 : (setDims N A B K wf).window j 2 = 0 := by
  unfold ScatterDims.window
  have hmem : (2 : Fin 3) ∉ (setDims N A B K wf).sKept := fun h =>
    absurd (List.mem_filter.1 h).2 (show ¬decide ((2 : Fin 3) ∉ ([1, 2] : List (Fin 3))) = true by decide)
  exact dif_neg hmem

/-- WHERE AN UPDATE LANDS: update index (n', k) lands at operand index (n, a, b) exactly when n' = n and row k of the
    table, read signed, is (a, b). (A row outside the operand's range lands nowhere: its update is dropped.) -/
theorem setDims_resultIdx?_eq_some_iff (n : Fin N) (a : Fin A) (b : Fin B) :
    (setDims N A B K wf).resultIdx? j idx = some (ix3 n a b) ↔
      (j 0).val = n.val ∧ (idx (ix2 (j 1) 0)).toInt = (a.val : Int) ∧ (idx (ix2 (j 1) 1)).toInt = (b.val : Int) := by
  have hN : (j 0).val < N := (j 0).isLt
  have hn := n.isLt
  have hA := a.isLt
  have hB := b.isLt
  have e0 : (setDims N A B K wf).start j idx 0 + ((setDims N A B K wf).window j 0 : Int) = ((j 0).val : Int) := by
    rw [setDims_start0, setDims_window0]; omega
  have e1 : (setDims N A B K wf).start j idx 1 + ((setDims N A B K wf).window j 1 : Int) = (idx (ix2 (j 1) 0)).toInt := by
    rw [setDims_start1, setDims_window1]; omega
  have e2 : (setDims N A B K wf).start j idx 2 + ((setDims N A B K wf).window j 2 : Int) = (idx (ix2 (j 1) 1)).toInt := by
    rw [setDims_start2, setDims_window2]; omega
  unfold ScatterDims.resultIdx?
  split
  · rename_i h
    have h0 : 0 ≤ ((j 0).val : Int) ∧ ((j 0).val : Int) < (N : Int) := by have := h 0; rwa [e0] at this
    have h1 : 0 ≤ (idx (ix2 (j 1) 0)).toInt ∧ (idx (ix2 (j 1) 0)).toInt < (A : Int) := by have := h 1; rwa [e1] at this
    have h2 : 0 ≤ (idx (ix2 (j 1) 1)).toInt ∧ (idx (ix2 (j 1) 1)).toInt < (B : Int) := by have := h 2; rwa [e2] at this
    constructor
    · intro e
      have e' := Option.some.inj e
      have c0 : ((setDims N A B K wf).start j idx 0 + ((setDims N A B K wf).window j 0 : Int)).toNat = n.val :=
        congrArg (fun f => (f 0).val) e'
      have c1 : ((setDims N A B K wf).start j idx 1 + ((setDims N A B K wf).window j 1 : Int)).toNat = a.val :=
        congrArg (fun f => (f 1).val) e'
      have c2 : ((setDims N A B K wf).start j idx 2 + ((setDims N A B K wf).window j 2 : Int)).toNat = b.val :=
        congrArg (fun f => (f 2).val) e'
      rw [e0] at c0; rw [e1] at c1; rw [e2] at c2
      omega
    · rintro ⟨c0, c1, c2⟩
      congr 1
      funext c
      refine Fin.ext ?_
      match c with
      | ⟨0, _⟩ =>
        show ((setDims N A B K wf).start j idx 0 + ((setDims N A B K wf).window j 0 : Int)).toNat = n.val
        rw [e0]; omega
      | ⟨1, _⟩ =>
        show ((setDims N A B K wf).start j idx 1 + ((setDims N A B K wf).window j 1 : Int)).toNat = a.val
        rw [e1]; omega
      | ⟨2, _⟩ =>
        show ((setDims N A B K wf).start j idx 2 + ((setDims N A B K wf).window j 2 : Int)).toNat = b.val
        rw [e2]; omega
  · rename_i h
    constructor
    · intro e; exact absurd e (by simp)
    · rintro ⟨c0, c1, c2⟩
      refine absurd (forall_fin3.2 ⟨?_, ?_, ?_⟩) h
      · rw [e0]; show 0 ≤ ((j 0).val : Int) ∧ ((j 0).val : Int) < (N : Int); omega
      · rw [e1]; show 0 ≤ (idx (ix2 (j 1) 0)).toInt ∧ (idx (ix2 (j 1) 0)).toInt < (A : Int); omega
      · rw [e2]; show 0 ≤ (idx (ix2 (j 1) 1)).toInt ∧ (idx (ix2 (j 1) 1)).toInt < (B : Int); omega

end Set3

/-! ## The theorems a program cites

For any dimension-number record of these three shapes whose four lists are the ones above (a program's record is:
each hypothesis is "rfl"). -/

section Apply
variable {N A B K w : Nat} {α : Type}

/-- A HIT. Result element (n, a, b) of "x.at[:, ia, ib].set(v)" is "v[n, k]" when row k of the index table, read signed,
    is (a, b) and no other row is. -/
theorem scatter_set3_hit (d : ScatterDims ⟨3, ![N, A, B]⟩ ⟨2, ![K, 2]⟩ ⟨2, ![N, K]⟩)
    (h1 : d.updateWindowDims = [0]) (h2 : d.insertedWindowDims = [1, 2]) (h3 : d.scatterDimsToOperandDims = [1, 2])
    (h4 : d.indexVectorDim = 1)
    (x : (⟨3, ![N, A, B]⟩ : Shape).Idx → α) (idx : IVec ⟨2, ![K, 2]⟩ w) (upd : (⟨2, ![N, K]⟩ : Shape).Idx → α)
    (n : Fin N) (a : Fin A) (b : Fin B) (k : Fin K)
    (ha : (idx (ix2 k 0)).toInt = (a.val : Int)) (hb : (idx (ix2 k 1)).toInt = (b.val : Int))
    (huniq : ∀ k' : Fin K, (idx (ix2 k' 0)).toInt = (a.val : Int) → (idx (ix2 k' 1)).toInt = (b.val : Int) → k' = k) :
    Host.scatter d (fun _ b => b) x idx upd (ix3 n a b) = upd (ix2 n k) := by
  obtain ⟨uw, iw, sd, iv, wf⟩ := d
  dsimp only at h1 h2 h3 h4
  subst h1 h2 h3 h4
  refine scatter_set_apply_of_unique (setDims N A B K wf) x idx upd (ix3 n a b) (ix2 n k)
    ((setDims_resultIdx?_eq_some_iff wf (ix2 n k) idx n a b).2 ⟨rfl, ha, hb⟩) ?_
  intro j hj
  obtain ⟨p, q, rfl⟩ : ∃ (p : Fin N) (q : Fin K), j = ix2 p q := ⟨j 0, j 1, eq_ix2 j⟩
  obtain ⟨c0, c1, c2⟩ := (setDims_resultIdx?_eq_some_iff wf (ix2 p q) idx n a b).1 hj
  obtain rfl : p = n := Fin.ext c0
  obtain rfl : q = k := huniq q c1 c2
  rfl

/-- A MISS. Result element (n, a, b) of "x.at[:, ia, ib].set(v)" is the operand's when no row of the index table, read
    signed, is (a, b). -/
theorem scatter_set3_miss (d : ScatterDims ⟨3, ![N, A, B]⟩ ⟨2, ![K, 2]⟩ ⟨2, ![N, K]⟩)
    (h1 : d.updateWindowDims = [0]) (h2 : d.insertedWindowDims = [1, 2]) (h3 : d.scatterDimsToOperandDims = [1, 2])
    (h4 : d.indexVectorDim = 1)
    (x : (⟨3, ![N, A, B]⟩ : Shape).Idx → α) (idx : IVec ⟨2, ![K, 2]⟩ w) (upd : (⟨2, ![N, K]⟩ : Shape).Idx → α)
    (n : Fin N) (a : Fin A) (b : Fin B)
    (hno : ∀ k : Fin K, ¬((idx (ix2 k 0)).toInt = (a.val : Int) ∧ (idx (ix2 k 1)).toInt = (b.val : Int))) :
    Host.scatter d (fun _ b => b) x idx upd (ix3 n a b) = x (ix3 n a b) := by
  obtain ⟨uw, iw, sd, iv, wf⟩ := d
  dsimp only at h1 h2 h3 h4
  subst h1 h2 h3 h4
  refine scatter_set_apply_of_forall_ne (setDims N A B K wf) x idx upd (ix3 n a b) ?_
  intro j hj
  obtain ⟨_, c1, c2⟩ := (setDims_resultIdx?_eq_some_iff wf j idx n a b).1 hj
  exact hno (j 1) ⟨c1, c2⟩

/-- The same two for a table GIVEN BY ITS ROWS: "ia k", "ib k" the positions row k names (so every row is inside the
    operand), the rows pairwise distinct as pairs. A hit: at (n, ia k, ib k) the result is "v[n, k]". -/
theorem scatter_set3_rows_hit (d : ScatterDims ⟨3, ![N, A, B]⟩ ⟨2, ![K, 2]⟩ ⟨2, ![N, K]⟩)
    (h1 : d.updateWindowDims = [0]) (h2 : d.insertedWindowDims = [1, 2]) (h3 : d.scatterDimsToOperandDims = [1, 2])
    (h4 : d.indexVectorDim = 1)
    (x : (⟨3, ![N, A, B]⟩ : Shape).Idx → α) (idx : IVec ⟨2, ![K, 2]⟩ w) (upd : (⟨2, ![N, K]⟩ : Shape).Idx → α)
    (ia : Fin K → Fin A) (ib : Fin K → Fin B)
    (hia : ∀ k, (idx (ix2 k 0)).toInt = ((ia k).val : Int)) (hib : ∀ k, (idx (ix2 k 1)).toInt = ((ib k).val : Int))
    (hinj : ∀ k k', ia k = ia k' → ib k = ib k' → k = k') (n : Fin N) (k : Fin K) :
    Host.scatter d (fun _ b => b) x idx upd (ix3 n (ia k) (ib k)) = upd (ix2 n k) := by
  refine scatter_set3_hit d h1 h2 h3 h4 x idx upd n (ia k) (ib k) k (hia k) (hib k) ?_
  intro k' e1 e2
  rw [hia k'] at e1; rw [hib k'] at e2
  exact hinj k' k (Fin.ext (by omega)) (Fin.ext (by omega))

/-- A miss: at (n, a, b) with (a, b) none of the rows the result is the operand's element. -/
theorem scatter_set3_rows_miss (d : ScatterDims ⟨3, ![N, A, B]⟩ ⟨2, ![K, 2]⟩ ⟨2, ![N, K]⟩)
    (h1 : d.updateWindowDims = [0]) (h2 : d.insertedWindowDims = [1, 2]) (h3 : d.scatterDimsToOperandDims = [1, 2])
    (h4 : d.indexVectorDim = 1)
    (x : (⟨3, ![N, A, B]⟩ : Shape).Idx → α) (idx : IVec ⟨2, ![K, 2]⟩ w) (upd : (⟨2, ![N, K]⟩ : Shape).Idx → α)
    (ia : Fin K → Fin A) (ib : Fin K → Fin B)
    (hia : ∀ k, (idx (ix2 k 0)).toInt = ((ia k).val : Int)) (hib : ∀ k, (idx (ix2 k 1)).toInt = ((ib k).val : Int))
    (n : Fin N) (a : Fin A) (b : Fin B) (hno : ∀ k, ¬(ia k = a ∧ ib k = b)) :
    Host.scatter d (fun _ b => b) x idx upd (ix3 n a b) = x (ix3 n a b) := by
  refine scatter_set3_miss d h1 h2 h3 h4 x idx upd n a b ?_
  rintro k ⟨e1, e2⟩
  rw [hia k] at e1; rw [hib k] at e2
  exact hno k ⟨Fin.ext (by omega), Fin.ext (by omega)⟩

end Apply

end Idealize.ShloMosaic.ScatterSet
-- ==== Proof.SkewReshape.lean ====
/-
  Re-reading a 1048576×36 array and a 1048576×6×6 array in the shape [256, 4096, 6, 6].

  Row-major order numbers position (n, 6a + b) of the first and position (n, a, b) of the second alike,
  36 n + 6 a + b, and position (p, q, a, b) of the re-read array has the number ((4096 p + q) 6 + a) 6 + b. So if
  the two arrays agree at matching positions, their re-readings are one array.
-/
import proofs.«141923_j68289980007047_2_alg».proof.Proof.Skew
import Idealize.ShloMosaic.Lib.Pipeline.Value
import Idealize.ShloMosaic.Lib.ValueIdx

noncomputable section

namespace Cert.Skew

open Idealize.ShloMosaic Idealize.ShloMosaic.ValueIdx

/-- Position c = 6a + b of a flattened 6×6 block. -/
def flat6 (a b : Fin 6) : Fin 36 := ⟨6 * a.val + b.val, by have := a.isLt; have := b.isLt; omega⟩

theorem reshape_eq {α : Type} (A : (⟨2, ![1048576, 36]⟩ : Shape).Idx → α) (B : (⟨3, ![1048576, 6, 6]⟩ : Shape).Idx → α)
    (hA : (⟨2, ![1048576, 36]⟩ : Shape).ShapeCasts ⟨4, ![256, 4096, 6, 6]⟩)
    (hB : (⟨3, ![1048576, 6, 6]⟩ : Shape).ShapeCasts ⟨4, ![256, 4096, 6, 6]⟩)
    (h : ∀ (n : Fin 1048576) (a b : Fin 6), A (ix2 n (flat6 a b)) = B (ix3 n a b)) :
    shapeCast ⟨4, ![256, 4096, 6, 6]⟩ A hA = shapeCast ⟨4, ![256, 4096, 6, 6]⟩ B hB := by
  funext i
  obtain ⟨p, q, a, b, rfl⟩ : ∃ (p : Fin 256) (q : Fin 4096) (a b : Fin 6), i = ix4 p q a b := ⟨i 0, i 1, i 2, i 3, eq_ix4 i⟩
  have hn : 4096 * p.val + q.val < 1048576 := by have := p.isLt; have := q.isLt; omega
  rw [shapeCast_apply A hA (ix4 p q a b) (ix2 ⟨4096 * p.val + q.val, hn⟩ (flat6 a b)) (by
        rw [Shape.rowMajor_val_two, Shape.rowMajor_val_four]
        show (4096 * p.val + q.val) * 36 + (6 * a.val + b.val) = ((p.val * 4096 + q.val) * 6 + a.val) * 6 + b.val
        omega),
    shapeCast_apply B hB (ix4 p q a b) (ix3 ⟨4096 * p.val + q.val, hn⟩ a b) (by
        rw [Shape.rowMajor_val_three, Shape.rowMajor_val_four]
        show ((4096 * p.val + q.val) * 6 + a.val) * 6 + b.val = ((p.val * 4096 + q.val) * 6 + a.val) * 6 + b.val
        omega)]
  exact h _ a b

end Cert.Skew

end
-- ==== Proof.SkewScatter.lean ====
/-
  Two ways to spread fifteen numbers per row antisymmetrically over a 6×6 block agree.

  One way contracts the fifteen numbers of row n with a 15×36 table whose entry (k, 6a + b) is the coefficient
  of u k at position (a, b). The other starts from zeros, writes u k at position (iu k, ju k) for every k, and then
  writes −u k at the mirrored position (ju k, iu k). At a mirrored position the second pass decides; at a pair's own
  position the second pass misses and the first decides; elsewhere both miss and the zero stays. In each case the
  contraction has exactly the matching single term, or none.
-/
import proofs.«141923_j68289980007047_2_alg».proof.Proof.LibScatterSet
import proofs.«141923_j68289980007047_2_alg».proof.Proof.SkewReshape

noncomputable section

open scoped BigOperators

namespace Cert.Skew

open Idealize.ShloMosaic Idealize.ShloMosaic.ValueIdx Idealize.ShloMosaic.ScatterSet

theorem spread_eq {N : ℕ} (E : (⟨2, ![15, 36]⟩ : Shape).Idx → EReal) (hE : ∀ (k : Fin 15) (a b : Fin 6), E (ix2 k (flat6 a b)) = coef k a b)
    (U : (⟨2, ![N, 15]⟩ : Shape).Idx → EReal)
    (d : ScatterDims ⟨3, ![N, 6, 6]⟩ ⟨2, ![15, 2]⟩ ⟨2, ![N, 15]⟩)
    (h1 : d.updateWindowDims = [0]) (h2 : d.insertedWindowDims = [1, 2]) (h3 : d.scatterDimsToOperandDims = [1, 2])
    (h4 : d.indexVectorDim = 1)
    (Z : (⟨3, ![N, 6, 6]⟩ : Shape).Idx → EReal) (hZ : ∀ i, Z i = 0)
    (up low : IVec ⟨2, ![15, 2]⟩ 32)
    (hup0 : ∀ k, (up (ix2 k 0)).toInt = ((iu k).val : Int)) (hup1 : ∀ k, (up (ix2 k 1)).toInt = ((ju k).val : Int))
    (hlow0 : ∀ k, (low (ix2 k 0)).toInt = ((ju k).val : Int)) (hlow1 : ∀ k, (low (ix2 k 1)).toInt = ((iu k).val : Int))
    (n : Fin N) (a b : Fin 6) :
    ∑ k : Fin 15, U (ix2 n k) * E (ix2 k (flat6 a b))
      = Host.scatter d (fun _ v => v) (Host.scatter d (fun _ v => v) Z up U) low (Host.negf (F := Ideal) (φ := .f32) U) (ix3 n a b) := by
  simp only [hE]
  by_cases hL : ∃ k, ju k = a ∧ iu k = b
  · obtain ⟨k₀, rfl, rfl⟩ := hL
    rw [scatter_set3_rows_hit d h1 h2 h3 h4 _ low _ ju iu hlow0 hlow1 (fun k k' hj hi => pair_inj k k' hi hj) n k₀,
      sum_coef_lower (fun k => U (ix2 n k)) k₀]
    rfl
  · have hL' : ∀ k, ¬(ju k = a ∧ iu k = b) := fun k hk => hL ⟨k, hk⟩
    rw [scatter_set3_rows_miss d h1 h2 h3 h4 _ low _ ju iu hlow0 hlow1 n a b hL']
    by_cases hU : ∃ k, iu k = a ∧ ju k = b
    · obtain ⟨k₀, rfl, rfl⟩ := hU
      rw [scatter_set3_rows_hit d h1 h2 h3 h4 Z up U iu ju hup0 hup1 pair_inj n k₀,
        sum_coef_upper (fun k => U (ix2 n k)) k₀]
    · have hU' : ∀ k, ¬(iu k = a ∧ ju k = b) := fun k hk => hU ⟨k, hk⟩
      rw [scatter_set3_rows_miss d h1 h2 h3 h4 Z up U iu ju hup0 hup1 n a b hU', hZ,
        sum_coef_none (fun k => U (ix2 n k)) a b hU' hL']

end Cert.Skew

end
-- ==== Proof.Bridge.lean ====
/-
  The two programs' results are one function of the arguments.

  The kernel program ends with the [256, 4096, 6, 6] re-reading of a 1048576×36 array whose position (n, 6a + b) is
  the contraction of row n's fifteen perceptron outputs with column 6a + b of the ±1 table; the reference ends with
  the same re-reading of a 1048576×6×6 array built by the two scatters. The table's entries are the coefficients
  of the antisymmetric spreading, the scatters' index tables are the strict upper triangle's pairs and their
  mirrors, and the perceptron outputs of row n are the same row function of the same row on both sides: so the
  arrays agree at matching positions, and their re-readings are equal.
-/
import proofs.«141923_j68289980007047_2_alg».proof.Proof.KernelRun
import proofs.«141923_j68289980007047_2_alg».proof.Proof.KernelTable
import proofs.«141923_j68289980007047_2_alg».proof.Proof.RefFinal
import proofs.«141923_j68289980007047_2_alg».proof.Proof.SkewScatter

set_option maxRecDepth 16384

noncomputable section

open scoped BigOperators

namespace Cert.Bridge

open Idealize.ShloMosaic Idealize.ShloMosaic.ValueIdx Cert.SkewMlp Cert.Skew
open Cert.ReferenceIdeal.RefValue Cert.ReferenceIdeal.RefIndex

theorem result_eq (a0 : FVec Ideal Cert.KernelIdeal.S256x4096x6 .f32) (a1 : FVec Ideal Cert.KernelIdeal.S8x6 .f32) (a2 : FVec Ideal Cert.KernelIdeal.S8 .f32)
    (a3 : FVec Ideal Cert.KernelIdeal.S8x8 .f32) (a4 : FVec Ideal Cert.KernelIdeal.S8 .f32) (a5 : FVec Ideal Cert.KernelIdeal.S8x8 .f32) (a6 : FVec Ideal Cert.KernelIdeal.S8 .f32)
    (a7 : FVec Ideal Cert.KernelIdeal.S8x8 .f32) (a8 : FVec Ideal Cert.KernelIdeal.S8 .f32) (a9 : FVec Ideal Cert.KernelIdeal.S8x8 .f32) (a10 : FVec Ideal Cert.KernelIdeal.S8 .f32)
    (a11 : FVec Ideal Cert.KernelIdeal.S15x8 .f32) (a12 : FVec Ideal Cert.KernelIdeal.S15 .f32) :
    shapeCast Cert.KernelIdeal.S256x4096x6x6
      (flat (fun i => Ideal.ofBits .f32 (Cert.KernelIdeal.lit0 (Cert.KernelIdeal.S15x36.rowMajor i)))
        (transpose Cert.KernelIdeal.S6x8 [1, 0] a1 Cert.KernelIdeal.Gen.transposes_S8x6_S6x8_1_0) a2
        (transpose Cert.KernelIdeal.S8x8 [1, 0] a3 Cert.KernelIdeal.Gen.transposes_S8x8_S8x8_1_0) a4
        (transpose Cert.KernelIdeal.S8x8 [1, 0] a5 Cert.KernelIdeal.Gen.transposes_S8x8_S8x8_1_0) a6
        (transpose Cert.KernelIdeal.S8x8 [1, 0] a7 Cert.KernelIdeal.Gen.transposes_S8x8_S8x8_1_0) a8
        (transpose Cert.KernelIdeal.S8x8 [1, 0] a9 Cert.KernelIdeal.Gen.transposes_S8x8_S8x8_1_0) a10
        (transpose Cert.KernelIdeal.S8x15 [1, 0] a11 Cert.KernelIdeal.Gen.transposes_S15x8_S8x15_1_0) a12
        (shapeCast Cert.KernelIdeal.S1048576x6 a0 Cert.KernelIdeal.Gen.shapeCasts_S256x4096x6_S1048576x6))
      Cert.KernelIdeal.Gen.shapeCasts_S1048576x36_S256x4096x6x6
      = Cert.ReferenceIdeal.RefValue.R a0 a1 a2 a3 a4 a5 a6 a7 a8 a9 a10 a11 a12 := by
  unfold Cert.ReferenceIdeal.RefValue.R
  refine Cert.Skew.reshape_eq _ _ _ _ fun n a b => ?_
  refine Eq.trans ?_ (Cert.Skew.spread_eq (N := 1048576)
    (fun i => Ideal.ofBits .f32 (Cert.KernelIdeal.lit0 (Cert.KernelIdeal.S15x36.rowMajor i))) (fun k a b => Cert.KernelIdeal.Table.table_eq k a b)
    (hostUt a0 a1 a2 a3 a4 a5 a6 a7 a8 a9 a10 a11 a12)
    Cert.ReferenceIdeal.scatter_S1048576x6x6_S15x2_S1048576x15_0_12_12_1 rfl rfl rfl rfl zeros3 zeros3_apply
    (pairTable iuTab juTab) (pairTable juTab iuTab)
    (fun k => (pairTable_toInt iuTab juTab iu ju iuTab_entry juTab_entry k).1)
    (fun k => (pairTable_toInt iuTab juTab iu ju iuTab_entry juTab_entry k).2)
    (fun k => (pairTable_toInt juTab iuTab ju iu juTab_entry iuTab_entry k).1)
    (fun k => (pairTable_toInt juTab iuTab ju iu juTab_entry iuTab_entry k).2) n a b)
  unfold flat
  refine Finset.sum_congr rfl fun k _ => ?_
  refine congrArg (· * _) ?_
  exact (hostUt_apply a0 a1 a2 a3 a4 a5 a6 a7 a8 a9 a10 a11 a12 n k).symm

end Cert.Bridge

end
-- ==== Proof.lean ====
/-
  Equivalence of a Pallas kernel with its jnp reference, over the extended reals.

  Both programs take a [256, 4096, 6] array of rows of six numbers and the weights and biases of a six-layer
  perceptron (five softplus layers of width eight, one affine layer of width fifteen), and return, for every row,
  the 6×6 antisymmetric matrix whose entries above the diagonal are the row's fifteen outputs, in row-major order.
  The kernel walks the rows in 128 blocks of 8192 and obtains the matrix by one more matrix product, with a constant
  15×36 table of zeros and ±1; the reference works on all rows at once, computes the positions above the diagonal
  at run time with integer operations, and fills the matrix with two scatters.

  At the exact extended-real values every matrix product is a finite sum, softplus is the same expression in both
  programs (their not-a-number guards never fire), a number times 0, 1 or −1 is 0, itself or its negation even when
  it is infinite, and a finite sum does not depend on its order. So the two results are the same function of the
  arguments, index by index; the finiteness of the inputs is not used.

  The frames of the two kernel programs are the generated ones; the reference's frame is its run with the result
  dropped; nothing was rewritten by the idealization, so there is nothing to preserve.
-/
import proofs.«141923_j68289980007047_2_alg».proof.Defs
import proofs.«141923_j68289980007047_2_alg».proof.Proof.Gen.Kernel
import proofs.«141923_j68289980007047_2_alg».proof.Proof.Gen.Kernel.Frame
import proofs.«141923_j68289980007047_2_alg».proof.Proof.Gen.KernelIdeal
import proofs.«141923_j68289980007047_2_alg».proof.Proof.Gen.KernelIdeal.Frame
import proofs.«141923_j68289980007047_2_alg».proof.Proof.Gen.ReferenceIdeal
import proofs.«141923_j68289980007047_2_alg».proof.Proof.Gen.Pre_finite_inputs
import proofs.«141923_j68289980007047_2_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

/-- The word-level kernel runs and leaves its arguments alone. -/
theorem frame_k : Cert.frame_Kernel (hKernel := Cert.Kernel.Gen.facts) (hPre_finite_inputs := Cert.Pre_finite_inputs.Gen.facts) :=
  fun m ρ _ => Cert.Kernel.Gen.frame m ρ

/-- So does the idealized kernel. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's run, with the result forgotten. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RefValue.run m ρ)

/-- From memories that agree on the arguments both programs end with the same result. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.RunValue.K m c, Cert.KernelIdeal.RunValue.run m ρ, ?_⟩
  refine (θ_run Cert.ReferenceIdeal.defs _ _).mono (fun r h c => ⟨(h c).1.trans ?_, (h c).2⟩)
    (Cert.ReferenceIdeal.RefValue.run m' ρ')
  obtain ⟨g0, g1, g2, g3, g4, g5, g6, g7, g8, g9, g10, g11, g12⟩ := hagree c
  rw [g0, g1, g2, g3, g4, g5, g6, g7, g8, g9, g10, g11, g12]
  exact (Cert.Bridge.result_eq (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
    (m ((c.tc : Thread Cert.KernelIdeal.nD Cert.KernelIdeal.τ).loc Cert.KernelIdeal.main_arg7))
    (m ((c.tc : Thread Cert.KernelIdeal.nD Cert.KernelIdeal.τ).loc Cert.KernelIdeal.main_arg8))
    (m ((c.tc : Thread Cert.KernelIdeal.nD Cert.KernelIdeal.τ).loc Cert.KernelIdeal.main_arg9))
    (m ((c.tc : Thread Cert.KernelIdeal.nD Cert.KernelIdeal.τ).loc Cert.KernelIdeal.main_arg10))
    (m ((c.tc : Thread Cert.KernelIdeal.nD Cert.KernelIdeal.τ).loc Cert.KernelIdeal.main_arg11))
    (m ((c.tc : Thread Cert.KernelIdeal.nD Cert.KernelIdeal.τ).loc Cert.KernelIdeal.main_arg12))).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
